-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S4x32 : Shape := ⟨2, ![4, 32]⟩
abbrev S32 : Shape := ⟨1, ![32]⟩
abbrev S32x32 : Shape := ⟨2, ![32, 32]⟩
abbrev S64x32 : Shape := ⟨2, ![64, 32]⟩
abbrev S32x8 : Shape := ⟨2, ![32, 8]⟩
abbrev S8 : Shape := ⟨1, ![8]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg14 : FVec F S8 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg11 : FVec F S32x32 .f32) (main_arg12 : FVec F S32 .f32) (main_arg13 : FVec F S32x8 .f32) (main_arg14 : FVec F S8 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x8 .f32 := Host.absf main_arg13
  let main_cst_24 : FVec F S_ .f32 := constant S_ .f32 0x7F800000#32
  let main_v65 : FVec F S32x8 .f32 := broadcastInDim S32x8 ![] bcast_S_S32x8 main_cst_24
  let main_v66 : IVec S32x8 1 := cmpf .olt main_v64 main_v65
  let main_c_25 : IVec S_ 1 := constantI S_ 1 1#1
  let main_v67 : IVec S_ 1 := (fun x v => Host.reduce IntOp.andi x v reducesTo_S32x8_S_d0_1 h_S_) main_v66 main_c_25
  fn_part4 (F := F) main_arg14 main_v63 main_v67

def fn_part2 {F : FTy → Type} [FloatOps F] (main_arg7 : FVec F S32x32 .f32) (main_arg8 : FVec F S32 .f32) (main_arg9 : FVec F S64x32 .f32) (main_arg10 : FVec F S32 .f32) (main_arg11 : FVec F S32x32 .f32) (main_arg12 : FVec F S32 .f32) (main_arg13 : FVec F S32x8 .f32) (main_arg14 : FVec F S8 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_v48 main_v49 main_v50

def fn_part1 {F : FTy → Type} [FloatOps F] (main_arg4 : FVec F S32 .f32) (main_arg5 : FVec F S4x32 .f32) (main_arg6 : FVec F S32 .f32) (main_arg7 : FVec F S32x32 .f32) (main_arg8 : FVec F S32 .f32) (main_arg9 : FVec F S64x32 .f32) (main_arg10 : FVec F S32 .f32) (main_arg11 : FVec F S32x32 .f32) (main_arg12 : FVec F S32 .f32) (main_arg13 : FVec F S32x8 .f32) (main_arg14 : FVec F S8 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S4x32 .f32 := Host.absf main_arg5
  let main_cst_8 : FVec F S_ .f32 := constant S_ .f32 0x7F800000#32
  let main_v25 : FVec F S4x32 .f32 := broadcastInDim S4x32 ![] bcast_S_S4x32 main_cst_8
  let main_v26 : IVec S4x32 1 := cmpf .olt main_v24 main_v25
  let main_c_9 : IVec S_ 1 := constantI S_ 1 1#1
  let main_v27 : IVec S_ 1 := (fun x v => Host.reduce IntOp.andi x v reducesTo_S4x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1048576x8 .f32) (main_arg1 : FVec F S4x32 .f32) (main_arg2 : FVec F S32 .f32) (main_arg3 : FVec F S32x32 .f32) (main_arg4 : FVec F S32 .f32) (main_arg5 : FVec F S4x32 .f32) (main_arg6 : FVec F S32 .f32) (main_arg7 : FVec F S32x32 .f32) (main_arg8 : FVec F S32 .f32) (main_arg9 : FVec F S64x32 .f32) (main_arg10 : FVec F S32 .f32) (main_arg11 : FVec F S32x32 .f32) (main_arg12 : FVec F S32 .f32) (main_arg13 : FVec F S32x8 .f32) (main_arg14 : FVec F S8 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S4x32 .f32 := Host.absf main_arg1
  let main_cst_0 : FVec F S_ .f32 := constant S_ .f32 0x7F800000#32
  let main_v5 : FVec F S4x32 .f32 := broadcastInDim S4x32 ![] bcast_S_S4x32 main_cst_0
  let main_v6 : IVec S4x32 1 := cmpf .olt main_v4 main_v5
  let main_c_1 : IVec S_ 1 := constantI S_ 1 1#1
  let main_v7 : IVec S_ 1 := (fun x v => Host.reduce IntOp.andi x v reducesTo_S4x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1048576x8 : Shape := ⟨2, ![1048576, 8]⟩
abbrev S4x32 : Shape := ⟨2, ![4, 32]⟩
abbrev S32 : Shape := ⟨1, ![32]⟩
abbrev S32x32 : Shape := ⟨2, ![32, 32]⟩
abbrev S64x32 : Shape := ⟨2, ![64, 32]⟩
abbrev S32x8 : Shape := ⟨2, ![32, 8]⟩
abbrev S8 : Shape := ⟨1, ![8]⟩
abbrev S_ : Shape := ⟨0, ![]⟩
abbrev S65x9 : Shape := ⟨2, ![65, 9]⟩
abbrev S32x4 : Shape := ⟨2, ![32, 4]⟩
abbrev S1 : Shape := ⟨1, ![1]⟩
abbrev S2 : Shape := ⟨1, ![2]⟩
abbrev S64 : Shape := ⟨1, ![64]⟩
abbrev S65x65 : Shape := ⟨2, ![65, 65]⟩
abbrev S33x65 : Shape := ⟨2, ![33, 65]⟩
abbrev S32x64 : Shape := ⟨2, ![32, 64]⟩
abbrev S33x33 : Shape := ⟨2, ![33, 33]⟩
abbrev S8x33 : Shape := ⟨2, ![8, 33]⟩
abbrev S8x32 : Shape := ⟨2, ![8, 32]⟩
abbrev S8x1048576 : Shape := ⟨2, ![8, 1048576]⟩
abbrev S8x16384 : Shape := ⟨2, ![8, 16384]⟩
abbrev S1x16384 : Shape := ⟨2, ![1, 16384]⟩
abbrev S9x16384 : Shape := ⟨2, ![9, 16384]⟩
abbrev S65x16384 : Shape := ⟨2, ![65, 16384]⟩
abbrev S33x16384 : Shape := ⟨2, ![33, 16384]⟩

abbrev nBuf : Space → Nat
  | .hbm => 131
  | .vmem => 9
  | .smem => 0
  | _ => 0

abbrev hbmTy0_0 (i : Nat) : BufTy := match i % 128 with
  | 0 => ⟨S1048576x8, .f32⟩
  | 1 => ⟨S4x32, .f32⟩
  | 2 => ⟨S32, .f32⟩
  | 3 => ⟨S32x32, .f32⟩
  | 4 => ⟨S32, .f32⟩
  | 5 => ⟨S4x32, .f32⟩
  | 6 => ⟨S32, .f32⟩
  | 7 => ⟨S32x32, .f32⟩
  | 8 => ⟨S32, .f32⟩
  | 9 => ⟨S64x32, .f32⟩
  | 10 => ⟨S32, .f32⟩
  | 11 => ⟨S32x32, .f32⟩
  | 12 => ⟨S32, .f32⟩
  | 13 => ⟨S32x8, .f32⟩
  | 14 => ⟨S8, .f32⟩
  | 15 => ⟨S_, .f32⟩
  | 16 => ⟨S65x9, .f32⟩
  | 17 => ⟨S32x4, .f32⟩
  | 18 => ⟨S_, .i32⟩
  | 19 => ⟨S1, .i32⟩
  | 20 => ⟨S_, .i32⟩
  | 21 => ⟨S1, .i32⟩
  | 22 => ⟨S2, .i32⟩
  | 23 => ⟨S65x9, .f32⟩
  | 24 => ⟨S32x4, .f32⟩
  | 25 => ⟨S_, .i32⟩
  | 26 => ⟨S1, .i32⟩
  | 27 => ⟨S_, .i32⟩
  | 28 => ⟨S1, .i32⟩
  | 29 => ⟨S2, .i32⟩
  | 30 => ⟨S65x9, .f32⟩
  | 31 => ⟨S64, .f32⟩
  | 32 => ⟨S_, .i32⟩
  | 33 => ⟨S1, .i32⟩
  | 34 => ⟨S_, .i32⟩
  | 35 => ⟨S1, .i32⟩
  | 36 => ⟨S2, .i32⟩
  | 37 => ⟨S65x9, .f32⟩
  | 38 => ⟨S_, .i32⟩
  | 39 => ⟨S1, .i32⟩
  | 40 => ⟨S_, .i32⟩
  | 41 => ⟨S1, .i32⟩
  | 42 => ⟨S2, .i32⟩
  | 43 => ⟨S_, .f32⟩
  | 44 => ⟨S65x9, .f32⟩
  | 45 => ⟨S_, .f32⟩
  | 46 => ⟨S65x65, .f32⟩
  | 47 => ⟨S32x32, .f32⟩
  | 48 => ⟨S_, .i32⟩
  | 49 => ⟨S1, .i32⟩
  | 50 => ⟨S_, .i32⟩
  | 51 => ⟨S1, .i32⟩
  | 52 => ⟨S2, .i32⟩
  | 53 => ⟨S65x65, .f32⟩
  | 54 => ⟨S32x32, .f32⟩
  | 55 => ⟨S_, .i32⟩
  | 56 => ⟨S1, .i32⟩
  | 57 => ⟨S_, .i32⟩
  | 58 => ⟨S1, .i32⟩
  | 59 => ⟨S2, .i32⟩
  | 60 => ⟨S65x65, .f32⟩
  | 61 => ⟨S64, .f32⟩
  | 62 => ⟨S_, .i32⟩
  | 63 => ⟨S1, .i32⟩
  | 64 => ⟨S_, .i32⟩
  | 65 => ⟨S1, .i32⟩
  | 66 => ⟨S2, .i32⟩
  | 67 => ⟨S65x65, .f32⟩
  | 68 => ⟨S_, .i32⟩
  | 69 => ⟨S1, .i32⟩
  | 70 => ⟨S_, .i32⟩
  | 71 => ⟨S1, .i32⟩
  | 72 => ⟨S2, .i32⟩
  | 73 => ⟨S_, .f32⟩
  | 74 => ⟨S65x65, .f32⟩
  | 75 => ⟨S_, .f32⟩
  | 76 => ⟨S33x65, .f32⟩
  | 77 => ⟨S32x64, .f32⟩
  | 78 => ⟨S_, .i32⟩
  | 79 => ⟨S1, .i32⟩
  | 80 => ⟨S_, .i32⟩
  | 81 => ⟨S1, .i32⟩
  | 82 => ⟨S2, .i32⟩
  | 83 => ⟨S33x65, .f32⟩
  | 84 => ⟨S_, .i32⟩
  | 85 => ⟨S1, .i32⟩
  | 86 => ⟨S_, .i32⟩
  | 87 => ⟨S1, .i32⟩
  | 88 => ⟨S2, .i32⟩
  | 89 => ⟨S33x65, .f32⟩
  | 90 => ⟨S_, .i32⟩
  | 91 => ⟨S1, .i32⟩
  | 92 => ⟨S_, .i32⟩
  | 93 => ⟨S1, .i32⟩
  | 94 => ⟨S2, .i32⟩
  | 95 => ⟨S_, .f32⟩
  | 96 => ⟨S33x65, .f32⟩
  | 97 => ⟨S_, .f32⟩
  | 98 => ⟨S33x33, .f32⟩
  | 99 => ⟨S32x32, .f32⟩
  | 100 => ⟨S_, .i32⟩
  | 101 => ⟨S1, .i32⟩
  | 102 => ⟨S_, .i32⟩
  | 103 => ⟨S1, .i32⟩
  | 104 => ⟨S2, .i32⟩
  | 105 => ⟨S33x33, .f32⟩
  | 106 => ⟨S_, .i32⟩
  | 107 => ⟨S1, .i32⟩
  | 108 => ⟨S_, .i32⟩
  | 109 => ⟨S1, .i32⟩
  | 110 => ⟨S2, .i32⟩
  | 111 => ⟨S33x33, .f32⟩
  | 112 => ⟨S_, .i32⟩
  | 113 => ⟨S1, .i32⟩
  | 114 => ⟨S_, .i32⟩
  | 115 => ⟨S1, .i32⟩
  | 116 => ⟨S2, .i32⟩
  | 117 => ⟨S_, .f32⟩
  | 118 => ⟨S33x33, .f32⟩
  | 119 => ⟨S_, .f32⟩
  | 120 => ⟨S8x33, .f32⟩
  | 121 => ⟨S8x32, .f32⟩
  | 122 => ⟨S_, .i32⟩
  | 123 => ⟨S1, .i32⟩
  | 124 => ⟨S8x33, .f32⟩
  | 125 => ⟨S_, .i32⟩
  | 126 => ⟨S1, .i32⟩
  | 127 => ⟨S8x33, .f32⟩
  | _ => ⟨S1048576x8, .f32⟩

abbrev hbmTy0_1 (i : Nat) : BufTy := match i % 128 with
  | 0 => ⟨S8x1048576, .f32⟩
  | 1 => ⟨S8x1048576, .f32⟩
  | 2 => ⟨S1048576x8, .f32⟩
  | _ => ⟨S1048576x8, .f32⟩

abbrev hbmTy (i : Nat) : BufTy := match i / 128 with
  | 0 => hbmTy0_0 i
  | 1 => hbmTy0_1 i
  | _ => ⟨S1048576x8, .f32⟩

abbrev bufTy : (tb : Table) → Fin (tcTables nBuf tb) → BufTy
  | .hbm, ⟨i, _⟩ => hbmTy i
  | .local _ .vmem, ⟨0, _⟩ => ⟨S8x16384, .f32⟩
  | .local _ .vmem, ⟨1, _⟩ => ⟨S8x16384, .f32⟩
  | .local _ .vmem, ⟨2, _⟩ => ⟨S65x9, .f32⟩
  | .local _ .vmem, ⟨3, _⟩ => ⟨S65x65, .f32⟩
  | .local _ .vmem, ⟨4, _⟩ => ⟨S33x65, .f32⟩
  | .local _ .vmem, ⟨5, _⟩ => ⟨S33x33, .f32⟩
  | .local _ .vmem, ⟨6, _⟩ => ⟨S8x33, .f32⟩
  | .local _ .vmem, ⟨7, _⟩ => ⟨S8x16384, .f32⟩
  | .local _ .vmem, ⟨8, _⟩ => ⟨S8x16384, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_5 : Ref sig .tc := ⟨.hbm, 38, rfl⟩
abbrev main_v16 : Ref sig .tc := ⟨.hbm, 39, rfl⟩
abbrev main_c_6 : Ref sig .tc := ⟨.hbm, 40, rfl⟩
abbrev main_v17 : Ref sig .tc := ⟨.hbm, 41, rfl⟩
abbrev main_v18 : Ref sig .tc := ⟨.hbm, 42, rfl⟩
abbrev main_cst_7 : Ref sig .tc := ⟨.hbm, 43, rfl⟩
abbrev main_v19 : Ref sig .tc := ⟨.hbm, 44, rfl⟩
abbrev main_cst_8 : Ref sig .tc := ⟨.hbm, 45, rfl⟩
abbrev main_v20 : Ref sig .tc := ⟨.hbm, 46, rfl⟩
abbrev main_v21 : Ref sig .tc := ⟨.hbm, 47, rfl⟩
abbrev main_c_9 : Ref sig .tc := ⟨.hbm, 48, rfl⟩
abbrev main_v22 : Ref sig .tc := ⟨.hbm, 49, rfl⟩
abbrev main_c_10 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_11 : Ref sig .tc := ⟨.hbm, 55, rfl⟩
abbrev main_v27 : Ref sig .tc := ⟨.hbm, 56, rfl⟩
abbrev main_c_12 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_13 : Ref sig .tc := ⟨.hbm, 62, rfl⟩
abbrev main_v32 : Ref sig .tc := ⟨.hbm, 63, rfl⟩
abbrev main_c_14 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_15 : Ref sig .tc := ⟨.hbm, 68, rfl⟩
abbrev main_v36 : Ref sig .tc := ⟨.hbm, 69, rfl⟩
abbrev main_c_16 : Ref sig .tc := ⟨.hbm, 70, rfl⟩
abbrev main_v37 : Ref sig .tc := ⟨.hbm, 71, rfl⟩
abbrev main_v38 : Ref sig .tc := ⟨.hbm, 72, rfl⟩
abbrev main_cst_17 : Ref sig .tc := ⟨.hbm, 73, rfl⟩
abbrev main_v39 : Ref sig .tc := ⟨.hbm, 74, rfl⟩
abbrev main_cst_18 : Ref sig .tc := ⟨.hbm, 75, rfl⟩
abbrev main_v40 : Ref sig .tc := ⟨.hbm, 76, rfl⟩
abbrev main_v41 : Ref sig .tc := ⟨.hbm, 77, rfl⟩
abbrev main_c_19 : Ref sig .tc := ⟨.hbm, 78, rfl⟩
abbrev main_v42 : Ref sig .tc := ⟨.hbm, 79, rfl⟩
abbrev main_c_20 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_21 : Ref sig .tc := ⟨.hbm, 84, rfl⟩
abbrev main_v46 : Ref sig .tc := ⟨.hbm, 85, rfl⟩
abbrev main_c_22 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_23 : Ref sig .tc := ⟨.hbm, 90, rfl⟩
abbrev main_v50 : Ref sig .tc := ⟨.hbm, 91, rfl⟩
abbrev main_c_24 : Ref sig .tc := ⟨.hbm, 92, rfl⟩
abbrev main_v51 : Ref sig .tc := ⟨.hbm, 93, rfl⟩
abbrev main_v52 : Ref sig .tc := ⟨.hbm, 94, rfl⟩
abbrev main_cst_25 : Ref sig .tc := ⟨.hbm, 95, rfl⟩
abbrev main_v53 : Ref sig .tc := ⟨.hbm, 96, rfl⟩
abbrev main_cst_26 : Ref sig .tc := ⟨.hbm, 97, rfl⟩
abbrev main_v54 : Ref sig .tc := ⟨.hbm, 98, rfl⟩
abbrev main_v55 : Ref sig .tc := ⟨.hbm, 99, rfl⟩
abbrev main_c_27 : Ref sig .tc := ⟨.hbm, 100, rfl⟩
abbrev main_v56 : Ref sig .tc := ⟨.hbm, 101, rfl⟩
abbrev main_c_28 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_29 : Ref sig .tc := ⟨.hbm, 106, rfl⟩
abbrev main_v60 : Ref sig .tc := ⟨.hbm, 107, rfl⟩
abbrev main_c_30 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_31 : Ref sig .tc := ⟨.hbm, 112, rfl⟩
abbrev main_v64 : Ref sig .tc := ⟨.hbm, 113, rfl⟩
abbrev main_c_32 : Ref sig .tc := ⟨.hbm, 114, rfl⟩
abbrev main_v65 : Ref sig .tc := ⟨.hbm, 115, rfl⟩
abbrev main_v66 : Ref sig .tc := ⟨.hbm, 116, rfl⟩
abbrev main_cst_33 : Ref sig .tc := ⟨.hbm, 117, rfl⟩
abbrev main_v67 : Ref sig .tc := ⟨.hbm, 118, rfl⟩
abbrev main_cst_34 : Ref sig .tc := ⟨.hbm, 119, rfl⟩
abbrev main_v68 : Ref sig .tc := ⟨.hbm, 120, rfl⟩
abbrev main_v69 : Ref sig .tc := ⟨.hbm, 121, rfl⟩
abbrev main_c_35 : Ref sig .tc := ⟨.hbm, 122, rfl⟩
abbrev main_v70 : Ref sig .tc := ⟨.hbm, 123, rfl⟩
abbrev main_v71 : Ref sig .tc := ⟨.hbm, 124, rfl⟩
abbrev main_c_36 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S65x65 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S33x65 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S33x33 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x33 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S65x9 : S_.BroadcastsInDim S65x9 (![] : Fin 0 → Fin S65x9.rank)
  transposes_S4x32_S32x4_1_0 : S4x32.Transposes [1, 0] S32x4
  bcast_S_S1 : S_.BroadcastsInDim S1 (![] : Fin 0 → Fin S1.rank)
  concatenates_S1_S1_S2_d0 : Shape.Concatenates [S1, S1] S2 0
  concatenates_S32_S32_S64_d0 : Shape.Concatenates [S32, S32] S64 0
  bcast_S_S65x65 : S_.BroadcastsInDim S65x65 (![] : Fin 0 → Fin S65x65.rank)
  transposes_S32x32_S32x32_1_0 : S32x32.Transposes [1, 0] S32x32
  bcast_S_S33x65 : S_.BroadcastsInDim S33x65 (![] : Fin 0 → Fin S33x65.rank)
  transposes_S64x32_S32x64_1_0 : S64x32.Transposes [1, 0] S32x64
  bcast_S_S33x33 : S_.BroadcastsInDim S33x33 (![] : Fin 0 → Fin S33x33.rank)
  bcast_S_S8x33 : S_.BroadcastsInDim S8x33 (![] : Fin 0 → Fin S8x33.rank)
  transposes_S32x8_S8x32_1_0 : S32x8.Transposes [1, 0] S8x32
  transposes_S1048576x8_S8x1048576_1_0 : S1048576x8.Transposes [1, 0] S8x1048576
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  concatenates_S8x16384_S1x16384_S9x16384_d0 : Shape.Concatenates [S8x16384, S1x16384] S9x16384 0
  inb_S65x9_S65x9_0_0 : ∀ a, (![0, 0] : Fin 2 → Nat) a + S65x9.size a ≤ S65x9.size a
  h_S65x9 : 0 < S65x9.numel
  shapeCasts_S65x9_S65x9 : S65x9.ShapeCasts S65x9
  inb_S65x65_S65x65_0_0 : ∀ a, (![0, 0] : Fin 2 → Nat) a + S65x65.size a ≤ S65x65.size a
  h_S65x65 : 0 < S65x65.numel
  shapeCasts_S65x65_S65x65 : S65x65.ShapeCasts S65x65
  inb_S33x65_S33x65_0_0 : ∀ a, (![0, 0] : Fin 2 → Nat) a + S33x65.size a ≤ S33x65.size a
  h_S33x65 : 0 < S33x65.numel
  shapeCasts_S33x65_S33x65 : S33x65.ShapeCasts S33x65
  inb_S33x33_S33x33_0_0 : ∀ a, (![0, 0] : Fin 2 → Nat) a + S33x33.size a ≤ S33x33.size a
  h_S33x33 : 0 < S33x33.numel
  shapeCasts_S33x33_S33x33 : S33x33.ShapeCasts S33x33
  inb_S8x33_S8x33_0_0 : ∀ a, (![0, 0] : Fin 2 → Nat) a + S8x33.size a ≤ S8x33.size a
  h_S8x33 : 0 < S8x33.numel
  shapeCasts_S8x33_S8x33 : S8x33.ShapeCasts S8x33
  transposes_S8x1048576_S1048576x8_1_0 : S8x1048576.Transposes [1, 0] S1048576x8
  scatter_S65x9_S2_S32x4_01_n_01_0_wf : ScatterDims.WF S65x9 S2 S32x4 [0, 1] [] [0, 1] 0
  scatter_S65x9_S2_S64_0_1_01_0_wf : ScatterDims.WF S65x9 S2 S64 [0] [1] [0, 1] 0
  scatter_S65x9_S2_S__n_01_01_0_wf : ScatterDims.WF S65x9 S2 S_ [] [0, 1] [0, 1] 0
  scatter_S65x65_S2_S32x32_01_n_01_0_wf : ScatterDims.WF S65x65 S2 S32x32 [0, 1] [] [0, 1] 0
  scatter_S65x65_S2_S64_0_1_01_0_wf : ScatterDims.WF S65x65 S2 S64 [0] [1] [0, 1] 0
  scatter_S65x65_S2_S__n_01_01_0_wf : ScatterDims.WF S65x65 S2 S_ [] [0, 1] [0, 1] 0
  scatter_S33x65_S2_S32x64_01_n_01_0_wf : ScatterDims.WF S33x65 S2 S32x64 [0, 1] [] [0, 1] 0
  scatter_S33x65_S2_S32_0_1_01_0_wf : ScatterDims.WF S33x65 S2 S32 [0] [1] [0, 1] 0
  scatter_S33x65_S2_S__n_01_01_0_wf : ScatterDims.WF S33x65 S2 S_ [] [0, 1] [0, 1] 0
  scatter_S33x33_S2_S32x32_01_n_01_0_wf : ScatterDims.WF S33x33 S2 S32x32 [0, 1] [] [0, 1] 0
  scatter_S33x33_S2_S32_0_1_01_0_wf : ScatterDims.WF S33x33 S2 S32 [0] [1] [0, 1] 0
  scatter_S33x33_S2_S__n_01_01_0_wf : ScatterDims.WF S33x33 S2 S_ [] [0, 1] [0, 1] 0
  scatter_S8x33_S1_S8x32_01_n_1_0_wf : ScatterDims.WF S8x33 S1 S8x32 [0, 1] [] [1] 0
  scatter_S8x33_S1_S8_0_1_1_0_wf : ScatterDims.WF S8x33 S1 S8 [0] [1] [1] 0
  dot_S65x9_S9x16384_S65x16384_1_0_0_1_n_n_wf : DotDims.WF S65x9 S9x16384 S65x16384 [1] [0] [0] [1] [] []
  dot_S65x65_S65x16384_S65x16384_1_0_0_1_n_n_wf : DotDims.WF S65x65 S65x16384 S65x16384 [1] [0] [0] [1] [] []
  dot_S33x65_S65x16384_S33x16384_1_0_0_1_n_n_wf : DotDims.WF S33x65 S65x16384 S33x16384 [1] [0] [0] [1] [] []
  dot_S33x33_S33x16384_S33x16384_1_0_0_1_n_n_wf : DotDims.WF S33x33 S33x16384 S33x16384 [1] [0] [0] [1] [] []
  dot_S8x33_S33x16384_S8x16384_1_0_0_1_n_n_wf : DotDims.WF S8x33 S33x16384 S8x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384.size a ≤ S8x1048576.size a
  hwx0_0 : ∀ i : grid0.Coords, EltTy.bits .f32 = 32 ∨ (Rect.block (s := S8x1048576) S8x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65x9.size a ≤ S65x9.size a
  hwx0_1 : ∀ i : grid0.Coords, EltTy.bits .f32 = 32 ∨ (Rect.block (s := S65x9) S65x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x65.size a ≤ S65x65.size a
  hwx0_2 : ∀ i : grid0.Coords, EltTy.bits .f32 = 32 ∨ (Rect.block (s := S65x65) S65x65.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S33x65.size a ≤ S33x65.size a
  hwx0_3 : ∀ i : grid0.Coords, EltTy.bits .f32 = 32 ∨ (Rect.block (s := S33x65) S33x65.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S33x33.size a ≤ S33x33.size a
  hwx0_4 : ∀ i : grid0.Coords, EltTy.bits .f32 = 32 ∨ (Rect.block (s := S33x33) S33x33.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x33.size a ≤ S8x33.size a
  hwx0_5 : ∀ i : grid0.Coords, EltTy.bits .f32 = 32 ∨ (Rect.block (s := S8x33) S8x33.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x16384.size a ≤ S8x1048576.size a
  hwx0_6 : ∀ i : grid0.Coords, EltTy.bits .f32 = 32 ∨ (Rect.block (s := S8x1048576) S8x16384.size (cc0_transform_6 i) (hinb0_6 i)).WholeWords (EltTy.packing .f32)

variable [Facts₀]

def scatter_S65x9_S2_S32x4_01_n_01_0 : ScatterDims S65x9 S2 S32x4 where
  updateWindowDims := [0, 1]
  insertedWindowDims := []
  scatterDimsToOperandDims := [0, 1]
  indexVectorDim := 0
  wf := scatter_S65x9_S2_S32x4_01_n_01_0_wf
def scatter_S65x9_S2_S64_0_1_01_0 : ScatterDims S65x9 S2 S64 where
  updateWindowDims := [0]
  insertedWindowDims := [1]
  scatterDimsToOperandDims := [0, 1]
  indexVectorDim := 0
  wf := scatter_S65x9_S2_S64_0_1_01_0_wf
def scatter_S65x9_S2_S__n_01_01_0 : ScatterDims S65x9 S2 S_ where
  updateWindowDims := []
  insertedWindowDims := [0, 1]
  scatterDimsToOperandDims := [0, 1]
  indexVectorDim := 0
  wf := scatter_S65x9_S2_S__n_01_01_0_wf
def scatter_S65x65_S2_S32x32_01_n_01_0 : ScatterDims S65x65 S2 S32x32 where
  updateWindowDims := [0, 1]
  insertedWindowDims := []
  scatterDimsToOperandDims := [0, 1]
  indexVectorDim := 0
  wf := scatter_S65x65_S2_S32x32_01_n_01_0_wf
def scatter_S65x65_S2_S64_0_1_01_0 : ScatterDims S65x65 S2 S64 where
  updateWindowDims := [0]
  insertedWindowDims := [1]
  scatterDimsToOperandDims := [0, 1]
  indexVectorDim := 0
  wf := scatter_S65x65_S2_S64_0_1_01_0_wf
def scatter_S65x65_S2_S__n_01_01_0 : ScatterDims S65x65 S2 S_ where
  updateWindowDims := []
  insertedWindowDims := [0, 1]
  scatterDimsToOperandDims := [0, 1]
  indexVectorDim := 0
  wf := scatter_S65x65_S2_S__n_01_01_0_wf
def scatter_S33x65_S2_S32x64_01_n_01_0 : ScatterDims S33x65 S2 S32x64 where
  updateWindowDims := [0, 1]
  insertedWindowDims := []
  scatterDimsToOperandDims := [0, 1]
  indexVectorDim := 0
  wf := scatter_S33x65_S2_S32x64_01_n_01_0_wf
def scatter_S33x65_S2_S32_0_1_01_0 : ScatterDims S33x65 S2 S32 where
  updateWindowDims := [0]
  insertedWindowDims := [1]
  scatterDimsToOperandDims := [0, 1]
  indexVectorDim := 0
  wf := scatter_S33x65_S2_S32_0_1_01_0_wf
def scatter_S33x65_S2_S__n_01_01_0 : ScatterDims S33x65 S2 S_ where
  updateWindowDims := []
  insertedWindowDims := [0, 1]
  scatterDimsToOperandDims := [0, 1]
  indexVectorDim := 0
  wf := scatter_S33x65_S2_S__n_01_01_0_wf
def scatter_S33x33_S2_S32x32_01_n_01_0 : ScatterDims S33x33 S2 S32x32 where
  updateWindowDims := [0, 1]
  insertedWindowDims := []
  scatterDimsToOperandDims := [0, 1]
  indexVectorDim := 0
  wf := scatter_S33x33_S2_S32x32_01_n_01_0_wf
def scatter_S33x33_S2_S32_0_1_01_0 : ScatterDims S33x33 S2 S32 where
  updateWindowDims := [0]
  insertedWindowDims := [1]
  scatterDimsToOperandDims := [0, 1]
  indexVectorDim := 0
  wf := scatter_S33x33_S2_S32_0_1_01_0_wf
def scatter_S33x33_S2_S__n_01_01_0 : ScatterDims S33x33 S2 S_ where
  updateWindowDims := []
  insertedWindowDims := [0, 1]
  scatterDimsToOperandDims := [0, 1]
  indexVectorDim := 0
  wf := scatter_S33x33_S2_S__n_01_01_0_wf
def scatter_S8x33_S1_S8x32_01_n_1_0 : ScatterDims S8x33 S1 S8x32 where
  updateWindowDims := [0, 1]
  insertedWindowDims := []
  scatterDimsToOperandDims := [1]
  indexVectorDim := 0
  wf := scatter_S8x33_S1_S8x32_01_n_1_0_wf
def scatter_S8x33_S1_S8_0_1_1_0 : ScatterDims S8x33 S1 S8 where
  updateWindowDims := [0]
  insertedWindowDims := [1]
  scatterDimsToOperandDims := [1]
  indexVectorDim := 0
  wf := scatter_S8x33_S1_S8_0_1_1_0_wf
def dot_S65x9_S9x16384_S65x16384_1_0_0_1_n_n : DotDims S65x9 S9x16384 S65x16384 where
  lhsContracting := [1]
  rhsContracting := [0]
  lhsNonContracting := [0]
  rhsNonContracting := [1]
  lhsBatch := []
  rhsBatch := []
  wf := dot_S65x9_S9x16384_S65x16384_1_0_0_1_n_n_wf
def dot_S65x65_S65x16384_S65x16384_1_0_0_1_n_n : DotDims S65x65 S65x16384 S65x16384 where
  lhsContracting := [1]
  rhsContracting := [0]
  lhsNonContracting := [0]
  rhsNonContracting := [1]
  lhsBatch := []
  rhsBatch := []
  wf := dot_S65x65_S65x16384_S65x16384_1_0_0_1_n_n_wf
def dot_S33x65_S65x16384_S33x16384_1_0_0_1_n_n : DotDims S33x65 S65x16384 S33x16384 where
  lhsContracting := [1]
  rhsContracting := [0]
  lhsNonContracting := [0]
  rhsNonContracting := [1]
  lhsBatch := []
  rhsBatch := []
  wf := dot_S33x65_S65x16384_S33x16384_1_0_0_1_n_n_wf
def dot_S33x33_S33x16384_S33x16384_1_0_0_1_n_n : DotDims S33x33 S33x16384 S33x16384 where
  lhsContracting := [1]
  rhsContracting := [0]
  lhsNonContracting := [0]
  rhsNonContracting := [1]
  lhsBatch := []
  rhsBatch := []
  wf := dot_S33x33_S33x16384_S33x16384_1_0_0_1_n_n_wf
def dot_S8x33_S33x16384_S8x16384_1_0_0_1_n_n : DotDims S8x33 S33x16384 S8x16384 where
  lhsContracting := [1]
  rhsContracting := [0]
  lhsNonContracting := [0]
  rhsNonContracting := [1]
  lhsBatch := []
  rhsBatch := []
  wf := dot_S8x33_S33x16384_S8x16384_1_0_0_1_n_n_wf

abbrev win0_0 : Pipeline.Window sig grid0 :=
  Pipeline.Window.ofSpec (Memref.whole main_v74) S8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S65x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S65x65.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S33x65.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v67) S33x33.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v73) S8x33.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v75) S8x16384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S4x32 : Shape := ⟨2, ![4, 32]⟩
abbrev S32 : Shape := ⟨1, ![32]⟩
abbrev S32x32 : Shape := ⟨2, ![32, 32]⟩
abbrev S64x32 : Shape := ⟨2, ![64, 32]⟩
abbrev S32x8 : Shape := ⟨2, ![32, 8]⟩
abbrev S8 : Shape := ⟨1, ![8]⟩
abbrev S_ : Shape := ⟨0, ![]⟩
abbrev S8x64 : Shape := ⟨2, ![8, 64]⟩
abbrev S1 : Shape := ⟨1, ![1]⟩
abbrev S2 : Shape := ⟨1, ![2]⟩
abbrev S64 : Shape := ⟨1, ![64]⟩
abbrev S64x64 : Shape := ⟨2, ![64, 64]⟩
abbrev S5x128x128 : Shape := ⟨3, ![5, 128, 128]⟩
abbrev S5x1x128 : Shape := ⟨3, ![5, 1, 128]⟩
abbrev S3 : Shape := ⟨1, ![3]⟩
abbrev S1048576x128 : Shape := ⟨2, ![1048576, 128]⟩
abbrev S256x128 : Shape := ⟨2, ![256, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 136
  | .vmem => 6
  | .smem => 0
  | _ => 0

abbrev hbmTy0_0 (i : Nat) : BufTy := match i % 128 with
  | 0 => ⟨S1048576x8, .f32⟩
  | 1 => ⟨S4x32, .f32⟩
  | 2 => ⟨S32, .f32⟩
  | 3 => ⟨S32x32, .f32⟩
  | 4 => ⟨S32, .f32⟩
  | 5 => ⟨S4x32, .f32⟩
  | 6 => ⟨S32, .f32⟩
  | 7 => ⟨S32x32, .f32⟩
  | 8 => ⟨S32, .f32⟩
  | 9 => ⟨S64x32, .f32⟩
  | 10 => ⟨S32, .f32⟩
  | 11 => ⟨S32x32, .f32⟩
  | 12 => ⟨S32, .f32⟩
  | 13 => ⟨S32x8, .f32⟩
  | 14 => ⟨S8, .f32⟩
  | 15 => ⟨S_, .f32⟩
  | 16 => ⟨S8x64, .f32⟩
  | 17 => ⟨S_, .i32⟩
  | 18 => ⟨S1, .i32⟩
  | 19 => ⟨S_, .i32⟩
  | 20 => ⟨S1, .i32⟩
  | 21 => ⟨S2, .i32⟩
  | 22 => ⟨S8x64, .f32⟩
  | 23 => ⟨S_, .i32⟩
  | 24 => ⟨S1, .i32⟩
  | 25 => ⟨S_, .i32⟩
  | 26 => ⟨S1, .i32⟩
  | 27 => ⟨S2, .i32⟩
  | 28 => ⟨S8x64, .f32⟩
  | 29 => ⟨S64, .f32⟩
  | 30 => ⟨S_, .f32⟩
  | 31 => ⟨S64x64, .f32⟩
  | 32 => ⟨S_, .i32⟩
  | 33 => ⟨S1, .i32⟩
  | 34 => ⟨S_, .i32⟩
  | 35 => ⟨S1, .i32⟩
  | 36 => ⟨S2, .i32⟩
  | 37 => ⟨S64x64, .f32⟩
  | 38 => ⟨S_, .i32⟩
  | 39 => ⟨S1, .i32⟩
  | 40 => ⟨S_, .i32⟩
  | 41 => ⟨S1, .i32⟩
  | 42 => ⟨S2, .i32⟩
  | 43 => ⟨S64x64, .f32⟩
  | 44 => ⟨S64, .f32⟩
  | 45 => ⟨S_, .f32⟩
  | 46 => ⟨S5x128x128, .f32⟩
  | 47 => ⟨S_, .f32⟩
  | 48 => ⟨S5x1x128, .f32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S3, .i32⟩
  | 56 => ⟨S5x128x128, .f32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S3, .i32⟩
  | 64 => ⟨S5x1x128, .f32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S3, .i32⟩
  | 72 => ⟨S5x128x128, .f32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S3, .i32⟩
  | 80 => ⟨S5x1x128, .f32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S3, .i32⟩
  | 88 => ⟨S5x128x128, .f32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S3, .i32⟩
  | 96 => ⟨S5x1x128, .f32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S3, .i32⟩
  | 104 => ⟨S5x128x128, .f32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S3, .i32⟩
  | 112 => ⟨S5x1x128, .f32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S3, .i32⟩
  | 120 => ⟨S5x128x128, .f32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S3, .i32⟩
  | _ => ⟨S1048576x8, .f32⟩

abbrev hbmTy0_1 (i : Nat) : BufTy := match i % 128 with
  | 0 => ⟨S5x1x128, .f32⟩
  | 1 => ⟨S_, .f32⟩
  | 2 => ⟨S1048576x128, .f32⟩
  | 3 => ⟨S_, .i32⟩
  | 4 => ⟨S1, .i32⟩
  | 5 => ⟨S1048576x128, .f32⟩
  | 6 => ⟨S1048576x128, .f32⟩
  | 7 => ⟨S1048576x8, .f32⟩
  | _ => ⟨S1048576x8, .f32⟩

abbrev hbmTy (i : Nat) : BufTy := match i / 128 with
  | 0 => hbmTy0_0 i
  | 1 => hbmTy0_1 i
  | _ => ⟨S1048576x8, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S5x128x128, .f32⟩
  | .local _ .vmem, ⟨3, _⟩ => ⟨S5x1x128, .f32⟩
  | .local _ .vmem, ⟨4, _⟩ => ⟨S256x128, .f32⟩
  | .local _ .vmem, ⟨5, _⟩ => ⟨S256x128, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_v5 : Ref sig .tc := ⟨.hbm, 24, rfl⟩
abbrev main_c_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_c_4 : Ref sig .tc := ⟨.hbm, 32, rfl⟩
abbrev main_v11 : Ref sig .tc := ⟨.hbm, 33, rfl⟩
abbrev main_c_5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_v15 : Ref sig .tc := ⟨.hbm, 39, rfl⟩
abbrev main_c_7 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_8 : Ref sig .tc := ⟨.hbm, 45, rfl⟩
abbrev main_v20 : Ref sig .tc := ⟨.hbm, 46, rfl⟩
abbrev main_cst_9 : Ref sig .tc := ⟨.hbm, 47, rfl⟩
abbrev main_v21 : Ref sig .tc := ⟨.hbm, 48, rfl⟩
abbrev main_c_10 : Ref sig .tc := ⟨.hbm, 49, rfl⟩
abbrev main_v22 : Ref sig .tc := ⟨.hbm, 50, rfl⟩
abbrev main_c_11 : Ref sig .tc := ⟨.hbm, 51, rfl⟩
abbrev main_v23 : Ref sig .tc := ⟨.hbm, 52, rfl⟩
abbrev main_c_12 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_13 : Ref sig .tc := ⟨.hbm, 57, rfl⟩
abbrev main_v27 : Ref sig .tc := ⟨.hbm, 58, rfl⟩
abbrev main_c_14 : Ref sig .tc := ⟨.hbm, 59, rfl⟩
abbrev main_v28 : Ref sig .tc := ⟨.hbm, 60, rfl⟩
abbrev main_c_15 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_16 : Ref sig .tc := ⟨.hbm, 65, rfl⟩
abbrev main_v32 : Ref sig .tc := ⟨.hbm, 66, rfl⟩
abbrev main_c_17 : Ref sig .tc := ⟨.hbm, 67, rfl⟩
abbrev main_v33 : Ref sig .tc := ⟨.hbm, 68, rfl⟩
abbrev main_c_18 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_19 : Ref sig .tc := ⟨.hbm, 73, rfl⟩
abbrev main_v37 : Ref sig .tc := ⟨.hbm, 74, rfl⟩
abbrev main_c_20 : Ref sig .tc := ⟨.hbm, 75, rfl⟩
abbrev main_v38 : Ref sig .tc := ⟨.hbm, 76, rfl⟩
abbrev main_c_21 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_22 : Ref sig .tc := ⟨.hbm, 81, rfl⟩
abbrev main_v42 : Ref sig .tc := ⟨.hbm, 82, rfl⟩
abbrev main_c_23 : Ref sig .tc := ⟨.hbm, 83, rfl⟩
abbrev main_v43 : Ref sig .tc := ⟨.hbm, 84, rfl⟩
abbrev main_c_24 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_c_25 : Ref sig .tc := ⟨.hbm, 89, rfl⟩
abbrev main_v47 : Ref sig .tc := ⟨.hbm, 90, rfl⟩
abbrev main_c_26 : Ref sig .tc := ⟨.hbm, 91, rfl⟩
abbrev main_v48 : Ref sig .tc := ⟨.hbm, 92, rfl⟩
abbrev main_c_27 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_28 : Ref sig .tc := ⟨.hbm, 97, rfl⟩
abbrev main_v52 : Ref sig .tc := ⟨.hbm, 98, rfl⟩
abbrev main_c_29 : Ref sig .tc := ⟨.hbm, 99, rfl⟩
abbrev main_v53 : Ref sig .tc := ⟨.hbm, 100, rfl⟩
abbrev main_c_30 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_c_31 : Ref sig .tc := ⟨.hbm, 105, rfl⟩
abbrev main_v57 : Ref sig .tc := ⟨.hbm, 106, rfl⟩
abbrev main_c_32 : Ref sig .tc := ⟨.hbm, 107, rfl⟩
abbrev main_v58 : Ref sig .tc := ⟨.hbm, 108, rfl⟩
abbrev main_c_33 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_c_34 : Ref sig .tc := ⟨.hbm, 113, rfl⟩
abbrev main_v62 : Ref sig .tc := ⟨.hbm, 114, rfl⟩
abbrev main_c_35 : Ref sig .tc := ⟨.hbm, 115, rfl⟩
abbrev main_v63 : Ref sig .tc := ⟨.hbm, 116, rfl⟩
abbrev main_c_36 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_c_37 : Ref sig .tc := ⟨.hbm, 121, rfl⟩
abbrev main_v67 : Ref sig .tc := ⟨.hbm, 122, rfl⟩
abbrev main_c_38 : Ref sig .tc := ⟨.hbm, 123, rfl⟩
abbrev main_v68 : Ref sig .tc := ⟨.hbm, 124, rfl⟩
abbrev main_c_39 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_cst_40 : Ref sig .tc := ⟨.hbm, 129, rfl⟩
abbrev main_v72 : Ref sig .tc := ⟨.hbm, 130, rfl⟩
abbrev main_c_41 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8x64 : S_.BroadcastsInDim S8x64 (![] : Fin 0 → Fin S8x64.rank)
  bcast_S_S1 : S_.BroadcastsInDim S1 (![] : Fin 0 → Fin S1.rank)
  concatenates_S1_S1_S2_d0 : Shape.Concatenates [S1, S1] S2 0
  concatenates_S32_S32_S64_d0 : Shape.Concatenates [S32, S32] S64 0
  bcast_S_S64x64 : S_.BroadcastsInDim S64x64 (![] : Fin 0 → Fin S64x64.rank)
  bcast_S_S5x128x128 : S_.BroadcastsInDim S5x128x128 (![] : Fin 0 → Fin S5x128x128.rank)
  bcast_S_S5x1x128 : S_.BroadcastsInDim S5x1x128 (![] : Fin 0 → Fin S5x1x128.rank)
  concatenates_S1_S1_S1_S3_d0 : Shape.Concatenates [S1, S1, S1] S3 0
  bcast_S_S1048576x128 : S_.BroadcastsInDim S1048576x128 (![] : Fin 0 → Fin S1048576x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S5x1x128_S1x1x128_0_0_0 : ∀ a, (![0, 0, 0] : Fin 3 → Nat) a + S1x1x128.size a ≤ S5x1x128.size a
  h_S1x1x128 : 0 < S1x1x128.numel
  shapeCasts_S1x1x128_S1x128 : S1x1x128.ShapeCasts S1x128
  broadcasts_S1x128_S256x128 : S1x128.Broadcasts S256x128
  inb_S5x128x128_S1x128x128_1_0_0 : ∀ a, (![1, 0, 0] : Fin 3 → Nat) a + S1x128x128.size a ≤ S5x128x128.size a
  inb_S5x1x128_S1x1x128_1_0_0 : ∀ a, (![1, 0, 0] : Fin 3 → Nat) a + S1x1x128.size a ≤ S5x1x128.size a
  inb_S5x128x128_S1x128x128_2_0_0 : ∀ a, (![2, 0, 0] : Fin 3 → Nat) a + S1x128x128.size a ≤ S5x128x128.size a
  inb_S5x1x128_S1x1x128_2_0_0 : ∀ a, (![2, 0, 0] : Fin 3 → Nat) a + S1x1x128.size a ≤ S5x1x128.size a
  inb_S5x128x128_S1x128x128_3_0_0 : ∀ a, (![3, 0, 0] : Fin 3 → Nat) a + S1x128x128.size a ≤ S5x128x128.size a
  inb_S5x1x128_S1x1x128_3_0_0 : ∀ a, (![3, 0, 0] : Fin 3 → Nat) a + S1x1x128.size a ≤ S5x1x128.size a
  inb_S5x128x128_S1x128x128_4_0_0 : ∀ a, (![4, 0, 0] : Fin 3 → Nat) a + S1x128x128.size a ≤ S5x128x128.size a
  inb_S5x1x128_S1x1x128_4_0_0 : ∀ a, (![4, 0, 0] : Fin 3 → Nat) a + S1x1x128.size a ≤ S5x1x128.size a
  slices_S1048576x128_S1048576x8_0_0 : S1048576x128.Slices ![0, 0] S1048576x8
  scatter_S8x64_S2_S4x32_01_n_01_0_wf : ScatterDims.WF S8x64 S2 S4x32 [0, 1] [] [0, 1] 0
  scatter_S64x64_S2_S32x32_01_n_01_0_wf : ScatterDims.WF S64x64 S2 S32x32 [0, 1] [] [0, 1] 0
  scatter_S5x128x128_S3_S8x64_01_0_012_0_wf : ScatterDims.WF S5x128x128 S3 S8x64 [0, 1] [0] [0, 1, 2] 0
  scatter_S5x1x128_S3_S64_0_01_012_0_wf : ScatterDims.WF S5x1x128 S3 S64 [0] [0, 1] [0, 1, 2] 0
  scatter_S5x128x128_S3_S64x64_01_0_012_0_wf : ScatterDims.WF S5x128x128 S3 S64x64 [0, 1] [0] [0, 1, 2] 0
  scatter_S5x128x128_S3_S64x32_01_0_012_0_wf : ScatterDims.WF S5x128x128 S3 S64x32 [0, 1] [0] [0, 1, 2] 0
  scatter_S5x1x128_S3_S32_0_01_012_0_wf : ScatterDims.WF S5x1x128 S3 S32 [0] [0, 1] [0, 1, 2] 0
  scatter_S5x128x128_S3_S32x32_01_0_012_0_wf : ScatterDims.WF S5x128x128 S3 S32x32 [0, 1] [0] [0, 1, 2] 0
  scatter_S5x128x128_S3_S32x8_01_0_012_0_wf : ScatterDims.WF S5x128x128 S3 S32x8 [0, 1] [0] [0, 1, 2] 0
  scatter_S5x1x128_S3_S8_0_01_012_0_wf : ScatterDims.WF S5x1x128 S3 S8 [0] [0, 1] [0, 1, 2] 0
  scatter_S1048576x128_S1_S1048576x8_01_n_1_0_wf : ScatterDims.WF S1048576x128 S1 S1048576x8 [0, 1] [] [1] 0
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S1048576x128.size a
  hwx0_0 : ∀ i : grid0.Coords, EltTy.bits .f32 = 32 ∨ (Rect.block (s := S1048576x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128x128.size a ≤ S5x128x128.size a
  hwx0_1 : ∀ i : grid0.Coords, EltTy.bits .f32 = 32 ∨ (Rect.block (s := S5x128x128) S5x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x1x128.size a ≤ S5x1x128.size a
  hwx0_2 : ∀ i : grid0.Coords, EltTy.bits .f32 = 32 ∨ (Rect.block (s := S5x1x128) S5x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S1048576x128.size a
  hwx0_3 : ∀ i : grid0.Coords, EltTy.bits .f32 = 32 ∨ (Rect.block (s := S1048576x128) S256x128.size (cc0_transform_3 i) (hinb0_3 i)).WholeWords (EltTy.packing .f32)

variable [Facts₀]

def scatter_S8x64_S2_S4x32_01_n_01_0 : ScatterDims S8x64 S2 S4x32 where
  updateWindowDims := [0, 1]
  insertedWindowDims := []
  scatterDimsToOperandDims := [0, 1]
  indexVectorDim := 0
  wf := scatter_S8x64_S2_S4x32_01_n_01_0_wf
def scatter_S64x64_S2_S32x32_01_n_01_0 : ScatterDims S64x64 S2 S32x32 where
  updateWindowDims := [0, 1]
  insertedWindowDims := []
  scatterDimsToOperandDims := [0, 1]
  indexVectorDim := 0
  wf := scatter_S64x64_S2_S32x32_01_n_01_0_wf
def scatter_S5x128x128_S3_S8x64_01_0_012_0 : ScatterDims S5x128x128 S3 S8x64 where
  updateWindowDims := [0, 1]
  insertedWindowDims := [0]
  scatterDimsToOperandDims := [0, 1, 2]
  indexVectorDim := 0
  wf := scatter_S5x128x128_S3_S8x64_01_0_012_0_wf
def scatter_S5x1x128_S3_S64_0_01_012_0 : ScatterDims S5x1x128 S3 S64 where
  updateWindowDims := [0]
  insertedWindowDims := [0, 1]
  scatterDimsToOperandDims := [0, 1, 2]
  indexVectorDim := 0
  wf := scatter_S5x1x128_S3_S64_0_01_012_0_wf
def scatter_S5x128x128_S3_S64x64_01_0_012_0 : ScatterDims S5x128x128 S3 S64x64 where
  updateWindowDims := [0, 1]
  insertedWindowDims := [0]
  scatterDimsToOperandDims := [0, 1, 2]
  indexVectorDim := 0
  wf := scatter_S5x128x128_S3_S64x64_01_0_012_0_wf
def scatter_S5x128x128_S3_S64x32_01_0_012_0 : ScatterDims S5x128x128 S3 S64x32 where
  updateWindowDims := [0, 1]
  insertedWindowDims := [0]
  scatterDimsToOperandDims := [0, 1, 2]
  indexVectorDim := 0
  wf := scatter_S5x128x128_S3_S64x32_01_0_012_0_wf
def scatter_S5x1x128_S3_S32_0_01_012_0 : ScatterDims S5x1x128 S3 S32 where
  updateWindowDims := [0]
  insertedWindowDims := [0, 1]
  scatterDimsToOperandDims := [0, 1, 2]
  indexVectorDim := 0
  wf := scatter_S5x1x128_S3_S32_0_01_012_0_wf
def scatter_S5x128x128_S3_S32x32_01_0_012_0 : ScatterDims S5x128x128 S3 S32x32 where
  updateWindowDims := [0, 1]
  insertedWindowDims := [0]
  scatterDimsToOperandDims := [0, 1, 2]
  indexVectorDim := 0
  wf := scatter_S5x128x128_S3_S32x32_01_0_012_0_wf
def scatter_S5x128x128_S3_S32x8_01_0_012_0 : ScatterDims S5x128x128 S3 S32x8 where
  updateWindowDims := [0, 1]
  insertedWindowDims := [0]
  scatterDimsToOperandDims := [0, 1, 2]
  indexVectorDim := 0
  wf := scatter_S5x128x128_S3_S32x8_01_0_012_0_wf
def scatter_S5x1x128_S3_S8_0_01_012_0 : ScatterDims S5x1x128 S3 S8 where
  updateWindowDims := [0]
  insertedWindowDims := [0, 1]
  scatterDimsToOperandDims := [0, 1, 2]
  indexVectorDim := 0
  wf := scatter_S5x1x128_S3_S8_0_01_012_0_wf
def scatter_S1048576x128_S1_S1048576x8_01_n_1_0 : ScatterDims S1048576x128 S1 S1048576x8 where
  updateWindowDims := [0, 1]
  insertedWindowDims := []
  scatterDimsToOperandDims := [1]
  indexVectorDim := 0
  wf := scatter_S1048576x128_S1_S1048576x8_01_n_1_0_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v74) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S5x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v71) S5x1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v75) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.RefFrame.Kit.lean ====
/-
  The frame of the reference program, first half: the program around its one grid region.

  The reference's entry function pads its fifteen arguments into three arrays (an input of 1048576 x 128 words,
  a slab of five 128 x 128 weight matrices, a slab of five bias rows) by a stretch of host operations, runs one
  grid region of 4096 points over four windows, and slices the region's output array afterwards.  Here:
  the contents of every buffer when the region is entered (V), the fact that no host operation writes an
  argument array (before the region: V_main_argK; after it: W_main_argK), the block of each window at a grid
  point (iblk), the fact that an input window's staging buffer holds that block at every point whether the
  pipeline fetched it there or kept it (before0_w_of), and the passage from the library's frame run to the
  frame claim (frame_of).
-/
import proofs.«138684_g2000407009072039_pallasbulk_686_4_alg».proof.Proof.Gen.ReferenceIdeal.Launch
import proofs.«138684_g2000407009072039_pallasbulk_686_4_alg».proof.Proof.Gen.ReferenceIdeal.Skeleton
import proofs.«138684_g2000407009072039_pallasbulk_686_4_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Every TensorCore buffer of core c after the 119 host operations that precede the region, started from the
    launch memory m. -/
abbrev V0 (c : Dev nD) : Valuation τ sig (Elt F) := StableHlo.after (List.flatten [hostOps0]) (fun b => m (c, b))
/-- V0 at a TensorCore reference. -/
abbrev V (c : Dev nD) (b : Ref sig .tc) : Buf (Elt F) ((c : Thread nD τ).loc b) := V0 m c (Proc.devRef .tc b)

/-- No host operation before the region allocates a buffer. -/
theorem hostOps0_fresh : (hostOps0 : List (HloOp τ sig (Elt F))).Forall fun op => op.fresh = ∅ := by
  simp only [List.Forall]; repeat' constructor
/-- Nor does the slice after it. -/
theorem hostOps1_fresh : (hostOps1 : List (HloOp τ sig (Elt F))).Forall fun op => op.fresh = ∅ := by
  simp only [List.Forall]; repeat' constructor

/-- The entry function is: the host prefix, the region, the host suffix.  So a run of it reaches the region
    with the buffers at V, and continues after the region with the suffix. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1]
    (by simp only [List.Forall]; exact hostOps0_sub) (by simp only [List.Forall]; exact hostOps0_fresh) main_chain

/-! ## The host suffix: one slice of the output array -/

/-- The slice touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop

/-- It writes its own result buffer, which is none of the four arrays the windows stage. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  obtain rfl : op = _ := by simpa [hostOps1] using hop
  intro w
  fin_cases w <;> simp only [StableHlo.unary_writes, Finset.mem_singleton] <;>
    exact StableHlo.devRef_ne_of_ne (by decide)

/-! ## No host operation writes an argument array

Every host operation writes exactly one buffer, its own result, and no result buffer is an argument of the
entry function: so each argument array is, at the region's entry and at the end, what it was at the launch. -/

/-- The stretch ops of host operations writes no buffer equal to the reference of the goal: each operation's
    write set is the singleton of its result, a reference other than that one. -/
local macro "not_written_by " ops:ident : tactic => `(tactic| (
  simp only [$ops:ident, List.flatten_cons, List.flatten_nil, List.append_nil, List.cons_append, List.nil_append,
    List.Forall, StableHlo.nullary_writes, StableHlo.unary_writes, StableHlo.binary_writes, StableHlo.ternary_writes,
    StableHlo.nary_writes, Finset.mem_singleton]
  repeat' apply And.intro
  all_goals exact StableHlo.devRef_ne_of_ne (by decide)))

/-- Argument 0 at the region's entry is the launch's. -/
theorem V_main_arg0 (c : Dev nD) : V m c main_arg0 = m ((c : Thread nD τ).loc main_arg0) :=
  StableHlo.after_of_forall_not_mem (b := Proc.devRef .tc main_arg0) _ _
    (List.forall_iff_forall_mem.mp (by not_written_by hostOps0))
/-- Argument 1 at the region's entry is the launch's. -/
theorem V_main_arg1 (c : Dev nD) : V m c main_arg1 = m ((c : Thread nD τ).loc main_arg1) :=
  StableHlo.after_of_forall_not_mem (b := Proc.devRef .tc main_arg1) _ _
    (List.forall_iff_forall_mem.mp (by not_written_by hostOps0))
/-- Argument 2 at the region's entry is the launch's. -/
theorem V_main_arg2 (c : Dev nD) : V m c main_arg2 = m ((c : Thread nD τ).loc main_arg2) :=
  StableHlo.after_of_forall_not_mem (b := Proc.devRef .tc main_arg2) _ _
    (List.forall_iff_forall_mem.mp (by not_written_by hostOps0))
/-- Argument 3 at the region's entry is the launch's. -/
theorem V_main_arg3 (c : Dev nD) : V m c main_arg3 = m ((c : Thread nD τ).loc main_arg3) :=
  StableHlo.after_of_forall_not_mem (b := Proc.devRef .tc main_arg3) _ _
    (List.forall_iff_forall_mem.mp (by not_written_by hostOps0))
/-- Argument 4 at the region's entry is the launch's. -/
theorem V_main_arg4 (c : Dev nD) : V m c main_arg4 = m ((c : Thread nD τ).loc main_arg4) :=
  StableHlo.after_of_forall_not_mem (b := Proc.devRef .tc main_arg4) _ _
    (List.forall_iff_forall_mem.mp (by not_written_by hostOps0))
/-- Argument 5 at the region's entry is the launch's. -/
theorem V_main_arg5 (c : Dev nD) : V m c main_arg5 = m ((c : Thread nD τ).loc main_arg5) :=
  StableHlo.after_of_forall_not_mem (b := Proc.devRef .tc main_arg5) _ _
    (List.forall_iff_forall_mem.mp (by not_written_by hostOps0))
/-- Argument 6 at the region's entry is the launch's. -/
theorem V_main_arg6 (c : Dev nD) : V m c main_arg6 = m ((c : Thread nD τ).loc main_arg6) :=
  StableHlo.after_of_forall_not_mem (b := Proc.devRef .tc main_arg6) _ _
    (List.forall_iff_forall_mem.mp (by not_written_by hostOps0))
/-- Argument 7 at the region's entry is the launch's. -/
theorem V_main_arg7 (c : Dev nD) : V m c main_arg7 = m ((c : Thread nD τ).loc main_arg7) :=
  StableHlo.after_of_forall_not_mem (b := Proc.devRef .tc main_arg7) _ _
    (List.forall_iff_forall_mem.mp (by not_written_by hostOps0))
/-- Argument 8 at the region's entry is the launch's. -/
theorem V_main_arg8 (c : Dev nD) : V m c main_arg8 = m ((c : Thread nD τ).loc main_arg8) :=
  StableHlo.after_of_forall_not_mem (b := Proc.devRef .tc main_arg8) _ _
    (List.forall_iff_forall_mem.mp (by not_written_by hostOps0))
/-- Argument 9 at the region's entry is the launch's. -/
theorem V_main_arg9 (c : Dev nD) : V m c main_arg9 = m ((c : Thread nD τ).loc main_arg9) :=
  StableHlo.after_of_forall_not_mem (b := Proc.devRef .tc main_arg9) _ _
    (List.forall_iff_forall_mem.mp (by not_written_by hostOps0))
/-- Argument 10 at the region's entry is the launch's. -/
theorem V_main_arg10 (c : Dev nD) : V m c main_arg10 = m ((c : Thread nD τ).loc main_arg10) :=
  StableHlo.after_of_forall_not_mem (b := Proc.devRef .tc main_arg10) _ _
    (List.forall_iff_forall_mem.mp (by not_written_by hostOps0))
/-- Argument 11 at the region's entry is the launch's. -/
theorem V_main_arg11 (c : Dev nD) : V m c main_arg11 = m ((c : Thread nD τ).loc main_arg11) :=
  StableHlo.after_of_forall_not_mem (b := Proc.devRef .tc main_arg11) _ _
    (List.forall_iff_forall_mem.mp (by not_written_by hostOps0))
/-- Argument 12 at the region's entry is the launch's. -/
theorem V_main_arg12 (c : Dev nD) : V m c main_arg12 = m ((c : Thread nD τ).loc main_arg12) :=
  StableHlo.after_of_forall_not_mem (b := Proc.devRef .tc main_arg12) _ _
    (List.forall_iff_forall_mem.mp (by not_written_by hostOps0))
/-- Argument 13 at the region's entry is the launch's. -/
theorem V_main_arg13 (c : Dev nD) : V m c main_arg13 = m ((c : Thread nD τ).loc main_arg13) :=
  StableHlo.after_of_forall_not_mem (b := Proc.devRef .tc main_arg13) _ _
    (List.forall_iff_forall_mem.mp (by not_written_by hostOps0))
/-- Argument 14 at the region's entry is the launch's. -/
theorem V_main_arg14 (c : Dev nD) : V m c main_arg14 = m ((c : Thread nD τ).loc main_arg14) :=
  StableHlo.after_of_forall_not_mem (b := Proc.devRef .tc main_arg14) _ _
    (List.forall_iff_forall_mem.mp (by not_written_by hostOps0))

/-- After the region the arrays of the four windows hold what the pipeline left; every other buffer, an argument
    in particular, is as at the region's entry, and the slice that follows does not write it either. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _
      (List.forall_iff_forall_mem.mp (by not_written_by hostOps1)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _
      (List.forall_iff_forall_mem.mp (by not_written_by hostOps1)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _
      (List.forall_iff_forall_mem.mp (by not_written_by hostOps1)),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _
      (List.forall_iff_forall_mem.mp (by not_written_by hostOps1)),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _
      (List.forall_iff_forall_mem.mp (by not_written_by hostOps1)),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _
      (List.forall_iff_forall_mem.mp (by not_written_by hostOps1)),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _
      (List.forall_iff_forall_mem.mp (by not_written_by hostOps1)),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _
      (List.forall_iff_forall_mem.mp (by not_written_by hostOps1)),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _
      (List.forall_iff_forall_mem.mp (by not_written_by hostOps1)),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _
      (List.forall_iff_forall_mem.mp (by not_written_by hostOps1)),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _
      (List.forall_iff_forall_mem.mp (by not_written_by hostOps1)),
    Pipeline.withArrays_of_ne _ c (V0 m c) _ main_arg10 (by exact (by decide : ∀ w, Pipeline.arrRef spec0 w ≠ main_arg10))]
  exact V_main_arg10 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _
      (List.forall_iff_forall_mem.mp (by not_written_by hostOps1)),
    Pipeline.withArrays_of_ne _ c (V0 m c) _ main_arg11 (by exact (by decide : ∀ w, Pipeline.arrRef spec0 w ≠ main_arg11))]
  exact V_main_arg11 m c
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _
      (List.forall_iff_forall_mem.mp (by not_written_by hostOps1)),
    Pipeline.withArrays_of_ne _ c (V0 m c) _ main_arg12 (by exact (by decide : ∀ w, Pipeline.arrRef spec0 w ≠ main_arg12))]
  exact V_main_arg12 m c
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _
      (List.forall_iff_forall_mem.mp (by not_written_by hostOps1)),
    Pipeline.withArrays_of_ne _ c (V0 m c) _ main_arg13 (by exact (by decide : ∀ w, Pipeline.arrRef spec0 w ≠ main_arg13))]
  exact V_main_arg13 m c
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _
      (List.forall_iff_forall_mem.mp (by not_written_by hostOps1)),
    Pipeline.withArrays_of_ne _ c (V0 m c) _ main_arg14 (by exact (by decide : ∀ w, Pipeline.arrRef spec0 w ≠ main_arg14))]
  exact V_main_arg14 m c

/-! ## The windows' blocks -/

/-- The block of window w at grid point t, read off the window's array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! An input window's staging buffer holds the window's block at EVERY point.  Window 0 (a 256 x 128 block of
the padded input) is fetched at each point.  Windows 1 and 2 (the whole weight slab, the whole bias slab) have a
constant block index and are fetched at the first point only; at a later point the buffer is what the body left
at the point before, and a body that leaves the block in place leaves this point's block, the index not having
moved.  Both cases are the library's one lemma on inputs; no window is clipped or idle. -/
theorem before0_0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

/-! ## From the frame run to the frame claim -/

/-- The frame claim's postcondition, from a run to the library's frame postcondition: there every unscoped
    buffer that is no window's array ends as the suffix leaves the region-entry contents, and for an argument
    that is the launch contents (W_main_argK).  None of the fifteen arguments is a window's array: the windows
    stage the padded arrays the prefix built. -/
theorem frame_of (dats : (p : Fin 1) → (c : Dev nD) → Dat τ (Elt F) Unit ℕ (UR sig nD τ) ℕ (cfgs p) c)
    (h : θ_run defs (onTc (τ := τ) (main (F := F))) (s₀ m ρ)
      (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c),
      ((h c).2 main_arg14 (Pipeline.mem_restRefs_of main_arg14 (by decide) (by decide))).trans (W_main_arg14 m dats c)⟩) h

end Cert.ReferenceIdeal.Hand

end
-- ==== Proof.RefFrame.lean ====
/-
  The frame of the reference program, second half: the kernel body, the proof data, the run.

  The body of the region is a five-layer perceptron on one 256 x 128 block of rows: it loads the block, the five
  128 x 128 weight matrices and the five bias rows (sub-rectangles of the two slabs, which are staged whole), and
  stores once, over the whole output block.  It is printed in two parts; the first hands on the activations after
  three layers together with the fourth layer's weight matrix.  So what the body leaves in the output window's
  buffer is a function of the three input blocks alone (out0_3), every input buffer is left as found, and the
  pipeline's invariant passes through unread.  With that as proof data, the library's frame run applies, and
  the frame claim follows by the first half.
-/
import proofs.«138684_g2000407009072039_pallasbulk_686_4_alg».proof.Proof.RefFrame.Kit

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The whole 256 x 128 block (the input window's, and the output window's). -/
abbrev rX : Rect S256x128 := Rect.unit (s := S256x128) ![0, 0] S256x128.size inb_S256x128_S256x128_0_0
/-- Layer l's 128 x 128 weight matrix inside the slab of five. -/
abbrev rW0 : Rect S5x128x128 := Rect.unit (s := S5x128x128) ![0, 0, 0] S1x128x128.size inb_S5x128x128_S1x128x128_0_0_0
abbrev rW1 : Rect S5x128x128 := Rect.unit (s := S5x128x128) ![1, 0, 0] S1x128x128.size inb_S5x128x128_S1x128x128_1_0_0
abbrev rW2 : Rect S5x128x128 := Rect.unit (s := S5x128x128) ![2, 0, 0] S1x128x128.size inb_S5x128x128_S1x128x128_2_0_0
abbrev rW3 : Rect S5x128x128 := Rect.unit (s := S5x128x128) ![3, 0, 0] S1x128x128.size inb_S5x128x128_S1x128x128_3_0_0
abbrev rW4 : Rect S5x128x128 := Rect.unit (s := S5x128x128) ![4, 0, 0] S1x128x128.size inb_S5x128x128_S1x128x128_4_0_0
/-- Layer l's bias row inside the slab of five. -/
abbrev rB0 : Rect S5x1x128 := Rect.unit (s := S5x1x128) ![0, 0, 0] S1x1x128.size inb_S5x1x128_S1x1x128_0_0_0
abbrev rB1 : Rect S5x1x128 := Rect.unit (s := S5x1x128) ![1, 0, 0] S1x1x128.size inb_S5x1x128_S1x1x128_1_0_0
abbrev rB2 : Rect S5x1x128 := Rect.unit (s := S5x1x128) ![2, 0, 0] S1x1x128.size inb_S5x1x128_S1x1x128_2_0_0
abbrev rB3 : Rect S5x1x128 := Rect.unit (s := S5x1x128) ![3, 0, 0] S1x1x128.size inb_S5x1x128_S1x1x128_3_0_0
abbrev rB4 : Rect S5x1x128 := Rect.unit (s := S5x1x128) ![4, 0, 0] S1x1x128.size inb_S5x1x128_S1x1x128_4_0_0

/-! ## What the body leaves in the output window's buffer -/

/-- The activations after the first three layers (matrix product, bias, maximum with zero, three times), from the
    input block x0, the weight slab x1 and the bias slab x2: the value the first part of the body hands on. -/
def hidden3 (x0 : Vec F S256x128 .f32) (x1 : Vec F S5x128x128 .f32) (x2 : Vec F S5x1x128 .f32) : FVec F S256x128 .f32 :=
  k0_pay2 (View.ld x0 rX) (View.ld x1 rW0) (View.ld x2 rB0) (View.ld x1 rW1) (View.ld x2 rB1) (View.ld x1 rW2) (View.ld x2 rB2)

/-- The output window's staging buffer after the body: its one store, of the fifth layer's pre-activation over the
    fourth layer applied to hidden3, covering the whole block. -/
def out0_3 (x0 : Vec F S256x128 .f32) (x1 : Vec F S5x128x128 .f32) (x2 : Vec F S5x1x128 .f32) : Vec F S256x128 .f32 :=
  View.canon [⟨rX, k0_pay1 (hidden3 x0 x1 x2) (View.ld x1 rW3) (View.ld x2 rB3) (View.ld x1 rW4) (View.ld x2 rB4)⟩]

/-- The one store's rectangle is the whole block. -/
theorem cover0_3 (p0 : Vec F S256x128 .f32) (y : S256x128.Idx) :
    ∃ pc ∈ ([⟨rX, p0⟩] : List (View.Piece (Elt F) S256x128 .f32)), y ∈ pc.1.set :=
  View.cover_of_tiled [⟨rX, p0⟩] S256x128.size (by rfl) y

/-! ## The body's triple -/

set_option maxHeartbeats 1000000 in
/-- The body, run on whole staging memrefs whose input buffers read x0, x1, x2 and whose output buffer holds
    anything, returns with the input buffers reading the same and the output buffer reading out0_3 x0 x1 x2.
    Both printed functions are rewritten to their skeletons of loads and one store over named payloads and
    executed symbolically.  The first part returns a pair, so the store's payload arrives applied to the two
    projections of an explicit pair; reducing those gives the payload of out0_3, and a list of writes covering
    the buffer reads as its canonical contents whatever was there before. -/
theorem sound_kernel (c : Dev nD) (E : Set ℕ) (i : grid0.Coords)
    (arg1 : Memref sig .tc .vmem S256x128 .f32) (harg1 : arg1.IsWhole)
    (arg2 : Memref sig .tc .vmem S5x128x128 .f32) (harg2 : arg2.IsWhole)
    (arg3 : Memref sig .tc .vmem S5x1x128 .f32) (harg3 : arg3.IsWhole)
    (arg4 : Memref sig .tc .vmem S256x128 .f32) (harg4 : arg4.IsWhole)
    (x0 : Vec F S256x128 .f32) (x1 : Vec F S5x128x128 .f32) (x2 : Vec F S5x1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__fused_mlp_kernel i arg1 harg1 arg2 harg2 arg3 harg3 arg4 harg4) K := by
  simp only [cc0__fused_mlp_kernel_eq_skeleton]; unfold cc0__fused_mlp_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  dsimp only
  exact View.read_writes_eq_canon _ _ _ (cover0_3 _)

/-! ## The pipeline's proof data -/

/-- The proof data on core c.  The arrays are the region-entry contents.  After the body at point t the three
    input windows' buffers hold their blocks and the output window's holds out0_3 of those blocks.  The invariant is
    the library's for a body with no scratch, semaphore or transfer of its own; nothing is owed; shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The arrays of the proof data, projected without unfolding the long host prefix behind V. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- What the body finds in each input window's buffer: the window's block, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the pipeline hands the body at point t: the invariant, the core's debt, and the four current staging
    buffers, each at what the proof data says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it takes back: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point.  The input buffers hold the blocks, so the body's triple applies at those blocks;
    the invariant and the debt do not depend on the point and are carried across untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation: the conjunction over the four windows written out, then sound_body. -/
theorem body_obligation (c : Dev nD) :
    BodyObligation (dats (F := F) m 0 c) (defs₀ (F := F)) Variants.none () Set.univ := fun t => by
  rw [bigSep_W0, bigSep_W0]
  exact sound_body m c t

/-! ## The run and the frame -/

-- the frame run's implicit arguments are found by unifying its conclusion with the statement below, which needs
-- plain definitions unfolded inside a metavariable's type
set_option backward.isDefEq.respectTransparency.types false in
/-- From any launch memory with zero counters, every weakly fair execution of the entry function on the
    TensorCores terminates without a fault; at the end each window's array holds what the library computes from
    the proof data, and every other unscoped buffer what the slice after the region leaves of its region-entry
    contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The frame of the reference program, at any float instance: every weakly fair execution from a memory with
    zero counters terminates without a fault and leaves each of the fifteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (run_main m ρ)

end Cert.ReferenceIdeal.Hand

end
-- ==== Proof.Spec.lean ====
/-
  The network, for ONE sample, in three forms, and why they agree.

  Both programs compute, for every sample (a row of eight numbers), the same chain of five affine layers with a
  rectifier after the first four.  One program keeps the samples on the columns and carries every bias as one more
  column of its weight matrix, applied to a channel that is constantly one ("augmented" matrices); the other keeps the
  samples on the rows, pads every layer to 128 lanes with zero weights and adds the bias separately.  Over the
  extended reals the two arrangements are the same function: a padded weight is zero, `x * 0 = 0` for every extended
  real `x`, and a sum does not change when zero terms are dropped; the bias column meets the constant one, and
  `b * 1 = b`.  Only commutativity of the product and these two facts are used, so nothing here needs the inputs
  to be finite.

  `step` / `stepOut` are the layers over sequences indexed by naturals (a fused weight `L k j`: input `k`,
  output `j`; a bias `c j`).  `kerLayer` / `kerOut` are the layers as the transposed program computes them from
  an augmented matrix, `refLayer` / `refOut` as the padded program computes them; the lemmas below identify both
  with `step` / `stepOut`.
-/
import Idealize.ShloMosaic.Lib.ValueIdx

noncomputable section

open scoped BigOperators

namespace Cert.Mlp

open Idealize.ShloMosaic Idealize.ShloMosaic.ValueIdx

/-! ## The layers over sequences -/

/-- A hidden layer: `max (∑ k < d, g k · L k j + c j) 0`. -/
def step (d : ℕ) (L : ℕ → ℕ → EReal) (c : ℕ → EReal) (g : ℕ → EReal) : ℕ → EReal :=
  fun j => max (∑ k ∈ Finset.range d, g k * L k j + c j) 0

/-- The output layer: the same without the rectifier. -/
def stepOut (d : ℕ) (L : ℕ → ℕ → EReal) (c : ℕ → EReal) (g : ℕ → EReal) : ℕ → EReal :=
  fun j => ∑ k ∈ Finset.range d, g k * L k j + c j

/-! ## The transposed arrangement: augmented matrices -/

/-- The augmented matrix of a layer with `d` inputs and `o` outputs: row `j < o` holds the weights `L · j` and then the
    bias `c j`; the last row (`j = o`) is zero but for a final one, which hands the constant channel on. -/
def aug (d o : ℕ) (L : ℕ → ℕ → EReal) (c : ℕ → EReal) : ℕ → ℕ → EReal :=
  fun j k => if k < d then (if j < o then L k j else 0) else (if j < o then c j else 1)

/-- `relu (A · h)`. -/
def kerLayer {o d : ℕ} (A : Fin o → Fin d → EReal) (h : Fin d → EReal) : Fin o → EReal :=
  fun j => max (∑ k, A j k * h k) 0

/-- `A · h`. -/
def kerOut {o d : ℕ} (A : Fin o → Fin d → EReal) (h : Fin d → EReal) : Fin o → EReal :=
  fun j => ∑ k, A j k * h k

/-- The sum over `Fin (d+1)` of an augmented row against activations whose last entry is one. -/
theorem aug_row_sum {d o : ℕ} (L : ℕ → ℕ → EReal) (c : ℕ → EReal) (g : ℕ → EReal) (j : ℕ)
    (a : Fin (d + 1) → EReal) (h : Fin (d + 1) → EReal)
    (ha : ∀ k, a k = aug d o L c j k.val) (hh : ∀ k, h k = if k.val < d then g k.val else 1) :
    ∑ k, a k * h k = if j < o then ∑ k ∈ Finset.range d, g k * L k j + c j else 1 := by
  rw [Fin.sum_univ_castSucc]
  have hlast : a (Fin.last d) * h (Fin.last d) = if j < o then c j else 1 := by
    rw [ha, hh]; simp only [aug, Fin.val_last, lt_irrefl, if_false, mul_one]
  have hinit : ∀ k : Fin d, a k.castSucc * h k.castSucc = (fun n => if j < o then g n * L n j else 0) k.val := by
    intro k
    rw [ha, hh]
    simp only [aug, Fin.coe_castSucc, k.isLt, if_true]
    by_cases hj : j < o
    · simp only [hj, if_true]; exact mul_comm _ _
    · simp only [hj, if_false]; exact zero_mul _
  rw [hlast, Finset.sum_congr rfl (fun k _ => hinit k), Fin.sum_univ_eq_sum_range (fun n => if j < o then g n * L n j else 0) d]
  by_cases hj : j < o
  · simp only [hj, if_true]
  · simp only [hj, if_false, Finset.sum_const_zero, zero_add]

/-- A hidden layer of the transposed arrangement is `step` on its first `o` rows and the constant one on the last. -/
theorem kerLayer_aug {d o : ℕ} (L : ℕ → ℕ → EReal) (c : ℕ → EReal) (g : ℕ → EReal)
    (A : Fin (o + 1) → Fin (d + 1) → EReal) (h : Fin (d + 1) → EReal)
    (hA : ∀ j k, A j k = aug d o L c j.val k.val) (hh : ∀ k, h k = if k.val < d then g k.val else 1) (j : Fin (o + 1)) :
    kerLayer A h j = if j.val < o then step d L c g j.val else 1 := by
  unfold kerLayer
  rw [aug_row_sum (o := o) L c g j.val (A j) h (hA j) hh]
  by_cases hj : j.val < o
  · simp only [hj, if_true, step]
  · simp only [hj, if_false]; exact max_eq_left zero_le_one

/-- The output layer of the transposed arrangement (no constant row) is `stepOut`. -/
theorem kerOut_aug {d o : ℕ} (L : ℕ → ℕ → EReal) (c : ℕ → EReal) (g : ℕ → EReal)
    (A : Fin o → Fin (d + 1) → EReal) (h : Fin (d + 1) → EReal)
    (hA : ∀ j k, A j k = aug d o L c j.val k.val) (hh : ∀ k, h k = if k.val < d then g k.val else 1) (j : Fin o) :
    kerOut A h j = stepOut d L c g j.val := by
  unfold kerOut
  rw [aug_row_sum (o := o) L c g j.val (A j) h (hA j) hh, if_pos j.isLt]
  rfl

/-! ## The padded arrangement -/

/-- `relu (h · W + b)` over `n` lanes. -/
def refLayer {n : ℕ} (W : Fin n → Fin n → EReal) (b : Fin n → EReal) (h : Fin n → EReal) : Fin n → EReal :=
  fun j => max (∑ k, h k * W k j + b j) 0

/-- `h · W + b` over `n` lanes. -/
def refOut {n : ℕ} (W : Fin n → Fin n → EReal) (b : Fin n → EReal) (h : Fin n → EReal) : Fin n → EReal :=
  fun j => ∑ k, h k * W k j + b j

/-- A padded sum is the sum over the `d` rows that carry weights. -/
theorem pad_sum {n d : ℕ} (hd : d ≤ n) (L : ℕ → ℕ → EReal) (hL : ∀ k j, d ≤ k → L k j = 0) (g : ℕ → EReal)
    (W : Fin n → Fin n → EReal) (h : Fin n → EReal)
    (hW : ∀ k j, W k j = L k.val j.val) (hh : ∀ k, h k = g k.val) (j : Fin n) :
    ∑ k, h k * W k j = ∑ k ∈ Finset.range d, g k * L k j.val := by
  have e : ∀ k : Fin n, h k * W k j = (fun m => g m * L m j.val) k.val := fun k => by rw [hh, hW]
  rw [Finset.sum_congr rfl (fun k _ => e k), Fin.sum_univ_eq_sum_range (fun m => g m * L m j.val) n]
  symm
  apply Finset.sum_subset (Finset.range_mono hd)
  intro k _ hk
  have : d ≤ k := by simpa [Finset.mem_range] using hk
  show g k * L k j.val = 0
  rw [hL k _ this, mul_zero]

theorem refLayer_pad {n d : ℕ} (hd : d ≤ n) (L : ℕ → ℕ → EReal) (hL : ∀ k j, d ≤ k → L k j = 0) (c : ℕ → EReal) (g : ℕ → EReal)
    (W : Fin n → Fin n → EReal) (b : Fin n → EReal) (h : Fin n → EReal)
    (hW : ∀ k j, W k j = L k.val j.val) (hb : ∀ j, b j = c j.val) (hh : ∀ k, h k = g k.val) (j : Fin n) :
    refLayer W b h j = step d L c g j.val := by
  unfold refLayer step
  rw [pad_sum hd L hL g W h hW hh j, hb]

theorem refOut_pad {n d : ℕ} (hd : d ≤ n) (L : ℕ → ℕ → EReal) (hL : ∀ k j, d ≤ k → L k j = 0) (c : ℕ → EReal) (g : ℕ → EReal)
    (W : Fin n → Fin n → EReal) (b : Fin n → EReal) (h : Fin n → EReal)
    (hW : ∀ k j, W k j = L k.val j.val) (hb : ∀ j, b j = c j.val) (hh : ∀ k, h k = g k.val) (j : Fin n) :
    refOut W b h j = stepOut d L c g j.val := by
  unfold refOut stepOut
  rw [pad_sum hd L hL g W h hW hh j, hb]

/-! ## The fused weights, from the fourteen parameter arrays -/

/-- A rank-2 array as a function of two naturals, zero outside its extents. -/
def nat2 {a b : ℕ} (f : (⟨2, ![a, b]⟩ : Shape).Idx → EReal) : ℕ → ℕ → EReal :=
  fun k j => if h : k < a ∧ j < b then f (ix2 ⟨k, h.1⟩ ⟨j, h.2⟩) else 0

/-- A rank-1 array as a function of a natural, zero outside its extent. -/
def nat1 {a : ℕ} (f : (⟨1, ![a]⟩ : Shape).Idx → EReal) : ℕ → EReal :=
  fun j => if h : j < a then f (ix1 ⟨j, h⟩) else 0

theorem nat2_of_lt {a b : ℕ} (f : (⟨2, ![a, b]⟩ : Shape).Idx → EReal) (k : Fin a) (j : Fin b) :
    nat2 f k.val j.val = f (ix2 k j) := by
  unfold nat2; rw [dif_pos ⟨k.isLt, j.isLt⟩]

theorem nat2_row_ge {a b : ℕ} (f : (⟨2, ![a, b]⟩ : Shape).Idx → EReal) (k j : ℕ) (hk : a ≤ k) : nat2 f k j = 0 := by
  unfold nat2; rw [dif_neg (fun h => absurd h.1 (Nat.not_lt.2 hk))]

theorem nat2_col_ge {a b : ℕ} (f : (⟨2, ![a, b]⟩ : Shape).Idx → EReal) (k j : ℕ) (hj : b ≤ j) : nat2 f k j = 0 := by
  unfold nat2; rw [dif_neg (fun h => absurd h.2 (Nat.not_lt.2 hj))]

theorem nat1_of_lt {a : ℕ} (f : (⟨1, ![a]⟩ : Shape).Idx → EReal) (j : Fin a) : nat1 f j.val = f (ix1 j) := by
  unfold nat1; rw [dif_pos j.isLt]

theorem nat1_ge {a : ℕ} (f : (⟨1, ![a]⟩ : Shape).Idx → EReal) (j : ℕ) (hj : a ≤ j) : nat1 f j = 0 := by
  unfold nat1; rw [dif_neg (Nat.not_lt.2 hj)]

/-- Two weight matrices side by side on the diagonal: `U` on rows `< p`, columns `< q`; `V` below and to the right. -/
def bdiag (p q : ℕ) (U V : ℕ → ℕ → EReal) : ℕ → ℕ → EReal :=
  fun k j => if k < p then (if j < q then U k j else 0) else (if q ≤ j then V (k - p) (j - q) else 0)

/-- Two bias vectors end to end. -/
def cat (q : ℕ) (u v : ℕ → EReal) : ℕ → EReal := fun j => if j < q then u j else v (j - q)

/-- The five fused layers. -/
structure Layers where
  L0 : ℕ → ℕ → EReal
  c0 : ℕ → EReal
  L1 : ℕ → ℕ → EReal
  c1 : ℕ → EReal
  L2 : ℕ → ℕ → EReal
  c2 : ℕ → EReal
  L3 : ℕ → ℕ → EReal
  c3 : ℕ → EReal
  L4 : ℕ → ℕ → EReal
  c4 : ℕ → EReal

/-- The fused layers of the parameter arrays: the two branches of the first two layers side by side. -/
def layersOf (w0 : (⟨2, ![4, 32]⟩ : Shape).Idx → EReal) (b0 : (⟨1, ![32]⟩ : Shape).Idx → EReal)
    (w1 : (⟨2, ![32, 32]⟩ : Shape).Idx → EReal) (b1 : (⟨1, ![32]⟩ : Shape).Idx → EReal)
    (w2 : (⟨2, ![4, 32]⟩ : Shape).Idx → EReal) (b2 : (⟨1, ![32]⟩ : Shape).Idx → EReal)
    (w3 : (⟨2, ![32, 32]⟩ : Shape).Idx → EReal) (b3 : (⟨1, ![32]⟩ : Shape).Idx → EReal)
    (w4 : (⟨2, ![64, 32]⟩ : Shape).Idx → EReal) (b4 : (⟨1, ![32]⟩ : Shape).Idx → EReal)
    (w5 : (⟨2, ![32, 32]⟩ : Shape).Idx → EReal) (b5 : (⟨1, ![32]⟩ : Shape).Idx → EReal)
    (w6 : (⟨2, ![32, 8]⟩ : Shape).Idx → EReal) (b6 : (⟨1, ![8]⟩ : Shape).Idx → EReal) : Layers where
  L0 := bdiag 4 32 (nat2 w0) (nat2 w2)
  c0 := cat 32 (nat1 b0) (nat1 b2)
  L1 := bdiag 32 32 (nat2 w1) (nat2 w3)
  c1 := cat 32 (nat1 b1) (nat1 b3)
  L2 := nat2 w4
  c2 := nat1 b4
  L3 := nat2 w5
  c3 := nat1 b5
  L4 := nat2 w6
  c4 := nat1 b6

/-- The whole network on one sample `g0` (its eight entries at `0 … 7`). -/
def Layers.net (P : Layers) (g0 : ℕ → EReal) : ℕ → EReal :=
  stepOut 32 P.L4 P.c4 (step 32 P.L3 P.c3 (step 64 P.L2 P.c2 (step 64 P.L1 P.c1 (step 8 P.L0 P.c0 g0))))

/-- Every fused weight matrix is zero below its last real row. -/
structure Layers.Ok (P : Layers) : Prop where
  h0 : ∀ k j, 8 ≤ k → P.L0 k j = 0
  h1 : ∀ k j, 64 ≤ k → P.L1 k j = 0
  h2 : ∀ k j, 64 ≤ k → P.L2 k j = 0
  h3 : ∀ k j, 32 ≤ k → P.L3 k j = 0
  h4 : ∀ k j, 32 ≤ k → P.L4 k j = 0

theorem bdiag_row_ge {p p' q : ℕ} {a b a' b' : ℕ} (U : (⟨2, ![a, b]⟩ : Shape).Idx → EReal) (V : (⟨2, ![a', b']⟩ : Shape).Idx → EReal)
    (hp : p + a' = p') (k j : ℕ) (hk : p' ≤ k) : bdiag p q (nat2 U) (nat2 V) k j = 0 := by
  unfold bdiag
  rw [if_neg (by omega)]
  split
  · exact nat2_row_ge V _ _ (by omega)
  · rfl

theorem layersOf_ok (w0 b0 w1 b1 w2 b2 w3 b3 w4 b4 w5 b5 w6 b6) :
    (layersOf w0 b0 w1 b1 w2 b2 w3 b3 w4 b4 w5 b5 w6 b6).Ok where
  h0 := fun k j hk => bdiag_row_ge w0 w2 (by norm_num : 4 + 4 = 8) k j hk
  h1 := fun k j hk => bdiag_row_ge w1 w3 (by norm_num : 32 + 32 = 64) k j hk
  h2 := fun k j hk => nat2_row_ge w4 k j hk
  h3 := fun k j hk => nat2_row_ge w5 k j hk
  h4 := fun k j hk => nat2_row_ge w6 k j hk

/-! ## The two arrangements are the network -/

/-- The transposed arrangement: five augmented matrices applied to the sample with a one appended. -/
theorem kerNet_eq (P : Layers) (g0 : ℕ → EReal)
    (A0 : Fin 65 → Fin 9 → EReal) (A1 : Fin 65 → Fin 65 → EReal) (A2 : Fin 33 → Fin 65 → EReal)
    (A3 : Fin 33 → Fin 33 → EReal) (A4 : Fin 8 → Fin 33 → EReal) (h0 : Fin 9 → EReal)
    (hA0 : ∀ j k, A0 j k = aug 8 64 P.L0 P.c0 j.val k.val) (hA1 : ∀ j k, A1 j k = aug 64 64 P.L1 P.c1 j.val k.val)
    (hA2 : ∀ j k, A2 j k = aug 64 32 P.L2 P.c2 j.val k.val) (hA3 : ∀ j k, A3 j k = aug 32 32 P.L3 P.c3 j.val k.val)
    (hA4 : ∀ j k, A4 j k = aug 32 8 P.L4 P.c4 j.val k.val)
    (hh0 : ∀ k, h0 k = if k.val < 8 then g0 k.val else 1) (j : Fin 8) :
    kerOut A4 (kerLayer A3 (kerLayer A2 (kerLayer A1 (kerLayer A0 h0)))) j = P.net g0 j.val :=
  kerOut_aug (d := 32) (o := 8) P.L4 P.c4 _ A4 _ hA4
    (kerLayer_aug (d := 32) (o := 32) P.L3 P.c3 _ A3 _ hA3
      (kerLayer_aug (d := 64) (o := 32) P.L2 P.c2 _ A2 _ hA2
        (kerLayer_aug (d := 64) (o := 64) P.L1 P.c1 _ A1 _ hA1
          (kerLayer_aug (d := 8) (o := 64) P.L0 P.c0 g0 A0 h0 hA0 hh0)))) j

/-- The padded arrangement: five 128-lane layers applied to the sample padded with zeros (or with anything: the padded
    weights are zero). -/
theorem refNet_eq (P : Layers) (hP : P.Ok) (g0 : ℕ → EReal)
    (W0 W1 W2 W3 W4 : Fin 128 → Fin 128 → EReal) (b0 b1 b2 b3 b4 : Fin 128 → EReal) (h0 : Fin 128 → EReal)
    (hW0 : ∀ k j, W0 k j = P.L0 k.val j.val) (hb0 : ∀ j, b0 j = P.c0 j.val)
    (hW1 : ∀ k j, W1 k j = P.L1 k.val j.val) (hb1 : ∀ j, b1 j = P.c1 j.val)
    (hW2 : ∀ k j, W2 k j = P.L2 k.val j.val) (hb2 : ∀ j, b2 j = P.c2 j.val)
    (hW3 : ∀ k j, W3 k j = P.L3 k.val j.val) (hb3 : ∀ j, b3 j = P.c3 j.val)
    (hW4 : ∀ k j, W4 k j = P.L4 k.val j.val) (hb4 : ∀ j, b4 j = P.c4 j.val)
    (hh0 : ∀ k, h0 k = g0 k.val) (j : Fin 128) :
    refOut W4 b4 (refLayer W3 b3 (refLayer W2 b2 (refLayer W1 b1 (refLayer W0 b0 h0)))) j = P.net g0 j.val :=
  refOut_pad (by norm_num) P.L4 hP.h4 P.c4 _ W4 b4 _ hW4 hb4
    (refLayer_pad (by norm_num) P.L3 hP.h3 P.c3 _ W3 b3 _ hW3 hb3
      (refLayer_pad (by norm_num) P.L2 hP.h2 P.c2 _ W2 b2 _ hW2 hb2
        (refLayer_pad (by norm_num) P.L1 hP.h1 P.c1 _ W1 b1 _ hW1 hb1
          (refLayer_pad (by norm_num) P.L0 hP.h0 P.c0 g0 W0 b0 h0 hW0 hb0 hh0)))) j

end Cert.Mlp

end
-- ==== Proof.LibMatmulPlain.lean ====
/-
  A plain matrix product read at an entry.  For the contraction "rows of the left operand against columns of the
  right one" (`DotDims.plain M K N`: left [M, K], right [K, N], result [M, N], one contracted axis, no batch axis), the
  product into a zero accumulator, over the extended reals, at the entry `(i, j)` is `∑ k, lhs (i, k) * rhs (k, j)`
  — the contraction's one-coordinate index re-indexed by that coordinate.
-/
import Idealize.ShloMosaic.PureOps.Ideal.Laws
import Idealize.ShloMosaic.Lib.ValueIdx

noncomputable section

open scoped BigOperators

namespace Idealize.ShloMosaic

open Idealize.ShloMosaic.ValueIdx

/-- The left operand's index at result entry `(i, j)` and contraction position `q` is `(i, q)`. -/
theorem DotDims.plain_lhsIdx (M K N : ℕ) (i : Fin M) (j : Fin N) (q : (DotDims.plain M K N).contr.Idx) (k : Fin K)
    (hk : (q ⟨0, Nat.one_pos⟩).val = k.val) :
    (DotDims.plain M K N).lhsIdx (ix2 i j) q = ix2 i k := by
  funext a
  apply Fin.ext
  match a with
  | ⟨0, _⟩ => simp [DotDims.lhsIdx, DotDims.plain]; rfl
  | ⟨1, _⟩ =>
    have h := (DotDims.plain M K N).lhsIdx_val_of_single (cl := (1 : Fin 2)) rfl (ix2 i j) q
    exact h.trans hk

/-- The right operand's index there is `(q, j)`. -/
theorem DotDims.plain_rhsIdx (M K N : ℕ) (i : Fin M) (j : Fin N) (q : (DotDims.plain M K N).contr.Idx) (k : Fin K)
    (hk : (q ⟨0, Nat.one_pos⟩).val = k.val) :
    (DotDims.plain M K N).rhsIdx (ix2 i j) q = ix2 k j := by
  funext a
  apply Fin.ext
  match a with
  | ⟨0, _⟩ =>
    have h := (DotDims.plain M K N).rhsIdx_val_of_single (cr := (0 : Fin 2)) rfl (ix2 i j) q
    exact h.trans hk
  | ⟨1, _⟩ => simp [DotDims.rhsIdx, DotDims.plain]; rfl

/-- The product into the zero accumulator at `(i, j)`. -/
theorem Ideal.matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply]
  rw [← Equiv.sum_comp (contrEquiv1 (DotDims.plain M K N) K rfl rfl).symm]
  refine Finset.sum_congr rfl fun k _ => ?_
  have hk := contrEquiv1_symm_val (DotDims.plain M K N) K rfl rfl k
  rw [DotDims.plain_lhsIdx M K N i j _ k hk, DotDims.plain_rhsIdx M K N i j _ k hk]

end Idealize.ShloMosaic

end
-- ==== Proof.KerPayload.lean ====
/-
  The transposed program's body at one entry of its output block.

  The body takes a block of 16384 samples as the columns of an [8, 16384] array, appends a row of ones, and applies
  five matrices from the left, with a rectifier after the first four.  Column `q` of the result depends on column `q`
  of the block only: at row `j` it is the five layers of `Spec` (`kerLayer`, `kerOut`) applied to that column with
  a one appended.  Each layer is one product into a zero accumulator, read at an entry as a sum over the contracted
  coordinate, and a maximum with a zero splat.
-/
import proofs.«138684_g2000407009072039_pallasbulk_686_4_alg».proof.Proof.Gen.KernelIdeal.Skeleton
import proofs.«138684_g2000407009072039_pallasbulk_686_4_alg».proof.Proof.Spec
import proofs.«138684_g2000407009072039_pallasbulk_686_4_alg».proof.Proof.LibMatmulPlain
import Idealize.ShloMosaic.Lib.Pipeline.Value
import Idealize.ShloMosaic.Lib.IdealHost

noncomputable section

open scoped BigOperators

namespace Cert.KernelIdeal.KerValue

open Idealize.ShloMosaic Idealize.ShloMosaic.ValueIdx Cert.KernelIdeal Cert.KernelIdeal.Gen

/-- A hidden layer at the entry `(j, q)`: the rectified row-`j` product with column `q` of the activations. -/
theorem hidden_apply (M K N : ℕ) (A : FVec Ideal ⟨2, ![M, K]⟩ .f32) (hs : (⟨2, ![M, K]⟩ : Shape).ShapeCasts ⟨2, ![M, K]⟩)
    (H : FVec Ideal ⟨2, ![K, N]⟩ .f32) (h : Fin K → EReal) (q : Fin N) (hH : ∀ k, H (ix2 k q) = h k) (j : Fin M) :
    maximumf (matmul (DotDims.plain M K N) none (shapeCast ⟨2, ![M, K]⟩ A hs) H (constant (F := Ideal) ⟨2, ![M, N]⟩ .f32 0x00000000#32))
        (broadcast ⟨2, ![M, N]⟩ (Scalar.ofBits (F := Ideal) .f32 0x00000000#32)) (ix2 j q)
      = Cert.Mlp.kerLayer (fun j k => A (ix2 j k)) h j := by
  rw [maximumf_apply, broadcast_apply]
  show max (FloatOps.matmul (DotDims.plain M K N) none (shapeCast ⟨2, ![M, K]⟩ A hs) H (constant ⟨2, ![M, N]⟩ .f32 0x00000000#32) (ix2 j q))
      (Ideal.ofBits .f32 0x00000000#32) = _
  rw [Ideal.matmul_plain_zero_apply, Ideal.ofBits_zero_f32, shapeCast_self]
  unfold Cert.Mlp.kerLayer
  exact congrArg (max · 0) (Finset.sum_congr rfl fun k _ => by rw [hH k])

/-- The output layer at the entry `(j, q)`. -/
theorem out_apply (M K N : ℕ) (A : FVec Ideal ⟨2, ![M, K]⟩ .f32) (hs : (⟨2, ![M, K]⟩ : Shape).ShapeCasts ⟨2, ![M, K]⟩)
    (H : FVec Ideal ⟨2, ![K, N]⟩ .f32) (h : Fin K → EReal) (q : Fin N) (hH : ∀ k, H (ix2 k q) = h k) (j : Fin M) :
    matmul (DotDims.plain M K N) none (shapeCast ⟨2, ![M, K]⟩ A hs) H (constant (F := Ideal) ⟨2, ![M, N]⟩ .f32 0x00000000#32) (ix2 j q)
      = Cert.Mlp.kerOut (fun j k => A (ix2 j k)) h j := by
  show FloatOps.matmul (DotDims.plain M K N) none (shapeCast ⟨2, ![M, K]⟩ A hs) H (constant ⟨2, ![M, N]⟩ .f32 0x00000000#32) (ix2 j q) = _
  rw [Ideal.matmul_plain_zero_apply, shapeCast_self]
  unfold Cert.Mlp.kerOut
  exact Finset.sum_congr rfl fun k _ => by rw [hH k]

/-- Column `q` of a block of samples with a one appended. -/
def col1 {N : ℕ} (x : (⟨2, ![8, N]⟩ : Shape).Idx → EReal) (q : Fin N) : Fin 9 → EReal :=
  fun k => if h : k.val < 8 then x (ix2 ⟨k.val, h⟩ q) else 1

/-- The block with the row of ones appended, at `(k, q)`. -/
theorem ones_appended_apply (x : Vec Ideal S8x16384 .f32) (hs : S8x16384.ShapeCasts S8x16384)
    (hc : Shape.Concatenates [S8x16384, S1x16384] S9x16384 0) (q : Fin 16384) (k : Fin 9) :
    concatenate S9x16384 0 [⟨S8x16384, shapeCast S8x16384 x hs⟩,
        ⟨S1x16384, broadcast S1x16384 (Scalar.ofBits (F := Ideal) .f32 0x3F800000#32)⟩] hc (ix2 k q) = col1 x q k := by
  unfold col1
  rw [shapeCast_self]
  by_cases h : k.val < 8
  · rw [dif_pos h]
    refine concatenate_pair_apply_left (t := S9x16384) (s₁ := S8x16384) (s₂ := S1x16384) (0 : Fin 2) x
      (broadcast S1x16384 (Scalar.ofBits (F := Ideal) .f32 0x3F800000#32)) hc (ix2 k q) rfl (ix2 ⟨k.val, h⟩ q) ?_
    intro b
    match b with
    | ⟨0, _⟩ => rfl
    | ⟨1, _⟩ => rfl
  · rw [dif_neg h]
    have hk : k.val = 8 := by have := k.isLt; omega
    refine (concatenate_pair_apply_right (t := S9x16384) (s₁ := S8x16384) (s₂ := S1x16384) (0 : Fin 2) x
      (broadcast S1x16384 (Scalar.ofBits (F := Ideal) .f32 0x3F800000#32)) hc (ix2 k q) rfl rfl (ix2 (0 : Fin 1) q) ?_ ?_).trans ?_
    · intro b hb
      match b with
      | ⟨0, _⟩ => exact absurd rfl hb
      | ⟨1, _⟩ => rfl
    · show (0 : ℕ) + 8 = k.val
      omega
    · rw [broadcast_apply]
      exact Ideal.ofBits_one_f32

/-- The body's one stored value at the entry `(j, q)` of the output block: the five layers on column `q`. -/
theorem pay_apply (x : Vec Ideal S8x16384 .f32) (a0 : Vec Ideal S65x9 .f32) (a1 : Vec Ideal S65x65 .f32)
    (a2 : Vec Ideal S33x65 .f32) (a3 : Vec Ideal S33x33 .f32) (a4 : Vec Ideal S8x33 .f32) (j : Fin 8) (q : Fin 16384) :
    k0_pay1 (F := Ideal) x a0 a1 a2 a3 a4 (ix2 j q)
      = Cert.Mlp.kerOut (fun j k => a4 (ix2 j k)) (Cert.Mlp.kerLayer (fun j k => a3 (ix2 j k))
          (Cert.Mlp.kerLayer (fun j k => a2 (ix2 j k)) (Cert.Mlp.kerLayer (fun j k => a1 (ix2 j k))
            (Cert.Mlp.kerLayer (fun j k => a0 (ix2 j k)) (col1 x q))))) j := by
  unfold k0_pay1
  exact out_apply 8 33 16384 a4 _ _ _ q (fun k =>
    hidden_apply 33 33 16384 a3 _ _ _ q (fun k =>
      hidden_apply 33 65 16384 a2 _ _ _ q (fun k =>
        hidden_apply 65 65 16384 a1 _ _ _ q (fun k =>
          hidden_apply 65 9 16384 a0 _ _ _ q (fun k => ones_appended_apply x _ _ q k) k) k) k) k) j

end Cert.KernelIdeal.KerValue

end
-- ==== Proof.KerValue.lean ====
/-
  The transposed program's result array, as one function of the arrays the region is launched on.

  The region runs over 64 grid points; point `t` reads columns `16384 t … 16384 t + 16383` of the transposed input and
  the five augmented matrices whole, and writes the same columns of the output.  By the body's value at an entry
  (`pay_apply`), column `n` of the output array is the five layers applied to column `n` of the input with a one
  appended; the blocks tile the array (column `n` lies in block `n / 16384`), so the whole array is that function.
  Then the one host operation after the region transposes it.
-/
import proofs.«138684_g2000407009072039_pallasbulk_686_4_alg».proof.Proof.Gen.KernelIdeal.Frame
import proofs.«138684_g2000407009072039_pallasbulk_686_4_alg».proof.Proof.KerPayload
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.KerValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The output array as a function of the launched arrays: entry `(j, n)` is row `j` of the five layers on column `n`. -/
def G (xt : S8x1048576.Idx → EReal) (a0 : S65x9.Idx → EReal) (a1 : S65x65.Idx → EReal) (a2 : S33x65.Idx → EReal)
    (a3 : S33x33.Idx → EReal) (a4 : S8x33.Idx → EReal) : S8x1048576.Idx → EReal :=
  fun i => Cert.Mlp.kerOut (fun j k => a4 (ix2 j k)) (Cert.Mlp.kerLayer (fun j k => a3 (ix2 j k))
    (Cert.Mlp.kerLayer (fun j k => a2 (ix2 j k)) (Cert.Mlp.kerLayer (fun j k => a1 (ix2 j k))
      (Cert.Mlp.kerLayer (fun j k => a0 (ix2 j k)) (col1 xt (i 1)))))) (i 0)

/-- The index maps over the grid: the matrices' windows sit at block (0, 0); the input's and the output's at block (0, t). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- What point `t` writes back is block `t` of `G` of the arrays as the region finds them. -/
theorem flushed_eq (c : Dev nD) (t : Fin cfg0.N) :
    (dats m 0 c).flushed 6 t = ((cfg0.win 6).blk t).view.read (Elt Ideal)
      (G (V m c main_v74) (V m c main_v19) (V m c main_v39) (V m c main_v53) (V m c main_v67) (V m c main_v73)) := by
  show (cfg0.win 6).cut (grid0.coords t) ((dats m 0 c).after 6 t) = _
  rw [after0_6]
  unfold out0_6
  rw [View.canon_unit_zero hz]
  simp only [View.ld_unit_zero (S := S8x16384) hz, View.ld_unit_zero (S := S65x9) hz, View.ld_unit_zero (S := S65x65) hz,
    View.ld_unit_zero (S := S33x65) hz, View.ld_unit_zero (S := S33x33) hz, View.ld_unit_zero (S := S8x33) hz]
  obtain ⟨e00, e01, e10, e11, e20, e21, e30, e31, e40, e41, e50, e51, e60, e61⟩ := idx_facts t
  funext y
  obtain ⟨j, q, rfl⟩ : ∃ (j : Fin 8) (q : Fin 16384), y = ix2 j q := ⟨y 0, y 1, eq_ix2 y⟩
  show k0_pay1 (F := Ideal) (iblk m c 0 t) (iblk m c 1 t) (iblk m c 2 t) (iblk m c 3 t) (iblk m c 4 t) (iblk m c 5 t) (ix2 j q)
    = G (V m c main_v74) (V m c main_v19) (V m c main_v39) (V m c main_v53) (V m c main_v67) (V m c main_v73)
        (((cfg0.win 6).blk t).view.emb (ix2 j q))
  refine (pay_apply (iblk m c 0 t) (iblk m c 1 t) (iblk m c 2 t) (iblk m c 3 t) (iblk m c 4 t) (iblk m c 5 t) j q).trans ?_
  unfold G
  -- a matrix window's block is the matrix: its block index is (0, 0)
  have hA1 : (fun (j : Fin 65) (k : Fin 9) => iblk m c 1 t (ix2 j k)) = fun j k => V m c main_v19 (ix2 j k) := by
    funext j k
    show V m c main_v19 (((cfg0.win 1).blk t).view.emb (ix2 j k)) = V m c main_v19 (ix2 j k)
    refine congrArg (V m c main_v19) (funext fun a => Fin.ext ?_)
    match a with
    | ⟨0, _⟩ => show win0_1.index t (0 : Fin 2) * 65 + 1 * j.val = j.val; omega
    | ⟨1, _⟩ => show win0_1.index t (1 : Fin 2) * 9 + 1 * k.val = k.val; omega
  have hA2 : (fun (j : Fin 65) (k : Fin 65) => iblk m c 2 t (ix2 j k)) = fun j k => V m c main_v39 (ix2 j k) := by
    funext j k
    show V m c main_v39 (((cfg0.win 2).blk t).view.emb (ix2 j k)) = V m c main_v39 (ix2 j k)
    refine congrArg (V m c main_v39) (funext fun a => Fin.ext ?_)
    match a with
    | ⟨0, _⟩ => show win0_2.index t (0 : Fin 2) * 65 + 1 * j.val = j.val; omega
    | ⟨1, _⟩ => show win0_2.index t (1 : Fin 2) * 65 + 1 * k.val = k.val; omega
  have hA3 : (fun (j : Fin 33) (k : Fin 65) => iblk m c 3 t (ix2 j k)) = fun j k => V m c main_v53 (ix2 j k) := by
    funext j k
    show V m c main_v53 (((cfg0.win 3).blk t).view.emb (ix2 j k)) = V m c main_v53 (ix2 j k)
    refine congrArg (V m c main_v53) (funext fun a => Fin.ext ?_)
    match a with
    | ⟨0, _⟩ => show win0_3.index t (0 : Fin 2) * 33 + 1 * j.val = j.val; omega
    | ⟨1, _⟩ => show win0_3.index t (1 : Fin 2) * 65 + 1 * k.val = k.val; omega
  have hA4 : (fun (j : Fin 33) (k : Fin 33) => iblk m c 4 t (ix2 j k)) = fun j k => V m c main_v67 (ix2 j k) := by
    funext j k
    show V m c main_v67 (((cfg0.win 4).blk t).view.emb (ix2 j k)) = V m c main_v67 (ix2 j k)
    refine congrArg (V m c main_v67) (funext fun a => Fin.ext ?_)
    match a with
    | ⟨0, _⟩ => show win0_4.index t (0 : Fin 2) * 33 + 1 * j.val = j.val; omega
    | ⟨1, _⟩ => show win0_4.index t (1 : Fin 2) * 33 + 1 * k.val = k.val; omega
  have hA5 : (fun (j : Fin 8) (k : Fin 33) => iblk m c 5 t (ix2 j k)) = fun j k => V m c main_v73 (ix2 j k) := by
    funext j k
    show V m c main_v73 (((cfg0.win 5).blk t).view.emb (ix2 j k)) = V m c main_v73 (ix2 j k)
    refine congrArg (V m c main_v73) (funext fun a => Fin.ext ?_)
    match a with
    | ⟨0, _⟩ => show win0_5.index t (0 : Fin 2) * 8 + 1 * j.val = j.val; omega
    | ⟨1, _⟩ => show win0_5.index t (1 : Fin 2) * 33 + 1 * k.val = k.val; omega
  -- column q of the input's block t is column 16384 t + q of the input array, the output entry's own column
  have hcol : col1 (iblk m c 0 t) q = col1 (V m c main_v74) ((((cfg0.win 6).blk t).view.emb (ix2 j q)) 1) := by
    funext k
    unfold col1
    by_cases h : k.val < 8
    · rw [dif_pos h, dif_pos h]
      show V m c main_v74 (((cfg0.win 0).blk t).view.emb (ix2 ⟨k.val, h⟩ q)) = V m c main_v74 (ix2 ⟨k.val, h⟩ _)
      refine congrArg (V m c main_v74) (funext fun a => Fin.ext ?_)
      match a with
      | ⟨0, _⟩ => show win0_0.index t (0 : Fin 2) * 8 + 1 * k.val = k.val; omega
      | ⟨1, _⟩ => show win0_0.index t (1 : Fin 2) * 16384 + 1 * q.val = win0_6.index t (1 : Fin 2) * 16384 + 1 * q.val; omega
    · rw [dif_neg h, dif_neg h]
  have hj : (((cfg0.win 6).blk t).view.emb (ix2 j q)) 0 = j := by
    apply Fin.ext
    show win0_6.index t (0 : Fin 2) * 8 + 1 * j.val = j.val
    omega
  rw [hA1, hA2, hA3, hA4, hA5, hcol, hj]

/-- An index of the output array is in point `t`'s block iff each coordinate is in the block's range on its axis. -/
theorem mem_blk (t : Fin cfg0.N) (i : S8x1048576.Idx) :
    i ∈ ((cfg0.win 6).blk t).view.set ↔ ∀ a : Fin 2, win0_6.index t a * S8x16384.size a ≤ (i a).val
      ∧ (i a).val < win0_6.index t a * S8x16384.size a + S8x16384.size a := by
  show i ∈ ((View.whole main_v75).slice (win0_6.rect t)).set ↔ _
  rw [View.set_slice_whole, Rect.mem_set_unit]
  exact Iff.rfl

/-- Column `n` lies in the block of point `n / 16384`: the blocks tile the output array. -/
theorem cover (i : S8x1048576.Idx) :
    ∃ t : Fin cfg0.N, (cfg0.win 6).flush t = true ∧ i ∈ ((cfg0.win 6).blk t).view.set := by
  have hi0 : (i 0).val < 8 := (i 0).isLt
  have hi1 : (i 1).val < 1048576 := (i 1).isLt
  have hlt : (i 1).val / 16384 < cfg0.N := by
    show (i 1).val / 16384 < grid0.N
    rw [N_0]; omega
  obtain ⟨_, _, _, _, _, _, _, _, _, _, _, _, e60, e61⟩ := idx_facts ⟨(i 1).val / 16384, hlt⟩
  have e61' : win0_6.index ⟨(i 1).val / 16384, hlt⟩ (1 : Fin 2) = (i 1).val / 16384 := e61
  refine ⟨⟨(i 1).val / 16384, hlt⟩, flush0_6 _, ?_⟩
  rw [mem_blk]
  intro a
  match a with
  | ⟨0, _⟩ =>
    show win0_6.index ⟨(i 1).val / 16384, hlt⟩ (0 : Fin 2) * 8 ≤ (i 0).val
      ∧ (i 0).val < win0_6.index ⟨(i 1).val / 16384, hlt⟩ (0 : Fin 2) * 8 + 8
    omega
  | ⟨1, _⟩ =>
    show win0_6.index ⟨(i 1).val / 16384, hlt⟩ (1 : Fin 2) * 16384 ≤ (i 1).val
      ∧ (i 1).val < win0_6.index ⟨(i 1).val / 16384, hlt⟩ (1 : Fin 2) * 16384 + 16384
    omega

/-- The output array after the region. -/
theorem final (c : Dev nD) : (dats m 0 c).arrAt 6 cfg0.N
    = G (V m c main_v74) (V m c main_v19) (V m c main_v39) (V m c main_v53) (V m c main_v67) (V m c main_v73) :=
  (dats m 0 c).arrAt_eq_of_cover 6 _ (fun t _ => flushed_eq m c t) cover

/-- The program's result: the region's output array transposed. -/
def result (c : Dev nD) : S1048576x8.Idx → EReal :=
  fun i => G (V m c main_v74) (V m c main_v19) (V m c main_v39) (V m c main_v53) (V m c main_v67) (V m c main_v73) (ix2 (i 1) (i 0))

theorem tail_eq (c : Dev nD) :
    Pipeline.afterTail₀ cfgs (dats m) 0 (V0 m) [hostOps1] c main_v76 = result m c := by
  unfold Pipeline.afterTail₀
  show StableHlo.after hostOps1 _ (Proc.devRef .tc main_v76) = _
  after_results
  rw [Pipeline.withArrays_arr spec0 launch0.win.arr_inj c _ _ 6]
  show transpose S1048576x8 [1, 0] ((dats m 0 c).arrAt 6 cfg0.N) transposes_S8x1048576_S1048576x8_1_0 = _
  rw [final]
  funext i
  obtain ⟨n, j, rfl⟩ : ∃ (n : Fin 1048576) (j : Fin 8), i = ix2 n j := ⟨i 0, i 1, eq_ix2 i⟩
  exact transpose_ix2_apply _ _ n j

/-- The run, read: the result array is `result`, the arguments are unchanged. -/
theorem value_run : θ_run defs (onTc (τ := τ) (main (F := Ideal))) ⟨m, fun _ => 0, ρ⟩ (fun r => ∀ c : Dev nD,
      r.2.mem ((c.tc : Thread nD τ).loc main_v76) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).2 main_v76 (Pipeline.mem_restRefs_of main_v76 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩) (run_main m ρ)

end Cert.KernelIdeal.KerValue

end
-- ==== Proof.SpecResult.lean ====
/-
  The result both programs are shown to compute: entry `(n, j)` of the result array is output `j` of the network of
  `Spec` on sample `n` (row `n` of the input array), with the fused layers of the fourteen parameter arrays.
-/
import proofs.«138684_g2000407009072039_pallasbulk_686_4_alg».proof.Proof.Spec

noncomputable section

namespace Cert.Mlp

open Idealize.ShloMosaic Idealize.ShloMosaic.ValueIdx

/-- The network's result array as a function of the fifteen argument arrays. -/
def result (x : (⟨2, ![1048576, 8]⟩ : Shape).Idx → EReal)
    (w0 : (⟨2, ![4, 32]⟩ : Shape).Idx → EReal) (b0 : (⟨1, ![32]⟩ : Shape).Idx → EReal)
    (w1 : (⟨2, ![32, 32]⟩ : Shape).Idx → EReal) (b1 : (⟨1, ![32]⟩ : Shape).Idx → EReal)
    (w2 : (⟨2, ![4, 32]⟩ : Shape).Idx → EReal) (b2 : (⟨1, ![32]⟩ : Shape).Idx → EReal)
    (w3 : (⟨2, ![32, 32]⟩ : Shape).Idx → EReal) (b3 : (⟨1, ![32]⟩ : Shape).Idx → EReal)
    (w4 : (⟨2, ![64, 32]⟩ : Shape).Idx → EReal) (b4 : (⟨1, ![32]⟩ : Shape).Idx → EReal)
    (w5 : (⟨2, ![32, 32]⟩ : Shape).Idx → EReal) (b5 : (⟨1, ![32]⟩ : Shape).Idx → EReal)
    (w6 : (⟨2, ![32, 8]⟩ : Shape).Idx → EReal) (b6 : (⟨1, ![8]⟩ : Shape).Idx → EReal) :
    (⟨2, ![1048576, 8]⟩ : Shape).Idx → EReal :=
  fun i => (layersOf w0 b0 w1 b1 w2 b2 w3 b3 w4 b4 w5 b5 w6 b6).net (fun k => nat2 x (i 0).val k) (i 1).val

end Cert.Mlp

end
-- ==== Proof.KerJoin.lean ====
/-
  The transposed program's result is the network: the region's arrays hold the input transposed and the five augmented
  matrices of the fused layers, so each column goes through `kerNet_eq`.
-/
import proofs.«138684_g2000407009072039_pallasbulk_686_4_alg».proof.Proof.KerValue
import proofs.«138684_g2000407009072039_pallasbulk_686_4_alg».proof.Proof.SpecResult

noncomputable section

namespace Cert.KernelIdeal.KerValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- From what the launched arrays hold, entry by entry, to the result as the network on each row of `x`. -/
theorem result_of_arrays (c : Dev nD) (P : Cert.Mlp.Layers) (x : S1048576x8.Idx → EReal)
    (hx : ∀ (k : Fin 8) (n : Fin 1048576), (V m c main_v74 : S8x1048576.Idx → EReal) (ix2 k n) = x (ix2 n k))
    (h0 : ∀ (j : Fin 65) (k : Fin 9), (V m c main_v19 : S65x9.Idx → EReal) (ix2 j k) = Cert.Mlp.aug 8 64 P.L0 P.c0 j.val k.val)
    (h1 : ∀ (j : Fin 65) (k : Fin 65), (V m c main_v39 : S65x65.Idx → EReal) (ix2 j k) = Cert.Mlp.aug 64 64 P.L1 P.c1 j.val k.val)
    (h2 : ∀ (j : Fin 33) (k : Fin 65), (V m c main_v53 : S33x65.Idx → EReal) (ix2 j k) = Cert.Mlp.aug 64 32 P.L2 P.c2 j.val k.val)
    (h3 : ∀ (j : Fin 33) (k : Fin 33), (V m c main_v67 : S33x33.Idx → EReal) (ix2 j k) = Cert.Mlp.aug 32 32 P.L3 P.c3 j.val k.val)
    (h4 : ∀ (j : Fin 8) (k : Fin 33), (V m c main_v73 : S8x33.Idx → EReal) (ix2 j k) = Cert.Mlp.aug 32 8 P.L4 P.c4 j.val k.val) :
    result m c = fun i => P.net (fun k => Cert.Mlp.nat2 x (i 0).val k) (i 1).val := by
  funext i
  obtain ⟨n, j, rfl⟩ : ∃ (n : Fin 1048576) (j : Fin 8), i = ix2 n j := ⟨i 0, i 1, eq_ix2 i⟩
  show G (V m c main_v74) (V m c main_v19) (V m c main_v39) (V m c main_v53) (V m c main_v67) (V m c main_v73) (ix2 j n) = _
  unfold G
  refine Cert.Mlp.kerNet_eq P (fun k => Cert.Mlp.nat2 x n.val k) _ _ _ _ _ _ h0 h1 h2 h3 h4 ?_ j
  intro k
  show col1 (V m c main_v74) n k = _
  unfold col1
  by_cases h : k.val < 8
  · rw [dif_pos h, if_pos h, hx]
    exact (Cert.Mlp.nat2_of_lt x n ⟨k.val, h⟩).symm
  · rw [dif_neg h, if_neg h]

end Cert.KernelIdeal.KerValue

end
-- ==== Proof.LibScatterSet.lean ====
/-
  Scatter with the "set" body: the value at an operand index no update lands on is the
  operand's; the value at an operand index exactly one update lands on is that update's.
  And the characterisation of the operand index an update lands on.
-/
import Idealize.ShloMosaic.PureOps

namespace Idealize.ShloMosaic

section ScatterSet
variable {s si u : Shape} {α : Type} {w : Nat}

/-- The left fold of the scatter step with the body `fun _ b => b` over ANY list of update
    positions, read at an operand index `i` that none of the listed updates lands on, is the
    starting value at `i`. -/
theorem Host.scatter_set_foldl_of_miss (d : ScatterDims s si u) (idx : IVec si w) (upd : u.Idx → α) (i : s.Idx) :
    ∀ (l : List (Fin u.numel)) (x : s.Idx → α),
      (∀ n ∈ l, d.resultIdx? (u.rowMajor.symm n) idx ≠ some i) →
      l.foldl (fun r n =>
          match d.resultIdx? (u.rowMajor.symm n) idx with
          | some i => fun i' => if i' = i then (fun _ b => b) (r i) (upd (u.rowMajor.symm n)) else r i'
          | none => r) x i = x i := by
  intro l
  induction l with
  | nil => intro x _; rfl
  | cons n l ih =>
    intro x h
    rw [List.foldl_cons, ih _ fun m hm => h m (List.mem_cons_of_mem _ hm)]
    have hn := h n List.mem_cons_self
    cases h0 : d.resultIdx? (u.rowMajor.symm n) idx with
    | none => rfl
    | some i0 =>
      have hne : i ≠ i0 := fun e => hn (by rw [h0, e])
      show (if i = i0 then _ else x i) = x i
      rw [if_neg hne]

/-- The left fold of the scatter step with the body `fun _ b => b` over ANY list of update
    positions, read at an operand index `i` that the listed position `n` lands on and no other
    listed position does, is the update's value at position `n`. -/
theorem Host.scatter_set_foldl_of_hit (d : ScatterDims s si u) (idx : IVec si w) (upd : u.Idx → α) (i : s.Idx)
    (n : Fin u.numel) (hn : d.resultIdx? (u.rowMajor.symm n) idx = some i) :
    ∀ (l : List (Fin u.numel)) (x : s.Idx → α), n ∈ l →
      (∀ m ∈ l, d.resultIdx? (u.rowMajor.symm m) idx = some i → m = n) →
      l.foldl (fun r n =>
          match d.resultIdx? (u.rowMajor.symm n) idx with
          | some i => fun i' => if i' = i then (fun _ b => b) (r i) (upd (u.rowMajor.symm n)) else r i'
          | none => r) x i = upd (u.rowMajor.symm n) := by
  intro l
  induction l with
  | nil => intro x hmem; exact absurd hmem List.not_mem_nil
  | cons m l ih =>
    intro x hmem huniq
    rw [List.foldl_cons]
    by_cases hl : n ∈ l
    · exact ih _ hl fun m' hm' => huniq m' (List.mem_cons_of_mem _ hm')
    · have hmn : n = m := by
        rcases List.mem_cons.1 hmem with h | h
        · exact h
        · exact absurd h hl
      subst hmn
      rw [Host.scatter_set_foldl_of_miss d idx upd i l _ fun m' hm' he =>
        hl (huniq m' (List.mem_cons_of_mem _ hm') he ▸ hm')]
      rw [hn]
      show (if i = i then upd (u.rowMajor.symm n) else x i) = upd (u.rowMajor.symm n)
      rw [if_pos rfl]

/-- Scatter with the body `fun _ b => b`, at an operand index `i` that NO update index lands on:
    the operand's value at `i`. -/
theorem Host.scatter_set_of_miss (d : ScatterDims s si u) (x : s.Idx → α) (idx : IVec si w) (upd : u.Idx → α) (i : s.Idx)
    (hmiss : ∀ j : u.Idx, d.resultIdx? j idx ≠ some i) :
    Host.scatter d (fun _ b => b) x idx upd i = x i :=
  Host.scatter_set_foldl_of_miss d idx upd i _ x fun n _ => hmiss _

/-- Scatter with the body `fun _ b => b`, at an operand index `i` that the update index `j` lands
    on and no other update index does: the update's value at `j`. -/
theorem Host.scatter_set_of_hit (d : ScatterDims s si u) (x : s.Idx → α) (idx : IVec si w) (upd : u.Idx → α)
    (j : u.Idx) (i : s.Idx) (hj : d.resultIdx? j idx = some i)
    (huniq : ∀ j' : u.Idx, d.resultIdx? j' idx = some i → j' = j) :
    Host.scatter d (fun _ b => b) x idx upd i = upd j := by
  have h := Host.scatter_set_foldl_of_hit d idx upd i (u.rowMajor j)
    (by rw [Equiv.symm_apply_apply]; exact hj) (List.finRange u.numel) x (List.mem_finRange _)
    fun m _ hm => by rw [← huniq _ hm, Equiv.apply_symm_apply]
  rw [Equiv.symm_apply_apply] at h
  exact h

/-- An update index `j` lands on the operand index `i` exactly when, on every operand axis,
    `i`'s coordinate is the (signed, unclamped) start plus the window coordinate. -/
theorem ScatterDims.resultIdx?_eq_some_iff (d : ScatterDims s si u) (j : u.Idx) (idx : IVec si w) (i : s.Idx) :
    d.resultIdx? j idx = some i ↔ ∀ a, ((i a).val : Int) = d.start j idx a + d.window j a := by
  unfold ScatterDims.resultIdx?
  split
  · next h =>
    constructor
    · intro he a
      have := Option.some.inj he
      subst this
      exact Int.toNat_of_nonneg (h a).1
    · intro hall
      congr 1
      funext a
      apply Fin.ext
      show (d.start j idx a + (d.window j a : Int)).toNat = (i a).val
      rw [← hall a, Int.toNat_natCast]
  · next h =>
    constructor
    · intro he; cases he
    · intro hall
      exfalso
      apply h
      intro a
      rw [← hall a]
      exact ⟨Int.natCast_nonneg _, by exact_mod_cast (i a).isLt⟩

/-- When every update index `j` lands, in bounds, on `e j` and `e` is injective, the scatter with the body
    `fun _ b => b` read at `e j` is the update's value at `j`. -/
theorem Host.scatter_set_embed_hit (d : ScatterDims s si u) (x : s.Idx → α) (idx : IVec si w) (upd : u.Idx → α)
    (e : u.Idx → s.Idx) (he : ∀ j a, ((e j a).val : Int) = d.start j idx a + (d.window j a : Int))
    (hinj : Function.Injective e) (j : u.Idx) :
    Host.scatter d (fun _ b => b) x idx upd (e j) = upd j :=
  Host.scatter_set_of_hit d x idx upd j (e j) ((d.resultIdx?_eq_some_iff j idx (e j)).2 (he j))
    (fun j' hj' => hinj (by
      have h1 := (d.resultIdx?_eq_some_iff j' idx (e j')).2 (he j')
      rw [hj'] at h1
      exact (Option.some.inj h1).symm))

/-- Under the same hypotheses, at an operand index outside the image of `e` the scatter leaves the operand's value. -/
theorem Host.scatter_set_embed_miss (d : ScatterDims s si u) (x : s.Idx → α) (idx : IVec si w) (upd : u.Idx → α)
    (e : u.Idx → s.Idx) (he : ∀ j a, ((e j a).val : Int) = d.start j idx a + (d.window j a : Int))
    (i : s.Idx) (hmiss : ∀ j, e j ≠ i) :
    Host.scatter d (fun _ b => b) x idx upd i = x i :=
  Host.scatter_set_of_miss d x idx upd i (fun j hj => hmiss j (by
    have h1 := (d.resultIdx?_eq_some_iff j idx (e j)).2 (he j)
    rw [hj] at h1
    exact (Option.some.inj h1).symm))

end ScatterSet

end Idealize.ShloMosaic
-- ==== Proof.KerPrefix.Scatter.lean ====
/-
  Scatters that overwrite ("set") a rectangle of a matrix, read at an index.

  Every scatter here has one scatter index (a start position), so its update array lands on one rectangle of
  the operand: the start plus the update's own coordinates.  Read at a position inside the rectangle the result
  is the update there; read anywhere else it is the operand.  The five arrangements the packed weight matrices
  use are: a matrix block at a (row, column) start; a vector down one column from a (row, column) start; a single
  entry at a (row, column) start; a matrix block at a column start (row start zero); a vector down one column
  at a column start.
-/
import proofs.«138684_g2000407009072039_pallasbulk_686_4_alg».proof.Proof.LibScatterSet
import Idealize.ShloMosaic.Lib.ValueIdx
import Idealize.ShloMosaic.Lib.ValueLayout
import Idealize.ShloMosaic.Lib.IdealHost
import Idealize.ShloMosaic.Lib.Pipeline.Value

namespace Cert.KernelIdeal.Prefix

open Idealize.ShloMosaic Idealize.ShloMosaic.ValueIdx

abbrev Sh0 : Shape := ⟨0, ![]⟩
abbrev Sh1 (a : ℕ) : Shape := ⟨1, ![a]⟩
abbrev Sh2 (a b : ℕ) : Shape := ⟨2, ![a, b]⟩

/-! ## The rectangle an update lands on, in general -/

section Rect
variable {α : Type} {R C : ℕ} {si u : Shape} {w : ℕ}

/-- When update index `j'` lands on row `fr j'`, column `fc j'` (inside the matrix, and no two update indices on one
    position), the scatter read at that position is the update at `j'`. -/
theorem set_hit (d : ScatterDims (Sh2 R C) si u) (x : (Sh2 R C).Idx → α) (idx : IVec si w) (upd : u.Idx → α)
    (fr fc : u.Idx → ℕ)
    (h0 : ∀ j', d.start j' idx 0 + (d.window j' 0 : Int) = (fr j' : Int))
    (h1 : ∀ j', d.start j' idx 1 + (d.window j' 1 : Int) = (fc j' : Int))
    (hR : ∀ j', fr j' < R) (hC : ∀ j', fc j' < C)
    (hinj : ∀ j1 j2, fr j1 = fr j2 → fc j1 = fc j2 → j1 = j2)
    (j' : u.Idx) (j : Fin R) (k : Fin C) (hj : j.val = fr j') (hk : k.val = fc j') :
    Host.scatter d (fun _ b => b) x idx upd (ix2 j k) = upd j' := by
  let e : u.Idx → (Sh2 R C).Idx := fun j' => ix2 ⟨fr j', hR j'⟩ ⟨fc j', hC j'⟩
  have he : ∀ j' a, ((e j' a).val : Int) = d.start j' idx a + (d.window j' a : Int) := fun j' a =>
    match a with
    | ⟨0, _⟩ => (h0 j').symm
    | ⟨1, _⟩ => (h1 j').symm
  have hinj' : Function.Injective e := fun j1 j2 h =>
    hinj j1 j2 (congrArg (fun i => (i 0).val) h) (congrArg (fun i => (i 1).val) h)
  have hjk : ix2 j k = e j' := by
    show ix2 j k = ix2 ⟨fr j', hR j'⟩ ⟨fc j', hC j'⟩
    rw [show j = ⟨fr j', hR j'⟩ from Fin.ext hj, show k = ⟨fc j', hC j'⟩ from Fin.ext hk]
  rw [hjk]
  exact Host.scatter_set_embed_hit d x idx upd e he hinj' j'

/-- Under the same description of where the updates land, at a position no update lands on the scatter leaves the operand. -/
theorem set_miss (d : ScatterDims (Sh2 R C) si u) (x : (Sh2 R C).Idx → α) (idx : IVec si w) (upd : u.Idx → α)
    (fr fc : u.Idx → ℕ)
    (h0 : ∀ j', d.start j' idx 0 + (d.window j' 0 : Int) = (fr j' : Int))
    (h1 : ∀ j', d.start j' idx 1 + (d.window j' 1 : Int) = (fc j' : Int))
    (hR : ∀ j', fr j' < R) (hC : ∀ j', fc j' < C)
    (j : Fin R) (k : Fin C) (hm : ∀ j', ¬(j.val = fr j' ∧ k.val = fc j')) :
    Host.scatter d (fun _ b => b) x idx upd (ix2 j k) = x (ix2 j k) := by
  let e : u.Idx → (Sh2 R C).Idx := fun j' => ix2 ⟨fr j', hR j'⟩ ⟨fc j', hC j'⟩
  have he : ∀ j' a, ((e j' a).val : Int) = d.start j' idx a + (d.window j' a : Int) := fun j' a =>
    match a with
    | ⟨0, _⟩ => (h0 j').symm
    | ⟨1, _⟩ => (h1 j').symm
  exact Host.scatter_set_embed_miss d x idx upd e he (ix2 j k) fun j' h =>
    hm j' ⟨(congrArg (fun i => (i 0).val) h).symm, (congrArg (fun i => (i 1).val) h).symm⟩

end Rect

/-! ## Where the start comes from: the one scatter index -/

section Start
variable {R C : ℕ} {u : Shape}

/-- With a two-entry index vector naming (row, column), the row start is entry 0. -/
theorem start2_0 (uw : List (Fin u.rank)) (iw : List (Fin (Sh2 R C).rank)) (wf : ScatterDims.WF (Sh2 R C) (Sh1 2) u uw iw [0, 1] 0)
    (idx : IVec (Sh1 2) 32) (j' : u.Idx) :
    (⟨uw, iw, [0, 1], 0, wf⟩ : ScatterDims (Sh2 R C) (Sh1 2) u).start j' idx 0 = (idx (ix1 0)).toInt := by
  have hs : (⟨uw, iw, [0, 1], 0, wf⟩ : ScatterDims (Sh2 R C) (Sh1 2) u).siIdx j' ⟨0, Nat.zero_lt_two⟩ = ix1 0 := by
    funext b; match b with | ⟨0, _⟩ => rfl
  unfold ScatterDims.start
  rw [dif_pos List.mem_cons_self]
  exact congrArg (fun i => (idx i).toInt) hs

/-- … and the column start is entry 1. -/
theorem start2_1 (uw : List (Fin u.rank)) (iw : List (Fin (Sh2 R C).rank)) (wf : ScatterDims.WF (Sh2 R C) (Sh1 2) u uw iw [0, 1] 0)
    (idx : IVec (Sh1 2) 32) (j' : u.Idx) :
    (⟨uw, iw, [0, 1], 0, wf⟩ : ScatterDims (Sh2 R C) (Sh1 2) u).start j' idx 1 = (idx (ix1 1)).toInt := by
  have hs : (⟨uw, iw, [0, 1], 0, wf⟩ : ScatterDims (Sh2 R C) (Sh1 2) u).siIdx j' ⟨1, Nat.one_lt_two⟩ = ix1 1 := by
    funext b; match b with | ⟨0, _⟩ => rfl
  unfold ScatterDims.start
  rw [dif_pos (List.mem_cons_of_mem _ List.mem_cons_self)]
  exact congrArg (fun i => (idx i).toInt) hs

/-- With a one-entry index vector naming the column, the row start is zero. -/
theorem start1_0 (uw : List (Fin u.rank)) (iw : List (Fin (Sh2 R C).rank)) (wf : ScatterDims.WF (Sh2 R C) (Sh1 1) u uw iw [1] 0)
    (idx : IVec (Sh1 1) 32) (j' : u.Idx) :
    (⟨uw, iw, [1], 0, wf⟩ : ScatterDims (Sh2 R C) (Sh1 1) u).start j' idx 0 = 0 := by
  unfold ScatterDims.start
  rw [dif_neg (by simp)]

/-- … and the column start is the entry. -/
theorem start1_1 (uw : List (Fin u.rank)) (iw : List (Fin (Sh2 R C).rank)) (wf : ScatterDims.WF (Sh2 R C) (Sh1 1) u uw iw [1] 0)
    (idx : IVec (Sh1 1) 32) (j' : u.Idx) :
    (⟨uw, iw, [1], 0, wf⟩ : ScatterDims (Sh2 R C) (Sh1 1) u).start j' idx 1 = (idx (ix1 0)).toInt := by
  have hs : (⟨uw, iw, [1], 0, wf⟩ : ScatterDims (Sh2 R C) (Sh1 1) u).siIdx j' ⟨0, Nat.zero_lt_one⟩ = ix1 0 := by
    funext b; match b with | ⟨0, _⟩ => rfl
  unfold ScatterDims.start
  rw [dif_pos List.mem_cons_self]
  exact congrArg (fun i => (idx i).toInt) hs

end Start

/-! ## The five arrangements -/

section Kinds
variable {α : Type} {R C p q : ℕ}

/-- A `p × q` block written at (row `r0`, column `c0`): inside the block the result is the update. -/
theorem block_hit (d : ScatterDims (Sh2 R C) (Sh1 2) (Sh2 p q)) (wf) (hd : d = ⟨[0, 1], [], [0, 1], 0, wf⟩)
    (x : (Sh2 R C).Idx → α) (idx : IVec (Sh1 2) 32) (upd : (Sh2 p q).Idx → α) (r0 c0 : ℕ)
    (hi0 : (idx (ix1 0)).toInt = r0) (hi1 : (idx (ix1 1)).toInt = c0) (hR : r0 + p ≤ R) (hC : c0 + q ≤ C)
    (a : Fin p) (b : Fin q) (j : Fin R) (k : Fin C) (hj : j.val = r0 + a.val) (hk : k.val = c0 + b.val) :
    Host.scatter d (fun _ b => b) x idx upd (ix2 j k) = upd (ix2 a b) := by
  subst hd
  exact set_hit _ x idx upd (fun j' => r0 + (j' 0).val) (fun j' => c0 + (j' 1).val)
    (fun j' => by rw [start2_0, hi0]; exact (Nat.cast_add r0 (j' 0).val).symm)
    (fun j' => by rw [start2_1, hi1]; exact (Nat.cast_add c0 (j' 1).val).symm)
    (fun j' => by have := idx2_lt0 j'; omega) (fun j' => by have := idx2_lt1 j'; omega)
    (fun j1 j2 e0 e1 => by
      rw [eq_ix2 j1, eq_ix2 j2]
      rw [show j1 0 = j2 0 from Fin.ext (Nat.add_left_cancel e0), show j1 1 = j2 1 from Fin.ext (Nat.add_left_cancel e1)])
    (ix2 a b) j k hj hk

/-- … and outside the block it is the operand. -/
theorem block_miss (d : ScatterDims (Sh2 R C) (Sh1 2) (Sh2 p q)) (wf) (hd : d = ⟨[0, 1], [], [0, 1], 0, wf⟩)
    (x : (Sh2 R C).Idx → α) (idx : IVec (Sh1 2) 32) (upd : (Sh2 p q).Idx → α) (r0 c0 : ℕ)
    (hi0 : (idx (ix1 0)).toInt = r0) (hi1 : (idx (ix1 1)).toInt = c0) (hR : r0 + p ≤ R) (hC : c0 + q ≤ C)
    (j : Fin R) (k : Fin C) (hm : ¬((r0 ≤ j.val ∧ j.val < r0 + p) ∧ (c0 ≤ k.val ∧ k.val < c0 + q))) :
    Host.scatter d (fun _ b => b) x idx upd (ix2 j k) = x (ix2 j k) := by
  subst hd
  exact set_miss _ x idx upd (fun j' => r0 + (j' 0).val) (fun j' => c0 + (j' 1).val)
    (fun j' => by rw [start2_0, hi0]; exact (Nat.cast_add r0 (j' 0).val).symm)
    (fun j' => by rw [start2_1, hi1]; exact (Nat.cast_add c0 (j' 1).val).symm)
    (fun j' => by have := idx2_lt0 j'; omega) (fun j' => by have := idx2_lt1 j'; omega)
    j k (fun j' h => hm (by have := idx2_lt0 j'; have := idx2_lt1 j'; omega))

/-- A vector of `p` entries written down column `c0` from row `r0`: on that stretch the result is the update. -/
theorem col_hit (d : ScatterDims (Sh2 R C) (Sh1 2) (Sh1 p)) (wf) (hd : d = ⟨[0], [1], [0, 1], 0, wf⟩)
    (x : (Sh2 R C).Idx → α) (idx : IVec (Sh1 2) 32) (upd : (Sh1 p).Idx → α) (r0 c0 : ℕ)
    (hi0 : (idx (ix1 0)).toInt = r0) (hi1 : (idx (ix1 1)).toInt = c0) (hR : r0 + p ≤ R) (hC : c0 < C)
    (a : Fin p) (j : Fin R) (k : Fin C) (hj : j.val = r0 + a.val) (hk : k.val = c0) :
    Host.scatter d (fun _ b => b) x idx upd (ix2 j k) = upd (ix1 a) := by
  subst hd
  exact set_hit _ x idx upd (fun j' => r0 + (j' 0).val) (fun _ => c0)
    (fun j' => by rw [start2_0, hi0]; exact (Nat.cast_add r0 (j' 0).val).symm)
    (fun j' => by rw [start2_1, hi1]; exact add_zero _)
    (fun j' => by have := (j' 0).isLt; have h : (j' 0).val < p := this; omega) (fun _ => hC)
    (fun j1 j2 e0 _ => by
      rw [eq_ix1 j1, eq_ix1 j2, show j1 0 = j2 0 from Fin.ext (Nat.add_left_cancel e0)])
    (ix1 a) j k hj hk

/-- … and off that stretch it is the operand. -/
theorem col_miss (d : ScatterDims (Sh2 R C) (Sh1 2) (Sh1 p)) (wf) (hd : d = ⟨[0], [1], [0, 1], 0, wf⟩)
    (x : (Sh2 R C).Idx → α) (idx : IVec (Sh1 2) 32) (upd : (Sh1 p).Idx → α) (r0 c0 : ℕ)
    (hi0 : (idx (ix1 0)).toInt = r0) (hi1 : (idx (ix1 1)).toInt = c0) (hR : r0 + p ≤ R) (hC : c0 < C)
    (j : Fin R) (k : Fin C) (hm : ¬((r0 ≤ j.val ∧ j.val < r0 + p) ∧ k.val = c0)) :
    Host.scatter d (fun _ b => b) x idx upd (ix2 j k) = x (ix2 j k) := by
  subst hd
  exact set_miss _ x idx upd (fun j' => r0 + (j' 0).val) (fun _ => c0)
    (fun j' => by rw [start2_0, hi0]; exact (Nat.cast_add r0 (j' 0).val).symm)
    (fun j' => by rw [start2_1, hi1]; exact add_zero _)
    (fun j' => by have h : (j' 0).val < p := (j' 0).isLt; omega) (fun _ => hC)
    j k (fun j' h => hm (by have h' : (j' 0).val < p := (j' 0).isLt; omega))

/-- A single entry written at (row `r0`, column `c0`). -/
theorem entry_hit (d : ScatterDims (Sh2 R C) (Sh1 2) Sh0) (wf) (hd : d = ⟨[], [0, 1], [0, 1], 0, wf⟩)
    (x : (Sh2 R C).Idx → α) (idx : IVec (Sh1 2) 32) (upd : Sh0.Idx → α) (r0 c0 : ℕ)
    (hi0 : (idx (ix1 0)).toInt = r0) (hi1 : (idx (ix1 1)).toInt = c0) (hR : r0 < R) (hC : c0 < C)
    (j : Fin R) (k : Fin C) (hj : j.val = r0) (hk : k.val = c0) :
    Host.scatter d (fun _ b => b) x idx upd (ix2 j k) = upd ix0 := by
  subst hd
  exact set_hit _ x idx upd (fun _ => r0) (fun _ => c0)
    (fun j' => by rw [start2_0, hi0]; exact add_zero _)
    (fun j' => by rw [start2_1, hi1]; exact add_zero _)
    (fun _ => hR) (fun _ => hC)
    (fun j1 j2 _ _ => (eq_ix0 j1).trans (eq_ix0 j2).symm)
    ix0 j k hj hk

/-- … and everywhere else the operand. -/
theorem entry_miss (d : ScatterDims (Sh2 R C) (Sh1 2) Sh0) (wf) (hd : d = ⟨[], [0, 1], [0, 1], 0, wf⟩)
    (x : (Sh2 R C).Idx → α) (idx : IVec (Sh1 2) 32) (upd : Sh0.Idx → α) (r0 c0 : ℕ)
    (hi0 : (idx (ix1 0)).toInt = r0) (hi1 : (idx (ix1 1)).toInt = c0) (hR : r0 < R) (hC : c0 < C)
    (j : Fin R) (k : Fin C) (hm : ¬(j.val = r0 ∧ k.val = c0)) :
    Host.scatter d (fun _ b => b) x idx upd (ix2 j k) = x (ix2 j k) := by
  subst hd
  exact set_miss _ x idx upd (fun _ => r0) (fun _ => c0)
    (fun j' => by rw [start2_0, hi0]; exact add_zero _)
    (fun j' => by rw [start2_1, hi1]; exact add_zero _)
    (fun _ => hR) (fun _ => hC) j k (fun _ h => hm h)

/-- A `p × q` block written at column `c0` from the top row. -/
theorem cblock_hit (d : ScatterDims (Sh2 R C) (Sh1 1) (Sh2 p q)) (wf) (hd : d = ⟨[0, 1], [], [1], 0, wf⟩)
    (x : (Sh2 R C).Idx → α) (idx : IVec (Sh1 1) 32) (upd : (Sh2 p q).Idx → α) (c0 : ℕ)
    (hi : (idx (ix1 0)).toInt = c0) (hR : p ≤ R) (hC : c0 + q ≤ C)
    (a : Fin p) (b : Fin q) (j : Fin R) (k : Fin C) (hj : j.val = a.val) (hk : k.val = c0 + b.val) :
    Host.scatter d (fun _ b => b) x idx upd (ix2 j k) = upd (ix2 a b) := by
  subst hd
  exact set_hit _ x idx upd (fun j' => (j' 0).val) (fun j' => c0 + (j' 1).val)
    (fun j' => by rw [start1_0]; exact zero_add _)
    (fun j' => by rw [start1_1, hi]; exact (Nat.cast_add c0 (j' 1).val).symm)
    (fun j' => by have := idx2_lt0 j'; omega) (fun j' => by have := idx2_lt1 j'; omega)
    (fun j1 j2 e0 e1 => by
      rw [eq_ix2 j1, eq_ix2 j2]
      rw [show j1 0 = j2 0 from Fin.ext e0, show j1 1 = j2 1 from Fin.ext (Nat.add_left_cancel e1)])
    (ix2 a b) j k hj hk

theorem cblock_miss (d : ScatterDims (Sh2 R C) (Sh1 1) (Sh2 p q)) (wf) (hd : d = ⟨[0, 1], [], [1], 0, wf⟩)
    (x : (Sh2 R C).Idx → α) (idx : IVec (Sh1 1) 32) (upd : (Sh2 p q).Idx → α) (c0 : ℕ)
    (hi : (idx (ix1 0)).toInt = c0) (hR : p ≤ R) (hC : c0 + q ≤ C)
    (j : Fin R) (k : Fin C) (hm : ¬(j.val < p ∧ (c0 ≤ k.val ∧ k.val < c0 + q))) :
    Host.scatter d (fun _ b => b) x idx upd (ix2 j k) = x (ix2 j k) := by
  subst hd
  exact set_miss _ x idx upd (fun j' => (j' 0).val) (fun j' => c0 + (j' 1).val)
    (fun j' => by rw [start1_0]; exact zero_add _)
    (fun j' => by rw [start1_1, hi]; exact (Nat.cast_add c0 (j' 1).val).symm)
    (fun j' => by have := idx2_lt0 j'; omega) (fun j' => by have := idx2_lt1 j'; omega)
    j k (fun j' h => hm (by have := idx2_lt0 j'; have := idx2_lt1 j'; omega))

/-- A vector of `p` entries written down column `c0` from the top row. -/
theorem ccol_hit (d : ScatterDims (Sh2 R C) (Sh1 1) (Sh1 p)) (wf) (hd : d = ⟨[0], [1], [1], 0, wf⟩)
    (x : (Sh2 R C).Idx → α) (idx : IVec (Sh1 1) 32) (upd : (Sh1 p).Idx → α) (c0 : ℕ)
    (hi : (idx (ix1 0)).toInt = c0) (hR : p ≤ R) (hC : c0 < C)
    (a : Fin p) (j : Fin R) (k : Fin C) (hj : j.val = a.val) (hk : k.val = c0) :
    Host.scatter d (fun _ b => b) x idx upd (ix2 j k) = upd (ix1 a) := by
  subst hd
  exact set_hit _ x idx upd (fun j' => (j' 0).val) (fun _ => c0)
    (fun j' => by rw [start1_0]; exact zero_add _)
    (fun j' => by rw [start1_1, hi]; exact add_zero _)
    (fun j' => by have h : (j' 0).val < p := (j' 0).isLt; omega) (fun _ => hC)
    (fun j1 j2 e0 _ => by rw [eq_ix1 j1, eq_ix1 j2, show j1 0 = j2 0 from Fin.ext e0])
    (ix1 a) j k hj hk

theorem ccol_miss (d : ScatterDims (Sh2 R C) (Sh1 1) (Sh1 p)) (wf) (hd : d = ⟨[0], [1], [1], 0, wf⟩)
    (x : (Sh2 R C).Idx → α) (idx : IVec (Sh1 1) 32) (upd : (Sh1 p).Idx → α) (c0 : ℕ)
    (hi : (idx (ix1 0)).toInt = c0) (hR : p ≤ R) (hC : c0 < C)
    (j : Fin R) (k : Fin C) (hm : ¬(j.val < p ∧ k.val = c0)) :
    Host.scatter d (fun _ b => b) x idx upd (ix2 j k) = x (ix2 j k) := by
  subst hd
  exact set_miss _ x idx upd (fun j' => (j' 0).val) (fun _ => c0)
    (fun j' => by rw [start1_0]; exact zero_add _)
    (fun j' => by rw [start1_1, hi]; exact add_zero _)
    (fun j' => by have h : (j' 0).val < p := (j' 0).isLt; omega) (fun _ => hC)
    j k (fun j' h => hm (by have h' : (j' 0).val < p := (j' 0).isLt; omega))

end Kinds

end Cert.KernelIdeal.Prefix
-- ==== Proof.KerPrefix.Arrays.lean ====
/-
  The five packed weight matrices as pure terms of the parameter arrays, read entry by entry.

  Each packed matrix starts as zeros and receives, in turn: the transposed weights (for the first two layers the two
  branches' weights on the diagonal), the biases down the last column, and (but for the output layer) a one in the
  bottom right corner.  Entry (j, k) is therefore the weight from input k to output j, the bias of output j in the last
  column, and the bottom row hands the constant channel on: this is `Cert.Mlp.aug`.
-/
import proofs.«138684_g2000407009072039_pallasbulk_686_4_alg».proof.Proof.Gen.KernelIdeal
import proofs.«138684_g2000407009072039_pallasbulk_686_4_alg».proof.Proof.Spec
import proofs.«138684_g2000407009072039_pallasbulk_686_4_alg».proof.Proof.KerPrefix.Scatter

noncomputable section

namespace Cert.KernelIdeal.Prefix

open Idealize.ShloMosaic Idealize.ShloMosaic.ValueIdx Cert.Mlp

/-! ## The constants and the index vectors -/

/-- The array of zeros of a shape: the zero word broadcast. -/
def zeros (s : Shape) (h : S_.BroadcastsInDim s (![] : Fin 0 → Fin s.rank)) : FVec Ideal s .f32 :=
  broadcastInDim s ![] h (constant (F := Ideal) S_ .f32 0x00000000#32)

theorem zeros_apply (s : Shape) (h : S_.BroadcastsInDim s (![] : Fin 0 → Fin s.rank)) (i : s.Idx) : zeros s h i = 0 := by
  unfold zeros
  rw [broadcastInDim_scalar_apply, constant_apply, Ideal.ofBits_zero_f32]

/-- The scalar one. -/
def one : FVec Ideal S_ .f32 := constant (F := Ideal) S_ .f32 0x3F800000#32

theorem one_apply (i : S_.Idx) : one i = 1 := by
  unfold one
  rw [constant_apply, Ideal.ofBits_one_f32]

/-- The one-entry index vector holding the word `b`. -/
def iv1 (b : BitVec 32) : IVec S1 32 := broadcastInDim S1 ![] Gen.bcast_S_S1 (constantI S_ 32 b)

theorem iv1_apply (b : BitVec 32) (i : S1.Idx) : iv1 b i = b := by
  unfold iv1
  rw [broadcastInDim_scalar_apply, constantI_apply]

/-- The two-entry index vector (row `a`, column `b`). -/
def iv2 (a b : BitVec 32) : IVec S2 32 :=
  concatenate S2 0 [⟨S1, iv1 a⟩, ⟨S1, iv1 b⟩] Gen.concatenates_S1_S1_S2_d0

theorem iv2_apply0 (a b : BitVec 32) : iv2 a b (ix1 0) = a := by
  unfold iv2
  refine (concatenate_pair_apply_left 0 (iv1 a) (iv1 b) Gen.concatenates_S1_S1_S2_d0 (ix1 0) rfl (ix1 0) ?_).trans (iv1_apply a _)
  intro b'
  match b' with
  | ⟨0, _⟩ => rfl

theorem iv2_apply1 (a b : BitVec 32) : iv2 a b (ix1 1) = b := by
  unfold iv2
  refine (concatenate_pair_apply_right 0 (iv1 a) (iv1 b) Gen.concatenates_S1_S1_S2_d0 (ix1 1) rfl rfl (ix1 0) ?_ ?_).trans (iv1_apply b _)
  · intro b' hb
    match b' with
    | ⟨0, _⟩ => exact absurd rfl hb
  · rfl

/-! ## The packed matrices as terms -/

/-- The output layer's matrix `[8, 33]`: the transposed weights in columns `0 … 31`, the biases in column `32`. -/
def a4T (w6 : FVec Ideal S32x8 .f32) (b6 : FVec Ideal S8 .f32) : FVec Ideal S8x33 .f32 :=
  Host.scatter scatter_S8x33_S1_S8_0_1_1_0 (fun _ b => b)
    (Host.scatter scatter_S8x33_S1_S8x32_01_n_1_0 (fun _ b => b) (zeros S8x33 Gen.bcast_S_S8x33) (iv1 0#32)
      (transpose S8x32 [1, 0] w6 Gen.transposes_S32x8_S8x32_1_0))
    (iv1 32#32) b6

theorem a4T_apply (w6 : FVec Ideal S32x8 .f32) (b6 : FVec Ideal S8 .f32) (j : Fin 8) (k : Fin 33) :
    a4T w6 b6 (ix2 j k) = aug 32 8 (nat2 w6) (nat1 b6) j.val k.val := by
  unfold a4T aug
  by_cases hk : k.val < 32
  · rw [if_pos hk, if_pos j.isLt]
    refine (ccol_miss _ _ rfl _ _ _ 32 (by rw [iv1_apply]; rfl) (by norm_num) (by norm_num) j k (by omega)).trans ?_
    refine (cblock_hit _ _ rfl _ _ _ 0 (by rw [iv1_apply]; rfl) (by norm_num) (by norm_num) j ⟨k.val, hk⟩ j k rfl (Nat.zero_add _).symm).trans ?_
    refine (transpose_apply [1, 0] w6 _ (ix2 j ⟨k.val, hk⟩) (ix2 ⟨k.val, hk⟩ j) ?_).trans (nat2_of_lt w6 ⟨k.val, hk⟩ j).symm
    intro b
    match b with
    | ⟨0, _⟩ => rfl
    | ⟨1, _⟩ => rfl
  · rw [if_neg hk, if_pos j.isLt]
    refine (ccol_hit _ _ rfl _ _ _ 32 (by rw [iv1_apply]; rfl) (by norm_num) (by norm_num) j j k rfl (by omega)).trans ?_
    exact (nat1_of_lt b6 j).symm

macro "ivx" : tactic => `(tactic| first | (rw [iv2_apply0]; rfl) | (rw [iv2_apply1]; rfl) | (rw [iv1_apply]; rfl))
macro "tr2" : tactic => `(tactic| (intro b; match b with | ⟨0, _⟩ => rfl | ⟨1, _⟩ => rfl))

/-- The fourth layer's matrix `[33, 33]`: the transposed weights, the biases in column `32`, a one in the corner. -/
def a3T (w5 : FVec Ideal S32x32 .f32) (b5 : FVec Ideal S32 .f32) : FVec Ideal S33x33 .f32 :=
  Host.scatter scatter_S33x33_S2_S__n_01_01_0 (fun _ b => b)
    (Host.scatter scatter_S33x33_S2_S32_0_1_01_0 (fun _ b => b)
      (Host.scatter scatter_S33x33_S2_S32x32_01_n_01_0 (fun _ b => b) (zeros S33x33 Gen.bcast_S_S33x33) (iv2 0#32 0#32)
        (transpose S32x32 [1, 0] w5 Gen.transposes_S32x32_S32x32_1_0))
      (iv2 0#32 32#32) b5)
    (iv2 32#32 32#32) one

theorem a3T_apply (w5 : FVec Ideal S32x32 .f32) (b5 : FVec Ideal S32 .f32) (j : Fin 33) (k : Fin 33) :
    a3T w5 b5 (ix2 j k) = aug 32 32 (nat2 w5) (nat1 b5) j.val k.val := by
  unfold a3T aug
  by_cases hk : k.val < 32
  · rw [if_pos hk]
    refine (entry_miss _ _ rfl _ _ _ 32 32 (by ivx) (by ivx) (by norm_num) (by norm_num) j k (by omega)).trans ?_
    refine (col_miss _ _ rfl _ _ _ 0 32 (by ivx) (by ivx) (by norm_num) (by norm_num) j k (by omega)).trans ?_
    by_cases hj : j.val < 32
    · rw [if_pos hj]
      refine (block_hit _ _ rfl _ _ _ 0 0 (by ivx) (by ivx) (by norm_num) (by norm_num) ⟨j.val, hj⟩ ⟨k.val, hk⟩ j k
        (Nat.zero_add _).symm (Nat.zero_add _).symm).trans ?_
      exact (transpose_apply [1, 0] w5 _ (ix2 ⟨j.val, hj⟩ ⟨k.val, hk⟩) (ix2 ⟨k.val, hk⟩ ⟨j.val, hj⟩) (by tr2)).trans
        (nat2_of_lt w5 ⟨k.val, hk⟩ ⟨j.val, hj⟩).symm
    · rw [if_neg hj]
      exact (block_miss _ _ rfl _ _ _ 0 0 (by ivx) (by ivx) (by norm_num) (by norm_num) j k (by omega)).trans (zeros_apply _ _ _)
  · rw [if_neg hk]
    by_cases hj : j.val < 32
    · rw [if_pos hj]
      refine (entry_miss _ _ rfl _ _ _ 32 32 (by ivx) (by ivx) (by norm_num) (by norm_num) j k (by omega)).trans ?_
      exact (col_hit _ _ rfl _ _ _ 0 32 (by ivx) (by ivx) (by norm_num) (by norm_num) ⟨j.val, hj⟩ j k (Nat.zero_add _).symm (by omega)).trans
        (nat1_of_lt b5 ⟨j.val, hj⟩).symm
    · rw [if_neg hj]
      exact (entry_hit _ _ rfl _ _ _ 32 32 (by ivx) (by ivx) (by norm_num) (by norm_num) j k (by omega) (by omega)).trans (one_apply _)

/-- The third layer's matrix `[33, 65]`: the transposed weights, the biases in column `64`, a one in the corner. -/
def a2T (w4 : FVec Ideal S64x32 .f32) (b4 : FVec Ideal S32 .f32) : FVec Ideal S33x65 .f32 :=
  Host.scatter scatter_S33x65_S2_S__n_01_01_0 (fun _ b => b)
    (Host.scatter scatter_S33x65_S2_S32_0_1_01_0 (fun _ b => b)
      (Host.scatter scatter_S33x65_S2_S32x64_01_n_01_0 (fun _ b => b) (zeros S33x65 Gen.bcast_S_S33x65) (iv2 0#32 0#32)
        (transpose S32x64 [1, 0] w4 Gen.transposes_S64x32_S32x64_1_0))
      (iv2 0#32 64#32) b4)
    (iv2 32#32 64#32) one

theorem a2T_apply (w4 : FVec Ideal S64x32 .f32) (b4 : FVec Ideal S32 .f32) (j : Fin 33) (k : Fin 65) :
    a2T w4 b4 (ix2 j k) = aug 64 32 (nat2 w4) (nat1 b4) j.val k.val := by
  unfold a2T aug
  by_cases hk : k.val < 64
  · rw [if_pos hk]
    refine (entry_miss _ _ rfl _ _ _ 32 64 (by ivx) (by ivx) (by norm_num) (by norm_num) j k (by omega)).trans ?_
    refine (col_miss _ _ rfl _ _ _ 0 64 (by ivx) (by ivx) (by norm_num) (by norm_num) j k (by omega)).trans ?_
    by_cases hj : j.val < 32
    · rw [if_pos hj]
      refine (block_hit _ _ rfl _ _ _ 0 0 (by ivx) (by ivx) (by norm_num) (by norm_num) ⟨j.val, hj⟩ ⟨k.val, hk⟩ j k
        (Nat.zero_add _).symm (Nat.zero_add _).symm).trans ?_
      exact (transpose_apply [1, 0] w4 _ (ix2 ⟨j.val, hj⟩ ⟨k.val, hk⟩) (ix2 ⟨k.val, hk⟩ ⟨j.val, hj⟩) (by tr2)).trans
        (nat2_of_lt w4 ⟨k.val, hk⟩ ⟨j.val, hj⟩).symm
    · rw [if_neg hj]
      exact (block_miss _ _ rfl _ _ _ 0 0 (by ivx) (by ivx) (by norm_num) (by norm_num) j k (by omega)).trans (zeros_apply _ _ _)
  · rw [if_neg hk]
    by_cases hj : j.val < 32
    · rw [if_pos hj]
      refine (entry_miss _ _ rfl _ _ _ 32 64 (by ivx) (by ivx) (by norm_num) (by norm_num) j k (by omega)).trans ?_
      exact (col_hit _ _ rfl _ _ _ 0 64 (by ivx) (by ivx) (by norm_num) (by norm_num) ⟨j.val, hj⟩ j k (Nat.zero_add _).symm (by omega)).trans
        (nat1_of_lt b4 ⟨j.val, hj⟩).symm
    · rw [if_neg hj]
      exact (entry_hit _ _ rfl _ _ _ 32 64 (by ivx) (by ivx) (by norm_num) (by norm_num) j k (by omega) (by omega)).trans (one_apply _)

/-- The second layer's matrix `[65, 65]`: the two branches' transposed weights on the diagonal, their biases end to end in column `64`, a one in the corner. -/
def a1T (w1 : FVec Ideal S32x32 .f32) (b1 : FVec Ideal S32 .f32) (w3 : FVec Ideal S32x32 .f32) (b3 : FVec Ideal S32 .f32) :
    FVec Ideal S65x65 .f32 :=
  Host.scatter scatter_S65x65_S2_S__n_01_01_0 (fun _ b => b)
    (Host.scatter scatter_S65x65_S2_S64_0_1_01_0 (fun _ b => b)
      (Host.scatter scatter_S65x65_S2_S32x32_01_n_01_0 (fun _ b => b)
        (Host.scatter scatter_S65x65_S2_S32x32_01_n_01_0 (fun _ b => b) (zeros S65x65 Gen.bcast_S_S65x65) (iv2 0#32 0#32)
          (transpose S32x32 [1, 0] w1 Gen.transposes_S32x32_S32x32_1_0))
        (iv2 32#32 32#32) (transpose S32x32 [1, 0] w3 Gen.transposes_S32x32_S32x32_1_0))
      (iv2 0#32 64#32) (concatenate S64 0 [⟨S32, b1⟩, ⟨S32, b3⟩] Gen.concatenates_S32_S32_S64_d0))
    (iv2 64#32 64#32) one

theorem a1T_apply (w1 : FVec Ideal S32x32 .f32) (b1 : FVec Ideal S32 .f32) (w3 : FVec Ideal S32x32 .f32) (b3 : FVec Ideal S32 .f32)
    (j : Fin 65) (k : Fin 65) :
    a1T w1 b1 w3 b3 (ix2 j k)
      = aug 64 64 (bdiag 32 32 (nat2 w1) (nat2 w3)) (cat 32 (nat1 b1) (nat1 b3)) j.val k.val := by
  unfold a1T aug
  by_cases hk : k.val < 64
  · rw [if_pos hk]
    -- a weight column: the corner and the bias column are elsewhere
    refine (entry_miss _ _ rfl _ _ _ 64 64 (by ivx) (by ivx) (by norm_num) (by norm_num) j k (by omega)).trans ?_
    refine (col_miss _ _ rfl _ _ _ 0 64 (by ivx) (by ivx) (by norm_num) (by norm_num) j k (by omega)).trans ?_
    by_cases hj : j.val < 64
    · rw [if_pos hj]
      unfold bdiag
      by_cases hkg : k.val < 32
      · rw [if_pos hkg]
        refine (block_miss _ _ rfl _ _ _ 32 32 (by ivx) (by ivx) (by norm_num) (by norm_num) j k (by omega)).trans ?_
        by_cases hj32 : j.val < 32
        · rw [if_pos hj32]
          refine (block_hit _ _ rfl _ _ _ 0 0 (by ivx) (by ivx) (by norm_num) (by norm_num) ⟨j.val, hj32⟩ ⟨k.val, hkg⟩ j k
            (Nat.zero_add _).symm (Nat.zero_add _).symm).trans ?_
          exact (transpose_apply [1, 0] w1 _ (ix2 ⟨j.val, hj32⟩ ⟨k.val, hkg⟩) (ix2 ⟨k.val, hkg⟩ ⟨j.val, hj32⟩) (by tr2)).trans
            (nat2_of_lt w1 ⟨k.val, hkg⟩ ⟨j.val, hj32⟩).symm
        · rw [if_neg hj32]
          exact (block_miss _ _ rfl _ _ _ 0 0 (by ivx) (by ivx) (by norm_num) (by norm_num) j k (by omega)).trans (zeros_apply _ _ _)
      · rw [if_neg hkg]
        by_cases hj32 : 32 ≤ j.val
        · rw [if_pos hj32]
          have hj' : j.val - 32 < 32 := by omega
          have hk' : k.val - 32 < 32 := by omega
          refine (block_hit _ _ rfl _ _ _ 32 32 (by ivx) (by ivx) (by norm_num) (by norm_num) ⟨j.val - 32, hj'⟩ ⟨k.val - 32, hk'⟩ j k
            (by show j.val = 32 + (j.val - 32); omega) (by show k.val = 32 + (k.val - 32); omega)).trans ?_
          exact (transpose_apply [1, 0] w3 _ (ix2 ⟨j.val - 32, hj'⟩ ⟨k.val - 32, hk'⟩) (ix2 ⟨k.val - 32, hk'⟩ ⟨j.val - 32, hj'⟩) (by tr2)).trans
            (nat2_of_lt w3 ⟨k.val - 32, hk'⟩ ⟨j.val - 32, hj'⟩).symm
        · rw [if_neg hj32]
          refine (block_miss _ _ rfl _ _ _ 32 32 (by ivx) (by ivx) (by norm_num) (by norm_num) j k (by omega)).trans ?_
          exact (block_miss _ _ rfl _ _ _ 0 0 (by ivx) (by ivx) (by norm_num) (by norm_num) j k (by omega)).trans (zeros_apply _ _ _)
    · rw [if_neg hj]
      -- the bottom row carries no weight
      refine (block_miss _ _ rfl _ _ _ 32 32 (by ivx) (by ivx) (by norm_num) (by norm_num) j k (by omega)).trans ?_
      exact (block_miss _ _ rfl _ _ _ 0 0 (by ivx) (by ivx) (by norm_num) (by norm_num) j k (by omega)).trans (zeros_apply _ _ _)
  · rw [if_neg hk]
    by_cases hj : j.val < 64
    · rw [if_pos hj]
      -- the bias column: the two branches' biases end to end
      refine (entry_miss _ _ rfl _ _ _ 64 64 (by ivx) (by ivx) (by norm_num) (by norm_num) j k (by omega)).trans ?_
      refine (col_hit _ _ rfl _ _ _ 0 64 (by ivx) (by ivx) (by norm_num) (by norm_num) ⟨j.val, hj⟩ j k (Nat.zero_add _).symm (by omega)).trans ?_
      unfold cat
      by_cases hj32 : j.val < 32
      · rw [if_pos hj32]
        refine (concatenate_pair_apply_left 0 b1 b3 Gen.concatenates_S32_S32_S64_d0 (ix1 ⟨j.val, hj⟩) rfl (ix1 ⟨j.val, hj32⟩) ?_).trans
          (nat1_of_lt b1 ⟨j.val, hj32⟩).symm
        intro b
        match b with
        | ⟨0, _⟩ => rfl
      · rw [if_neg hj32]
        have hj' : j.val - 32 < 32 := by omega
        refine (concatenate_pair_apply_right 0 b1 b3 Gen.concatenates_S32_S32_S64_d0 (ix1 ⟨j.val, hj⟩) rfl rfl (ix1 ⟨j.val - 32, hj'⟩) ?_ ?_).trans
          (nat1_of_lt b3 ⟨j.val - 32, hj'⟩).symm
        · intro b hb
          match b with
          | ⟨0, _⟩ => exact absurd rfl hb
        · show (j.val - 32) + 32 = j.val
          omega
    · rw [if_neg hj]
      exact (entry_hit _ _ rfl _ _ _ 64 64 (by ivx) (by ivx) (by norm_num) (by norm_num) j k (by omega) (by omega)).trans (one_apply _)

/-- The first layer's matrix `[65, 9]`: the two branches' transposed weights on the diagonal (each branch reads its own four features), their biases end to end in column `8`, a one in the corner. -/
def a0T (w0 : FVec Ideal S4x32 .f32) (b0 : FVec Ideal S32 .f32) (w2 : FVec Ideal S4x32 .f32) (b2 : FVec Ideal S32 .f32) :
    FVec Ideal S65x9 .f32 :=
  Host.scatter scatter_S65x9_S2_S__n_01_01_0 (fun _ b => b)
    (Host.scatter scatter_S65x9_S2_S64_0_1_01_0 (fun _ b => b)
      (Host.scatter scatter_S65x9_S2_S32x4_01_n_01_0 (fun _ b => b)
        (Host.scatter scatter_S65x9_S2_S32x4_01_n_01_0 (fun _ b => b) (zeros S65x9 Gen.bcast_S_S65x9) (iv2 0#32 0#32)
          (transpose S32x4 [1, 0] w0 Gen.transposes_S4x32_S32x4_1_0))
        (iv2 32#32 4#32) (transpose S32x4 [1, 0] w2 Gen.transposes_S4x32_S32x4_1_0))
      (iv2 0#32 8#32) (concatenate S64 0 [⟨S32, b0⟩, ⟨S32, b2⟩] Gen.concatenates_S32_S32_S64_d0))
    (iv2 64#32 8#32) one

theorem a0T_apply (w0 : FVec Ideal S4x32 .f32) (b0 : FVec Ideal S32 .f32) (w2 : FVec Ideal S4x32 .f32) (b2 : FVec Ideal S32 .f32)
    (j : Fin 65) (k : Fin 9) :
    a0T w0 b0 w2 b2 (ix2 j k)
      = aug 8 64 (bdiag 4 32 (nat2 w0) (nat2 w2)) (cat 32 (nat1 b0) (nat1 b2)) j.val k.val := by
  unfold a0T aug
  by_cases hk : k.val < 8
  · rw [if_pos hk]
    -- a weight column: the corner and the bias column are elsewhere
    refine (entry_miss _ _ rfl _ _ _ 64 8 (by ivx) (by ivx) (by norm_num) (by norm_num) j k (by omega)).trans ?_
    refine (col_miss _ _ rfl _ _ _ 0 8 (by ivx) (by ivx) (by norm_num) (by norm_num) j k (by omega)).trans ?_
    by_cases hj : j.val < 64
    · rw [if_pos hj]
      unfold bdiag
      by_cases hkg : k.val < 4
      · rw [if_pos hkg]
        refine (block_miss _ _ rfl _ _ _ 32 4 (by ivx) (by ivx) (by norm_num) (by norm_num) j k (by omega)).trans ?_
        by_cases hj32 : j.val < 32
        · rw [if_pos hj32]
          refine (block_hit _ _ rfl _ _ _ 0 0 (by ivx) (by ivx) (by norm_num) (by norm_num) ⟨j.val, hj32⟩ ⟨k.val, hkg⟩ j k
            (Nat.zero_add _).symm (Nat.zero_add _).symm).trans ?_
          exact (transpose_apply [1, 0] w0 _ (ix2 ⟨j.val, hj32⟩ ⟨k.val, hkg⟩) (ix2 ⟨k.val, hkg⟩ ⟨j.val, hj32⟩) (by tr2)).trans
            (nat2_of_lt w0 ⟨k.val, hkg⟩ ⟨j.val, hj32⟩).symm
        · rw [if_neg hj32]
          exact (block_miss _ _ rfl _ _ _ 0 0 (by ivx) (by ivx) (by norm_num) (by norm_num) j k (by omega)).trans (zeros_apply _ _ _)
      · rw [if_neg hkg]
        by_cases hj32 : 32 ≤ j.val
        · rw [if_pos hj32]
          have hj' : j.val - 32 < 32 := by omega
          have hk' : k.val - 4 < 4 := by omega
          refine (block_hit _ _ rfl _ _ _ 32 4 (by ivx) (by ivx) (by norm_num) (by norm_num) ⟨j.val - 32, hj'⟩ ⟨k.val - 4, hk'⟩ j k
            (by show j.val = 32 + (j.val - 32); omega) (by show k.val = 4 + (k.val - 4); omega)).trans ?_
          exact (transpose_apply [1, 0] w2 _ (ix2 ⟨j.val - 32, hj'⟩ ⟨k.val - 4, hk'⟩) (ix2 ⟨k.val - 4, hk'⟩ ⟨j.val - 32, hj'⟩) (by tr2)).trans
            (nat2_of_lt w2 ⟨k.val - 4, hk'⟩ ⟨j.val - 32, hj'⟩).symm
        · rw [if_neg hj32]
          refine (block_miss _ _ rfl _ _ _ 32 4 (by ivx) (by ivx) (by norm_num) (by norm_num) j k (by omega)).trans ?_
          exact (block_miss _ _ rfl _ _ _ 0 0 (by ivx) (by ivx) (by norm_num) (by norm_num) j k (by omega)).trans (zeros_apply _ _ _)
    · rw [if_neg hj]
      -- the bottom row carries no weight
      refine (block_miss _ _ rfl _ _ _ 32 4 (by ivx) (by ivx) (by norm_num) (by norm_num) j k (by omega)).trans ?_
      exact (block_miss _ _ rfl _ _ _ 0 0 (by ivx) (by ivx) (by norm_num) (by norm_num) j k (by omega)).trans (zeros_apply _ _ _)
  · rw [if_neg hk]
    by_cases hj : j.val < 64
    · rw [if_pos hj]
      -- the bias column: the two branches' biases end to end
      refine (entry_miss _ _ rfl _ _ _ 64 8 (by ivx) (by ivx) (by norm_num) (by norm_num) j k (by omega)).trans ?_
      refine (col_hit _ _ rfl _ _ _ 0 8 (by ivx) (by ivx) (by norm_num) (by norm_num) ⟨j.val, hj⟩ j k (Nat.zero_add _).symm (by omega)).trans ?_
      unfold cat
      by_cases hj32 : j.val < 32
      · rw [if_pos hj32]
        refine (concatenate_pair_apply_left 0 b0 b2 Gen.concatenates_S32_S32_S64_d0 (ix1 ⟨j.val, hj⟩) rfl (ix1 ⟨j.val, hj32⟩) ?_).trans
          (nat1_of_lt b0 ⟨j.val, hj32⟩).symm
        intro b
        match b with
        | ⟨0, _⟩ => rfl
      · rw [if_neg hj32]
        have hj' : j.val - 32 < 32 := by omega
        refine (concatenate_pair_apply_right 0 b0 b2 Gen.concatenates_S32_S32_S64_d0 (ix1 ⟨j.val, hj⟩) rfl rfl (ix1 ⟨j.val - 32, hj'⟩) ?_ ?_).trans
          (nat1_of_lt b2 ⟨j.val - 32, hj'⟩).symm
        · intro b hb
          match b with
          | ⟨0, _⟩ => exact absurd rfl hb
        · show (j.val - 32) + 32 = j.val
          omega
    · rw [if_neg hj]
      exact (entry_hit _ _ rfl _ _ _ 64 8 (by ivx) (by ivx) (by norm_num) (by norm_num) j k (by omega) (by omega)).trans (one_apply _)

end Cert.KernelIdeal.Prefix
-- ==== Proof.KerPrefix.lean ====
/-
  What the six input arrays of the transposed program's kernel call hold when the call is made.

  Before the call the host program builds them from the launched parameter arrays: the sample matrix transposed, and
  the five packed weight matrices (zeros, overwritten block by block).  Read at an index, each packed matrix is the
  augmented matrix of its fused layer: the weights from input `k` to output `j` at `(j, k)`, the bias of output `j` in the
  last column, and a last row that is zero but for a final one.
-/
import proofs.«138684_g2000407009072039_pallasbulk_686_4_alg».proof.Proof.Gen.KernelIdeal.Frame
import proofs.«138684_g2000407009072039_pallasbulk_686_4_alg».proof.Proof.KerPrefix.Arrays

set_option maxRecDepth 16384

noncomputable section

namespace Cert.KernelIdeal.Prefix

open Idealize.ShloMosaic Idealize.ShloMosaic.TcCoe Idealize.ShloMosaic.Tactic Idealize.ShloMosaic.ValueIdx
open Idealize.ShloMosaic.StableHlo Cert.Mlp

variable (m : (ℓ : Loc nD τ sig) → Buf (Elt Ideal) ℓ) (c : Dev nD)

/-- The fused layers of the launched parameter arrays. -/
abbrev P : Layers :=
  layersOf (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))
    (m ((c : Thread nD τ).loc main_arg11)) (m ((c : Thread nD τ).loc main_arg12))
    (m ((c : Thread nD τ).loc main_arg13)) (m ((c : Thread nD τ).loc main_arg14))

/-! ## The arrays as terms of the launched parameters

Each array the call reads is the value of a chain of host operations; followed back to the launched parameter arrays the
chain is one of the terms `a0T … a4T` (or a transpose). -/

set_option maxHeartbeats 4000000 in
theorem xT_term : (Gen.V m c main_v74 : S8x1048576.Idx → EReal)
    = transpose S8x1048576 [1, 0] (m ((c : Thread nD τ).loc main_arg0) : S1048576x8.Idx → EReal) Gen.transposes_S1048576x8_S8x1048576_1_0 := by
  show StableHlo.after Gen.hostOps0 (fun b => m (c, b)) (Proc.devRef .tc main_v74) = _
  after_results_simp

set_option maxHeartbeats 4000000 in
theorem a0_term : (Gen.V m c main_v19 : S65x9.Idx → EReal)
    = a0T (m ((c : Thread nD τ).loc main_arg1)) (m ((c : Thread nD τ).loc main_arg2)) (m ((c : Thread nD τ).loc main_arg5)) (m ((c : Thread nD τ).loc main_arg6)) := by
  show StableHlo.after Gen.hostOps0 (fun b => m (c, b)) (Proc.devRef .tc main_v19) = _
  after_results_simp
  rfl

set_option maxHeartbeats 4000000 in
theorem a1_term : (Gen.V m c main_v39 : S65x65.Idx → EReal)
    = a1T (m ((c : Thread nD τ).loc main_arg3)) (m ((c : Thread nD τ).loc main_arg4)) (m ((c : Thread nD τ).loc main_arg7)) (m ((c : Thread nD τ).loc main_arg8)) := by
  show StableHlo.after Gen.hostOps0 (fun b => m (c, b)) (Proc.devRef .tc main_v39) = _
  after_results_simp
  rfl

set_option maxHeartbeats 4000000 in
theorem a2_term : (Gen.V m c main_v53 : S33x65.Idx → EReal)
    = a2T (m ((c : Thread nD τ).loc main_arg9)) (m ((c : Thread nD τ).loc main_arg10)) := by
  show StableHlo.after Gen.hostOps0 (fun b => m (c, b)) (Proc.devRef .tc main_v53) = _
  after_results_simp
  rfl

set_option maxHeartbeats 4000000 in
theorem a3_term : (Gen.V m c main_v67 : S33x33.Idx → EReal)
    = a3T (m ((c : Thread nD τ).loc main_arg11)) (m ((c : Thread nD τ).loc main_arg12)) := by
  show StableHlo.after Gen.hostOps0 (fun b => m (c, b)) (Proc.devRef .tc main_v67) = _
  after_results_simp
  rfl

set_option maxHeartbeats 4000000 in
theorem a4_term : (Gen.V m c main_v73 : S8x33.Idx → EReal)
    = a4T (m ((c : Thread nD τ).loc main_arg13)) (m ((c : Thread nD τ).loc main_arg14)) := by
  show StableHlo.after Gen.hostOps0 (fun b => m (c, b)) (Proc.devRef .tc main_v73) = _
  after_results_simp
  rfl

/-! ## Read at an index -/

/-- The sample matrix arrives transposed: feature `k` of sample `n` at row `k`, column `n`. -/
theorem xT (k : Fin 8) (n : Fin 1048576) :
    (Gen.V m c main_v74 : S8x1048576.Idx → EReal) (ix2 k n) = m ((c : Thread nD τ).loc main_arg0) (ix2 n k) :=
  (congrFun (xT_term m c) (ix2 k n)).trans
    (transpose_apply [1, 0] _ _ (ix2 k n) (ix2 n k) (fun b => match b with | ⟨0, _⟩ => rfl | ⟨1, _⟩ => rfl))

/-- The first packed matrix is the augmented matrix of the first fused layer (8 inputs, 64 outputs). -/
theorem a0_eq (j : Fin 65) (k : Fin 9) :
    (Gen.V m c main_v19 : S65x9.Idx → EReal) (ix2 j k) = aug 8 64 (P m c).L0 (P m c).c0 j.val k.val :=
  (congrFun (a0_term m c) (ix2 j k)).trans (a0T_apply _ _ _ _ j k)

/-- The second packed matrix is the augmented matrix of the second fused layer (64 inputs, 64 outputs). -/
theorem a1_eq (j : Fin 65) (k : Fin 65) :
    (Gen.V m c main_v39 : S65x65.Idx → EReal) (ix2 j k) = aug 64 64 (P m c).L1 (P m c).c1 j.val k.val :=
  (congrFun (a1_term m c) (ix2 j k)).trans (a1T_apply _ _ _ _ j k)

/-- The third packed matrix is the augmented matrix of the third layer (64 inputs, 32 outputs). -/
theorem a2_eq (j : Fin 33) (k : Fin 65) :
    (Gen.V m c main_v53 : S33x65.Idx → EReal) (ix2 j k) = aug 64 32 (P m c).L2 (P m c).c2 j.val k.val :=
  (congrFun (a2_term m c) (ix2 j k)).trans (a2T_apply _ _ j k)

/-- The fourth packed matrix is the augmented matrix of the fourth layer (32 inputs, 32 outputs). -/
theorem a3_eq (j : Fin 33) (k : Fin 33) :
    (Gen.V m c main_v67 : S33x33.Idx → EReal) (ix2 j k) = aug 32 32 (P m c).L3 (P m c).c3 j.val k.val :=
  (congrFun (a3_term m c) (ix2 j k)).trans (a3T_apply _ _ j k)

/-- The fifth packed matrix is the augmented matrix of the output layer (32 inputs, 8 outputs; no constant row). -/
theorem a4_eq (j : Fin 8) (k : Fin 33) :
    (Gen.V m c main_v73 : S8x33.Idx → EReal) (ix2 j k) = aug 32 8 (P m c).L4 (P m c).c4 j.val k.val :=
  (congrFun (a4_term m c) (ix2 j k)).trans (a4T_apply _ _ j k)

end Cert.KernelIdeal.Prefix
-- ==== Proof.KerResult.lean ====
/-
  The transposed program's result array is the network's result on its argument arrays: the host operations before the
  region leave the input transposed and the five augmented matrices of the fused layers (`Prefix`), and the region and
  the transposition after it turn those into the network on every row (`result_of_arrays`).
-/
import proofs.«138684_g2000407009072039_pallasbulk_686_4_alg».proof.Proof.KerJoin
import proofs.«138684_g2000407009072039_pallasbulk_686_4_alg».proof.Proof.KerPrefix

noncomputable section

namespace Cert.KernelIdeal.KerValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

theorem result_eq (c : Dev nD) :
    result m c = Cert.Mlp.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  result_of_arrays m c (Cert.KernelIdeal.Prefix.P m c) (m ((c.tc : Thread nD τ).loc main_arg0))
    (Cert.KernelIdeal.Prefix.xT m c) (Cert.KernelIdeal.Prefix.a0_eq m c) (Cert.KernelIdeal.Prefix.a1_eq m c)
    (Cert.KernelIdeal.Prefix.a2_eq m c) (Cert.KernelIdeal.Prefix.a3_eq m c) (Cert.KernelIdeal.Prefix.a4_eq m c)

end Cert.KernelIdeal.KerValue

end
-- ==== Proof.RefPayload.lean ====
/-
  The body's arithmetic read at one entry.

  What the reference's kernel body stores is, entry by entry, the five-layer network of Spec applied to one row
  of the input block: each layer is a matrix product of the activations (256 rows of 128 lanes) with a
  128 x 128 weight matrix into a zero accumulator, plus the layer's bias row repeated over the 256 rows, and,
  for the first four layers, the maximum with zero.  Over the extended reals the product at entry (r, j) is
  the sum over k of activation (r, k) times weight (k, j); the weight matrix and the bias row are loaded with
  a leading unit axis, which the body drops by a change of shape that keeps the row-major order.  So entry
  (r, j) of a layer depends only on row r of the activations before it, and the layers compose row by row.
-/
import proofs.«138684_g2000407009072039_pallasbulk_686_4_alg».proof.Proof.Gen.ReferenceIdeal.Skeleton
import proofs.«138684_g2000407009072039_pallasbulk_686_4_alg».proof.Proof.Spec
import proofs.«138684_g2000407009072039_pallasbulk_686_4_alg».proof.Proof.LibMatmulPlain
import Idealize.ShloMosaic.Lib.Pipeline.Value
import Idealize.ShloMosaic.Lib.ValueLayout
import Idealize.ShloMosaic.Lib.ValueIdx

noncomputable section

open scoped BigOperators

namespace Cert.ReferenceIdeal.RefValue

open Cert.ReferenceIdeal Cert.ReferenceIdeal.Gen
open Idealize.ShloMosaic Idealize.ShloMosaic.ValueIdx
open Cert.Mlp

/-- One affine layer as the body writes it: the product of the activations h with the weight matrix W (its
    leading unit axis dropped) into a zero accumulator, plus the bias row b (its leading unit axis dropped)
    repeated over the rows. -/
def affine (h : FVec Ideal S256x128 .f32) (W : Vec Ideal S1x128x128 .f32) (b : Vec Ideal S1x1x128 .f32) :
    FVec Ideal S256x128 .f32 :=
  addf (matmul dot_S256x128_S128x128_S256x128_1_0_0_1_n_n none h
      (shapeCast S128x128 W shapeCasts_S1x128x128_S128x128 : FVec Ideal S128x128 .f32) (constant S256x128 .f32 0x00000000#32))
    (broadcastTo S256x128 (shapeCast S1x128 b shapeCasts_S1x1x128_S1x128 : FVec Ideal S1x128 .f32) broadcasts_S1x128_S256x128)

/-- The rectifier as the body writes it: the maximum with the zero word repeated over the block. -/
def relu (v : FVec Ideal S256x128 .f32) : FVec Ideal S256x128 .f32 :=
  maximumf v (broadcast S256x128 (Scalar.ofBits (F := Ideal) .f32 0x00000000#32))

/-- The first part's payload: three rectified layers of the input block (the block's own change of shape is
    the identity). -/
theorem pay2_eq (x : Vec Ideal S256x128 .f32) (W0 : Vec Ideal S1x128x128 .f32) (b0 : Vec Ideal S1x1x128 .f32)
    (W1 : Vec Ideal S1x128x128 .f32) (b1 : Vec Ideal S1x1x128 .f32) (W2 : Vec Ideal S1x128x128 .f32)
    (b2 : Vec Ideal S1x1x128 .f32) :
    k0_pay2 (F := Ideal) x W0 b0 W1 b1 W2 b2
      = relu (affine (relu (affine (relu (affine (shapeCast S256x128 x shapeCasts_S256x128_S256x128) W0 b0)) W1 b1)) W2 b2) :=
  rfl

/-- The store's payload: one more rectified layer, then the output layer. -/
theorem pay1_eq (v : FVec Ideal S256x128 .f32) (W3 : Vec Ideal S1x128x128 .f32) (b3 : Vec Ideal S1x1x128 .f32)
    (W4 : Vec Ideal S1x128x128 .f32) (b4 : Vec Ideal S1x1x128 .f32) :
    k0_pay1 (F := Ideal) v W3 b3 W4 b4 = affine (relu (affine v W3 b3)) W4 b4 :=
  rfl

/-- An affine layer at entry (r, j), given row r of the activations: the output layer of Spec on that row. -/
theorem affine_apply (h : FVec Ideal S256x128 .f32) (W : Vec Ideal S1x128x128 .f32) (b : Vec Ideal S1x1x128 .f32)
    (r : Fin 256) (g : Fin 128 → EReal) (hg : ∀ k : Fin 128, h (ix2 r k) = g k) (j : Fin 128) :
    affine h W b (ix2 r j) = refOut (fun k j => W (ix3 (0 : Fin 1) k j)) (fun j => b (ix3 (0 : Fin 1) (0 : Fin 1) j)) g j := by
  unfold affine refOut
  refine congrArg₂ (fun u v : EReal => u + v) ?_ ?_
  · refine (Ideal.matmul_plain_zero_apply 256 128 128 none h
      (shapeCast S128x128 W shapeCasts_S1x128x128_S128x128 : FVec Ideal S128x128 .f32) r j).trans ?_
    refine Finset.sum_congr rfl fun k _ => ?_
    exact congrArg₂ (fun u v : EReal => u * v) (hg k) (shapeCast_1ab_ab_apply W shapeCasts_S1x128x128_S128x128 k j)
  · exact (broadcastTo_1b_ab_apply (shapeCast S1x128 b shapeCasts_S1x1x128_S1x128 : FVec Ideal S1x128 .f32)
        broadcasts_S1x128_S256x128 r j).trans
      (shapeCast_1ab_ab_apply b shapeCasts_S1x1x128_S1x128 (0 : Fin 1) j)

/-- A rectified layer at entry (r, j): the hidden layer of Spec on row r.  The zero word is the extended
    real zero. -/
theorem relu_affine_apply (h : FVec Ideal S256x128 .f32) (W : Vec Ideal S1x128x128 .f32) (b : Vec Ideal S1x1x128 .f32)
    (r : Fin 256) (g : Fin 128 → EReal) (hg : ∀ k : Fin 128, h (ix2 r k) = g k) (j : Fin 128) :
    relu (affine h W b) (ix2 r j)
      = refLayer (fun k j => W (ix3 (0 : Fin 1) k j)) (fun j => b (ix3 (0 : Fin 1) (0 : Fin 1) j)) g j := by
  unfold relu refLayer
  exact congrArg₂ (fun u v : EReal => max u v) (affine_apply h W b r g hg j) Ideal.ofBits_zero_f32

/-- The stored value at entry (r, j): the network of Spec, with the five weight matrices and bias rows as
    loaded, on row r of the input block. -/
theorem payload_apply (x : Vec Ideal S256x128 .f32)
    (W0 : Vec Ideal S1x128x128 .f32) (b0 : Vec Ideal S1x1x128 .f32) (W1 : Vec Ideal S1x128x128 .f32) (b1 : Vec Ideal S1x1x128 .f32)
    (W2 : Vec Ideal S1x128x128 .f32) (b2 : Vec Ideal S1x1x128 .f32) (W3 : Vec Ideal S1x128x128 .f32) (b3 : Vec Ideal S1x1x128 .f32)
    (W4 : Vec Ideal S1x128x128 .f32) (b4 : Vec Ideal S1x1x128 .f32) (r : Fin 256) (j : Fin 128) :
    k0_pay1 (F := Ideal) (k0_pay2 (F := Ideal) x W0 b0 W1 b1 W2 b2) W3 b3 W4 b4 (ix2 r j)
      = refOut (fun k j => W4 (ix3 (0 : Fin 1) k j)) (fun j => b4 (ix3 (0 : Fin 1) (0 : Fin 1) j))
          (refLayer (fun k j => W3 (ix3 (0 : Fin 1) k j)) (fun j => b3 (ix3 (0 : Fin 1) (0 : Fin 1) j))
            (refLayer (fun k j => W2 (ix3 (0 : Fin 1) k j)) (fun j => b2 (ix3 (0 : Fin 1) (0 : Fin 1) j))
              (refLayer (fun k j => W1 (ix3 (0 : Fin 1) k j)) (fun j => b1 (ix3 (0 : Fin 1) (0 : Fin 1) j))
                (refLayer (fun k j => W0 (ix3 (0 : Fin 1) k j)) (fun j => b0 (ix3 (0 : Fin 1) (0 : Fin 1) j))
                  (fun k => x (ix2 r k)))))) j :=
  (congrFun (pay1_eq _ W3 b3 W4 b4) (ix2 r j)).trans
    (affine_apply _ W4 b4 r _ (fun k =>
      relu_affine_apply _ W3 b3 r _ (fun k =>
        (congrFun (pay2_eq x W0 b0 W1 b1 W2 b2) (ix2 r k)).trans
          (relu_affine_apply _ W2 b2 r _ (fun k =>
            relu_affine_apply _ W1 b1 r _ (fun k =>
              relu_affine_apply _ W0 b0 r _ (fun k =>
                congrFun (shapeCast_self x shapeCasts_S256x128_S256x128) (ix2 r k)) k) k) k)) k) j)

end Cert.ReferenceIdeal.RefValue

end
-- ==== Proof.RefValue.lean ====
/-
  What the reference program computes.

  The region's output array ends holding, at row i and lane j, the five-layer network of Spec applied to row i
  of the padded input array, the layers' weights and biases read off the two padded slabs (layer l at leading
  index l).  Grid point t works on rows 256 t, ..., 256 t + 255: its input and output blocks are those rows, and
  the two slabs are staged whole, so what the body stores at block entry (r, j) is the network on array row
  256 t + r.  Every row of the array lies in the block of exactly the point (row / 256), and every point writes
  its block back, so the blocks assemble into one function of the three arrays.  The one host operation after the
  region keeps lanes 0, ..., 7 of each row.
-/
import proofs.«138684_g2000407009072039_pallasbulk_686_4_alg».proof.Proof.RefFrame
import proofs.«138684_g2000407009072039_pallasbulk_686_4_alg».proof.Proof.RefPayload
import Idealize.ShloMosaic.Lib.Pipeline.Value

set_option maxRecDepth 16384

noncomputable section

open scoped BigOperators

namespace Cert.ReferenceIdeal.RefValue

open Cert.ReferenceIdeal Cert.ReferenceIdeal.Gen
open Idealize.ShloMosaic Idealize.ShloMosaic.TcCoe Idealize.SL.Sem Idealize.ShloMosaic.ValueIdx
open Idealize.ShloMosaic.Pipeline (Dat)
open Cert.Mlp

/-! ## The network over the two slabs -/

/-- The five layers with layer l's weight matrix and bias row read at leading index l of the slabs. -/
def slabNet (slab : S5x128x128.Idx → EReal) (bslab : S5x1x128.Idx → EReal) (g : Fin 128 → EReal) : Fin 128 → EReal :=
  refOut (fun k j => slab (ix3 (4 : Fin 5) k j)) (fun j => bslab (ix3 (4 : Fin 5) (0 : Fin 1) j))
    (refLayer (fun k j => slab (ix3 (3 : Fin 5) k j)) (fun j => bslab (ix3 (3 : Fin 5) (0 : Fin 1) j))
      (refLayer (fun k j => slab (ix3 (2 : Fin 5) k j)) (fun j => bslab (ix3 (2 : Fin 5) (0 : Fin 1) j))
        (refLayer (fun k j => slab (ix3 (1 : Fin 5) k j)) (fun j => bslab (ix3 (1 : Fin 5) (0 : Fin 1) j))
          (refLayer (fun k j => slab (ix3 (0 : Fin 5) k j)) (fun j => bslab (ix3 (0 : Fin 5) (0 : Fin 1) j)) g))))

/-- The output array as one function of the padded input and the two slabs: entry (i, j) is the network on
    row i of the input. -/
def Gfinal (xpad : S1048576x128.Idx → EReal) (slab : S5x128x128.Idx → EReal) (bslab : S5x1x128.Idx → EReal) :
    S1048576x128.Idx → EReal :=
  fun i => slabNet slab bslab (fun k => xpad (ix2 (i 0) k)) (i 1)

/-- The network depends on the slabs and the row only through their entries. -/
theorem slabNet_congr {slab slab' : S5x128x128.Idx → EReal} {bslab bslab' : S5x1x128.Idx → EReal} {g g' : Fin 128 → EReal}
    (hs : ∀ (l : Fin 5) (k j : Fin 128), slab (ix3 l k j) = slab' (ix3 l k j))
    (hb : ∀ (l : Fin 5) (j : Fin 128), bslab (ix3 l (0 : Fin 1) j) = bslab' (ix3 l (0 : Fin 1) j))
    (hg : ∀ k, g k = g' k) (j : Fin 128) : slabNet slab bslab g j = slabNet slab' bslab' g' j := by
  obtain rfl : g = g' := funext hg
  unfold slabNet
  simp only [hs, hb]

/-! ## The body's store at an entry -/

theorem hz2 : (![0, 0] : Fin 2 → Nat) = fun _ => 0 := funext fun a => by fin_cases a <;> rfl

/-- A load of one weight matrix out of the slab: entry (0, k, j) of what is loaded is entry (o, k, j) of the slab. -/
theorem ld_slab (x1 : Vec Ideal S5x128x128 .f32) (o : ℕ) (ho : o < 5)
    (inb : ∀ a, (![o, 0, 0] : Fin 3 → Nat) a + S1x128x128.size a ≤ S5x128x128.size a) (k j : Fin 128) :
    View.ld x1 (Rect.unit (s := S5x128x128) ![o, 0, 0] S1x128x128.size inb) (ix3 (0 : Fin 1) k j) = x1 (ix3 (⟨o, ho⟩ : Fin 5) k j) := by
  refine congrArg x1 (funext fun a => Fin.ext ?_)
  match a with
  | ⟨0, _⟩ => show o + 1 * 0 = o; omega
  | ⟨1, _⟩ => show 0 + 1 * k.val = k.val; omega
  | ⟨2, _⟩ => show 0 + 1 * j.val = j.val; omega

/-- A load of one bias row out of the slab. -/
theorem ld_bslab (x2 : Vec Ideal S5x1x128 .f32) (o : ℕ) (ho : o < 5)
    (inb : ∀ a, (![o, 0, 0] : Fin 3 → Nat) a + S1x1x128.size a ≤ S5x1x128.size a) (j : Fin 128) :
    View.ld x2 (Rect.unit (s := S5x1x128) ![o, 0, 0] S1x1x128.size inb) (ix3 (0 : Fin 1) (0 : Fin 1) j) = x2 (ix3 (⟨o, ho⟩ : Fin 5) (0 : Fin 1) j) := by
  refine congrArg x2 (funext fun a => Fin.ext ?_)
  match a with
  | ⟨0, _⟩ => show o + 1 * 0 = o; omega
  | ⟨1, _⟩ => show 0 + 1 * 0 = 0; omega
  | ⟨2, _⟩ => show 0 + 1 * j.val = j.val; omega

/-- What the body leaves in the output buffer, at entry (r, j): the network on row r of the input block, the
    layers read off the two slab blocks. -/
theorem out_apply (x0 : Vec Ideal S256x128 .f32) (x1 : Vec Ideal S5x128x128 .f32) (x2 : Vec Ideal S5x1x128 .f32)
    (r : Fin 256) (j : Fin 128) :
    Hand.out0_3 (F := Ideal) x0 x1 x2 (ix2 r j) = slabNet x1 x2 (fun k => x0 (ix2 r k)) j := by
  unfold Hand.out0_3 Hand.hidden3
  rw [View.canon_unit_zero hz2]
  refine (payload_apply (View.ld x0 Hand.rX) (View.ld x1 Hand.rW0) (View.ld x2 Hand.rB0) (View.ld x1 Hand.rW1) (View.ld x2 Hand.rB1)
    (View.ld x1 Hand.rW2) (View.ld x2 Hand.rB2) (View.ld x1 Hand.rW3) (View.ld x2 Hand.rB3) (View.ld x1 Hand.rW4) (View.ld x2 Hand.rB4) r j).trans ?_
  have eX : ∀ k : Fin 128, View.ld x0 Hand.rX (ix2 r k) = x0 (ix2 r k) := fun k =>
    congrFun (View.ld_unit_zero (S := S256x128) hz2 inb_S256x128_S256x128_0_0 x0) (ix2 r k)
  have eW0 : ∀ k j : Fin 128, View.ld x1 Hand.rW0 (ix3 (0 : Fin 1) k j) = x1 (ix3 (0 : Fin 5) k j) := fun k j => ld_slab x1 0 (by decide) _ k j
  have eW1 : ∀ k j : Fin 128, View.ld x1 Hand.rW1 (ix3 (0 : Fin 1) k j) = x1 (ix3 (1 : Fin 5) k j) := fun k j => ld_slab x1 1 (by decide) _ k j
  have eW2 : ∀ k j : Fin 128, View.ld x1 Hand.rW2 (ix3 (0 : Fin 1) k j) = x1 (ix3 (2 : Fin 5) k j) := fun k j => ld_slab x1 2 (by decide) _ k j
  have eW3 : ∀ k j : Fin 128, View.ld x1 Hand.rW3 (ix3 (0 : Fin 1) k j) = x1 (ix3 (3 : Fin 5) k j) := fun k j => ld_slab x1 3 (by decide) _ k j
  have eW4 : ∀ k j : Fin 128, View.ld x1 Hand.rW4 (ix3 (0 : Fin 1) k j) = x1 (ix3 (4 : Fin 5) k j) := fun k j => ld_slab x1 4 (by decide) _ k j
  have eB0 : ∀ j : Fin 128, View.ld x2 Hand.rB0 (ix3 (0 : Fin 1) (0 : Fin 1) j) = x2 (ix3 (0 : Fin 5) (0 : Fin 1) j) := fun j => ld_bslab x2 0 (by decide) _ j
  have eB1 : ∀ j : Fin 128, View.ld x2 Hand.rB1 (ix3 (0 : Fin 1) (0 : Fin 1) j) = x2 (ix3 (1 : Fin 5) (0 : Fin 1) j) := fun j => ld_bslab x2 1 (by decide) _ j
  have eB2 : ∀ j : Fin 128, View.ld x2 Hand.rB2 (ix3 (0 : Fin 1) (0 : Fin 1) j) = x2 (ix3 (2 : Fin 5) (0 : Fin 1) j) := fun j => ld_bslab x2 2 (by decide) _ j
  have eB3 : ∀ j : Fin 128, View.ld x2 Hand.rB3 (ix3 (0 : Fin 1) (0 : Fin 1) j) = x2 (ix3 (3 : Fin 5) (0 : Fin 1) j) := fun j => ld_bslab x2 3 (by decide) _ j
  have eB4 : ∀ j : Fin 128, View.ld x2 Hand.rB4 (ix3 (0 : Fin 1) (0 : Fin 1) j) = x2 (ix3 (4 : Fin 5) (0 : Fin 1) j) := fun j => ld_bslab x2 4 (by decide) _ j
  unfold slabNet
  rw [funext eX, funext fun k => funext (eW0 k), funext fun k => funext (eW1 k), funext fun k => funext (eW2 k),
    funext fun k => funext (eW3 k), funext fun k => funext (eW4 k), funext eB0, funext eB1, funext eB2, funext eB3, funext eB4]

/-! ## The blocks of the four windows

A block of a window at a grid point is a unit-stride rectangle of the window's array: on each axis its entries
sit at (block index) x (block extent) + (coordinate inside the block).  The lemmas read a block of ANY contents A of
the array, so that the long chain of host operations behind the actual contents is never looked into. -/

/-- The printed index maps of the input and output windows over the grid: block row t, lane block 0. -/
theorem idx_rows : ∀ t : Fin cfg0.N,
    win0_0.index t (0 : Fin 2) = t.val ∧ win0_0.index t (1 : Fin 2) = 0
    ∧ win0_3.index t (0 : Fin 2) = t.val ∧ win0_3.index t (1 : Fin 2) = 0 :=
  (by decide +kernel : ∀ t : Fin grid0.N, _)

/-- The weight slab's window is at block 0 on every axis, whatever the point: its index map is constant. -/
theorem idx_slab (t : Fin cfg0.N) (a : Fin 3) : win0_1.index t a = 0 := by
  match a with
  | ⟨0, _⟩ => rfl
  | ⟨1, _⟩ => rfl
  | ⟨2, _⟩ => rfl

/-- So is the bias slab's. -/
theorem idx_bslab (t : Fin cfg0.N) (a : Fin 3) : win0_2.index t a = 0 := by
  match a with
  | ⟨0, _⟩ => rfl
  | ⟨1, _⟩ => rfl
  | ⟨2, _⟩ => rfl

/-- Entry (r, k) of the input window's block at point t is entry (256 t + r, k) of the array. -/
theorem blk0_read (c : Dev nD) (A : Buf (Elt Ideal) ((c : Thread nD τ).loc (Pipeline.arrRef spec0 0)))
    (t : Fin cfg0.N) (r : Fin 256) (k : Fin 128) (i0 : Fin 1048576) (hi0 : i0.val = 256 * t.val + r.val) :
    ((cfg0.win 0).blk t).view.read (Elt Ideal) A (ix2 r k) = (A : S1048576x128.Idx → EReal) (ix2 i0 k) := by
  obtain ⟨e0, e1, -⟩ := idx_rows t
  rw [View.read_apply]
  show (A : S1048576x128.Idx → EReal) _ = (A : S1048576x128.Idx → EReal) _
  refine congrArg (A : S1048576x128.Idx → EReal) (funext fun a => Fin.ext ?_)
  match a with
  | ⟨0, _⟩ => show win0_0.index t (0 : Fin 2) * 256 + 1 * r.val = i0.val; rw [e0, hi0]; omega
  | ⟨1, _⟩ => show win0_0.index t (1 : Fin 2) * 128 + 1 * k.val = k.val; rw [e1]; omega

/-- The same for the output window. -/
theorem blk3_read (c : Dev nD) (A : Buf (Elt Ideal) ((c : Thread nD τ).loc (Pipeline.arrRef spec0 3)))
    (t : Fin cfg0.N) (r : Fin 256) (k : Fin 128) (i0 : Fin 1048576) (hi0 : i0.val = 256 * t.val + r.val) :
    ((cfg0.win 3).blk t).view.read (Elt Ideal) A (ix2 r k) = (A : S1048576x128.Idx → EReal) (ix2 i0 k) := by
  obtain ⟨-, -, e0, e1⟩ := idx_rows t
  rw [View.read_apply]
  show (A : S1048576x128.Idx → EReal) _ = (A : S1048576x128.Idx → EReal) _
  refine congrArg (A : S1048576x128.Idx → EReal) (funext fun a => Fin.ext ?_)
  match a with
  | ⟨0, _⟩ => show win0_3.index t (0 : Fin 2) * 256 + 1 * r.val = i0.val; rw [e0, hi0]; omega
  | ⟨1, _⟩ => show win0_3.index t (1 : Fin 2) * 128 + 1 * k.val = k.val; rw [e1]; omega

/-- The weight window's block is the whole slab. -/
theorem blk1_read (c : Dev nD) (A : Buf (Elt Ideal) ((c : Thread nD τ).loc (Pipeline.arrRef spec0 1)))
    (t : Fin cfg0.N) (l : Fin 5) (k j : Fin 128) :
    ((cfg0.win 1).blk t).view.read (Elt Ideal) A (ix3 l k j) = (A : S5x128x128.Idx → EReal) (ix3 l k j) := by
  rw [View.read_apply]
  show (A : S5x128x128.Idx → EReal) _ = (A : S5x128x128.Idx → EReal) _
  refine congrArg (A : S5x128x128.Idx → EReal) (funext fun a => Fin.ext ?_)
  match a with
  | ⟨0, _⟩ => show win0_1.index t (0 : Fin 3) * 5 + 1 * l.val = l.val; rw [idx_slab t 0]; omega
  | ⟨1, _⟩ => show win0_1.index t (1 : Fin 3) * 128 + 1 * k.val = k.val; rw [idx_slab t 1]; omega
  | ⟨2, _⟩ => show win0_1.index t (2 : Fin 3) * 128 + 1 * j.val = j.val; rw [idx_slab t 2]; omega

/-- The bias window's block is the whole slab. -/
theorem blk2_read (c : Dev nD) (A : Buf (Elt Ideal) ((c : Thread nD τ).loc (Pipeline.arrRef spec0 2)))
    (t : Fin cfg0.N) (l : Fin 5) (j : Fin 128) :
    ((cfg0.win 2).blk t).view.read (Elt Ideal) A (ix3 l (0 : Fin 1) j) = (A : S5x1x128.Idx → EReal) (ix3 l (0 : Fin 1) j) := by
  rw [View.read_apply]
  show (A : S5x1x128.Idx → EReal) _ = (A : S5x1x128.Idx → EReal) _
  refine congrArg (A : S5x1x128.Idx → EReal) (funext fun a => Fin.ext ?_)
  match a with
  | ⟨0, _⟩ => show win0_2.index t (0 : Fin 3) * 5 + 1 * l.val = l.val; rw [idx_bslab t 0]; omega
  | ⟨1, _⟩ => show win0_2.index t (1 : Fin 3) * 1 + 1 * 0 = 0; rw [idx_bslab t 1]
  | ⟨2, _⟩ => show win0_2.index t (2 : Fin 3) * 128 + 1 * j.val = j.val; rw [idx_bslab t 2]; omega

variable (m : (ℓ : Loc nD τ sig) → Buf (Elt Ideal) ℓ) (ρ : Dev nD → PrngReg)

/-- The three input blocks of the frame's proof data, read off the arrays as the region finds them. -/
theorem iblk0_apply (c : Dev nD) (t : Fin cfg0.N) (r : Fin 256) (k : Fin 128) (i0 : Fin 1048576)
    (hi0 : i0.val = 256 * t.val + r.val) :
    (Hand.iblk m c 0 t : Vec Ideal S256x128 .f32) (ix2 r k)
      = (Hand.V m c main_v74 : S1048576x128.Idx → EReal) (ix2 i0 k) := by
  unfold Hand.iblk
  exact blk0_read c (Hand.V m c (Pipeline.arrRef spec0 0)) t r k i0 hi0

theorem iblk1_apply (c : Dev nD) (t : Fin cfg0.N) (l : Fin 5) (k j : Fin 128) :
    (Hand.iblk m c 1 t : Vec Ideal S5x128x128 .f32) (ix3 l k j)
      = (Hand.V m c main_v66 : S5x128x128.Idx → EReal) (ix3 l k j) := by
  unfold Hand.iblk
  exact blk1_read c (Hand.V m c (Pipeline.arrRef spec0 1)) t l k j

theorem iblk2_apply (c : Dev nD) (t : Fin cfg0.N) (l : Fin 5) (j : Fin 128) :
    (Hand.iblk m c 2 t : Vec Ideal S5x1x128 .f32) (ix3 l (0 : Fin 1) j)
      = (Hand.V m c main_v71 : S5x1x128.Idx → EReal) (ix3 l (0 : Fin 1) j) := by
  unfold Hand.iblk
  exact blk2_read c (Hand.V m c (Pipeline.arrRef spec0 2)) t l j

/-! ## What a point writes back -/

/-- Point t writes back block t of Gfinal of the three arrays as the region finds them. -/
theorem flushed_eq (c : Dev nD) (t : Fin cfg0.N) :
    (Hand.dats m 0 c).flushed 3 t = ((cfg0.win 3).blk t).view.read (Elt Ideal)
      (Gfinal (Hand.V m c main_v74) (Hand.V m c main_v66) (Hand.V m c main_v71)) := by
  show (cfg0.win 3).cut (grid0.coords t) ((Hand.dats m 0 c).after 3 t) = _
  rw [Hand.after0_3]
  funext y
  obtain ⟨r, j, rfl⟩ : ∃ (r : Fin 256) (j : Fin 128), y = ix2 r j := ⟨y 0, y 1, eq_ix2 y⟩
  have hN : cfg0.N = 4096 := N_0
  have ht : t.val < 4096 := hN ▸ t.isLt
  have hi : 256 * t.val + r.val < 1048576 := by have := r.isLt; omega
  refine (out_apply (Hand.iblk m c 0 t) (Hand.iblk m c 1 t) (Hand.iblk m c 2 t) r j).trans ?_
  refine (slabNet_congr (iblk1_apply m c t) (iblk2_apply m c t)
    (fun k => iblk0_apply m c t r k ⟨256 * t.val + r.val, hi⟩ rfl) j).trans ?_
  exact (blk3_read c (Gfinal (Hand.V m c main_v74) (Hand.V m c main_v66) (Hand.V m c main_v71)) t r j
    ⟨256 * t.val + r.val, hi⟩ rfl).symm

/-! ## The array after the run -/

/-- Membership in point t's output block, axis by axis. -/
theorem mem_blk3 (t : Fin cfg0.N) (i : S1048576x128.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v75).slice (win0_3.rect t)).set ↔ _
  rw [View.set_slice_whole, Rect.mem_set_unit]
  exact Iff.rfl

/-- Every entry of the output array lies in the block of the point (row / 256), which writes its block back. -/
theorem cover (i : S1048576x128.Idx) :
    ∃ t : Fin cfg0.N, (cfg0.win 3).flush t = true ∧ i ∈ ((cfg0.win 3).blk t).view.set := by
  have hN : cfg0.N = 4096 := N_0
  have h0 : (i 0).val < 1048576 := (i 0).isLt
  have h1 : (i 1).val < 128 := (i 1).isLt
  have ht : (i 0).val / 256 < cfg0.N := by rw [hN]; omega
  obtain ⟨-, -, e0, e1⟩ := idx_rows ⟨(i 0).val / 256, ht⟩
  refine ⟨⟨(i 0).val / 256, ht⟩, flush0_3 _, ?_⟩
  rw [mem_blk3]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_3.index ⟨(i 0).val / 256, ht⟩ (1 : Fin 2) * 128 ≤ (i 1).val
      ∧ (i 1).val < win0_3.index ⟨(i 0).val / 256, ht⟩ (1 : Fin 2) * 128 + 128
    rw [e1]; omega

/-- So the output array ends holding Gfinal of the three arrays. -/
theorem final (c : Dev nD) : (Hand.dats m 0 c).arrAt 3 cfg0.N
    = Gfinal (Hand.V m c main_v74) (Hand.V m c main_v66) (Hand.V m c main_v71) :=
  (Hand.dats m 0 c).arrAt_eq_of_cover 3 (Gfinal (Hand.V m c main_v74) (Hand.V m c main_v66) (Hand.V m c main_v71))
    (fun t _ => flushed_eq m c t) cover

/-! ## The slice after the region, and the run -/

/-- A lane index below 8, as a lane of the 128. -/
def lane8 (q : Fin 8) : Fin 128 := ⟨q.val, by have := q.isLt; omega⟩

/-- The program's result: lanes 0, ..., 7 of every row of the output array. -/
def result (xpad : S1048576x128.Idx → EReal) (slab : S5x128x128.Idx → EReal) (bslab : S5x1x128.Idx → EReal) :
    S1048576x8.Idx → EReal :=
  fun i => Gfinal xpad slab bslab (ix2 (i 0) (lane8 (i 1)))

/-- The one host operation after the region reads the output array the pipeline left and keeps its first eight
    lanes. -/
theorem tail_eq (c : Dev nD) :
    Pipeline.afterTail₀ cfgs (Hand.dats m) 0 (Hand.V0 m) [hostOps1] c main_v76
      = result (Hand.V m c main_v74) (Hand.V m c main_v66) (Hand.V m c main_v71) := by
  unfold Pipeline.afterTail₀
  show StableHlo.after hostOps1 _ (Proc.devRef .tc main_v76) = _
  after_results
  rw [Pipeline.withArrays_arr spec0 launch0.win.arr_inj c _ _ 3, final m c]
  funext i
  refine extractStridedSlice_apply _ _ _ i _ fun a => ?_
  match a with
  | ⟨0, _⟩ => show (i 0).val = 0 + (i 0).val; omega
  | ⟨1, _⟩ => show (i 1).val = 0 + (i 1).val; omega

/-- THE VALUE RUN of the reference at the ideal instance: it terminates without a fault, its result buffer holds
    lanes 0, ..., 7 of the network applied row by row to the padded input, and the fifteen arguments are as
    launched. -/
theorem value_run : θ_run defs (onTc (τ := τ) (main (F := Ideal))) ⟨m, fun _ => 0, ρ⟩ (fun r => ∀ c : Dev nD,
      r.2.mem ((c.tc : Thread nD τ).loc main_v76)
        = result (Hand.V m c main_v74) (Hand.V m c main_v66) (Hand.V m c main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).2 main_v76 (Pipeline.mem_restRefs_of main_v76 (by decide) (by decide))).trans (tail_eq m c),
      ((h c).2 main_arg0 (Pipeline.mem_restRefs_of main_arg0 (by decide) (by decide))).trans (Hand.W_main_arg0 m (Hand.dats m) c),
      ((h c).2 main_arg1 (Pipeline.mem_restRefs_of main_arg1 (by decide) (by decide))).trans (Hand.W_main_arg1 m (Hand.dats m) c),
      ((h c).2 main_arg2 (Pipeline.mem_restRefs_of main_arg2 (by decide) (by decide))).trans (Hand.W_main_arg2 m (Hand.dats m) c),
      ((h c).2 main_arg3 (Pipeline.mem_restRefs_of main_arg3 (by decide) (by decide))).trans (Hand.W_main_arg3 m (Hand.dats m) c),
      ((h c).2 main_arg4 (Pipeline.mem_restRefs_of main_arg4 (by decide) (by decide))).trans (Hand.W_main_arg4 m (Hand.dats m) c),
      ((h c).2 main_arg5 (Pipeline.mem_restRefs_of main_arg5 (by decide) (by decide))).trans (Hand.W_main_arg5 m (Hand.dats m) c),
      ((h c).2 main_arg6 (Pipeline.mem_restRefs_of main_arg6 (by decide) (by decide))).trans (Hand.W_main_arg6 m (Hand.dats m) c),
      ((h c).2 main_arg7 (Pipeline.mem_restRefs_of main_arg7 (by decide) (by decide))).trans (Hand.W_main_arg7 m (Hand.dats m) c),
      ((h c).2 main_arg8 (Pipeline.mem_restRefs_of main_arg8 (by decide) (by decide))).trans (Hand.W_main_arg8 m (Hand.dats m) c),
      ((h c).2 main_arg9 (Pipeline.mem_restRefs_of main_arg9 (by decide) (by decide))).trans (Hand.W_main_arg9 m (Hand.dats m) c),
      ((h c).2 main_arg10 (Pipeline.mem_restRefs_of main_arg10 (by decide) (by decide))).trans (Hand.W_main_arg10 m (Hand.dats m) c),
      ((h c).2 main_arg11 (Pipeline.mem_restRefs_of main_arg11 (by decide) (by decide))).trans (Hand.W_main_arg11 m (Hand.dats m) c),
      ((h c).2 main_arg12 (Pipeline.mem_restRefs_of main_arg12 (by decide) (by decide))).trans (Hand.W_main_arg12 m (Hand.dats m) c),
      ((h c).2 main_arg13 (Pipeline.mem_restRefs_of main_arg13 (by decide) (by decide))).trans (Hand.W_main_arg13 m (Hand.dats m) c),
      ((h c).2 main_arg14 (Pipeline.mem_restRefs_of main_arg14 (by decide) (by decide))).trans (Hand.W_main_arg14 m (Hand.dats m) c)⟩) (Hand.run_main m ρ)

end Cert.ReferenceIdeal.RefValue

end
-- ==== Proof.RefJoin.lean ====
/-
  The padded program's result is the network: when the padded input holds the rows of `x` in its first eight lanes and the
  two slabs hold the fused layers' weights and biases (zero elsewhere, as the fused layers' functions are), every row
  goes through `refNet_eq`.
-/
import proofs.«138684_g2000407009072039_pallasbulk_686_4_alg».proof.Proof.RefValue
import proofs.«138684_g2000407009072039_pallasbulk_686_4_alg».proof.Proof.SpecResult

noncomputable section

namespace Cert.ReferenceIdeal.RefValue

open Idealize.ShloMosaic Idealize.ShloMosaic.ValueIdx
open Cert.ReferenceIdeal

/-- From what the launched arrays hold, entry by entry, to the result as the network on each row of `x`. Stated over any
    contents of the three arrays. -/
theorem result_of_arrays (P : Cert.Mlp.Layers) (hP : P.Ok) (x : S1048576x8.Idx → EReal)
    (xpad : S1048576x128.Idx → EReal) (slab : S5x128x128.Idx → EReal) (bslab : S5x1x128.Idx → EReal)
    (hx : ∀ (n : Fin 1048576) (k : Fin 128), xpad (ix2 n k) = Cert.Mlp.nat2 x n.val k.val)
    (hW0 : ∀ k j : Fin 128, slab (ix3 (0 : Fin 5) k j) = P.L0 k.val j.val) (hb0 : ∀ j : Fin 128, bslab (ix3 (0 : Fin 5) (0 : Fin 1) j) = P.c0 j.val)
    (hW1 : ∀ k j : Fin 128, slab (ix3 (1 : Fin 5) k j) = P.L1 k.val j.val) (hb1 : ∀ j : Fin 128, bslab (ix3 (1 : Fin 5) (0 : Fin 1) j) = P.c1 j.val)
    (hW2 : ∀ k j : Fin 128, slab (ix3 (2 : Fin 5) k j) = P.L2 k.val j.val) (hb2 : ∀ j : Fin 128, bslab (ix3 (2 : Fin 5) (0 : Fin 1) j) = P.c2 j.val)
    (hW3 : ∀ k j : Fin 128, slab (ix3 (3 : Fin 5) k j) = P.L3 k.val j.val) (hb3 : ∀ j : Fin 128, bslab (ix3 (3 : Fin 5) (0 : Fin 1) j) = P.c3 j.val)
    (hW4 : ∀ k j : Fin 128, slab (ix3 (4 : Fin 5) k j) = P.L4 k.val j.val) (hb4 : ∀ j : Fin 128, bslab (ix3 (4 : Fin 5) (0 : Fin 1) j) = P.c4 j.val) :
    result xpad slab bslab = fun i => P.net (fun k => Cert.Mlp.nat2 x (i 0).val k) (i 1).val := by
  funext i
  obtain ⟨n, j, rfl⟩ : ∃ (n : Fin 1048576) (j : Fin 8), i = ix2 n j := ⟨i 0, i 1, eq_ix2 i⟩
  show slabNet slab bslab (fun k => xpad (ix2 n k)) (lane8 j) = _
  unfold slabNet
  exact Cert.Mlp.refNet_eq P hP (fun k => Cert.Mlp.nat2 x n.val k) _ _ _ _ _ _ _ _ _ _ _
    hW0 hb0 hW1 hb1 hW2 hb2 hW3 hb3 hW4 hb4 (fun k => hx n k) (lane8 j)

end Cert.ReferenceIdeal.RefValue

end
-- ==== Proof.RefPrefix.Scatters.lean ====
/-
  A scatter that writes ONE rectangle, read at an index.

  Every scatter of the padded program has a single start index (its index vector is one vector, naming each
  scattered operand axis in order) and the body that keeps the update.  Update element y therefore lands on the
  operand index "start + y" (on an axis the update does not have, the start alone), the landing map is
  injective, and so the result at an operand index is the update's element when the index lies in the
  rectangle "start ≤ i < start + extent" and the operand's element otherwise.

  Four shapes occur: a p x q block written at (r0, c0) of a P x Q matrix; a p x q matrix written at the corner of
  layer l of the 5 x 128 x 128 slab; a q-entry vector written at the start of row l of the 5 x 1 x 128 slab; and the
  1048576 x 8 input written at column 0 of the 1048576 x 128 padded input.  Each is stated over arbitrary operand,
  index-vector and update contents, the index vector's entries being hypotheses.

  Then the same with the update read as a function of naturals that is zero outside its extents, the two
  block scatters onto zeros as the block-diagonal matrix, and two vectors end to end as the concatenated bias.
-/
import proofs.«138684_g2000407009072039_pallasbulk_686_4_alg».proof.Proof.Gen.ReferenceIdeal.Launch
import proofs.«138684_g2000407009072039_pallasbulk_686_4_alg».proof.Proof.Spec
import proofs.«138684_g2000407009072039_pallasbulk_686_4_alg».proof.Proof.LibScatterSet
import Idealize.ShloMosaic.Lib.Pipeline.Value
import Idealize.ShloMosaic.Lib.ValueIdx

noncomputable section

namespace Cert.ReferenceIdeal.Prefix

open Cert.ReferenceIdeal Cert.ReferenceIdeal.Gen
open Idealize.ShloMosaic Idealize.ShloMosaic.ValueIdx

/-! ## A scatter that writes one rectangle, read at an index

Each scatter of the program writes ONE window (one start index), every update element at the start plus its own
coordinates.  So the result at an index inside the rectangle is the update there, and elsewhere the operand. -/

section Scatters
variable {α : Type}

/-- A p x q update written at row r0, column c0 of a P x Q operand. -/
theorem scatter_block_apply {P Q p q : ℕ} (r0 c0 : ℕ) (hp : r0 + p ≤ P) (hq : c0 + q ≤ Q)
    (d : ScatterDims ⟨2, ![P, Q]⟩ S2 ⟨2, ![p, q]⟩)
    (hw0 : ∀ y, d.window y 0 = (y 0).val) (hw1 : ∀ y, d.window y 1 = (y 1).val)
    (hs : ∀ y (idx : IVec S2 32) (a : Fin 2), d.start y idx a = (idx (ix1 a)).toInt)
    (x : (⟨2, ![P, Q]⟩ : Shape).Idx → α) (idx : IVec S2 32) (upd : (⟨2, ![p, q]⟩ : Shape).Idx → α)
    (hi0 : (idx (ix1 0)).toInt = r0) (hi1 : (idx (ix1 1)).toInt = c0) (k : Fin P) (j : Fin Q) :
    Host.scatter d (fun _ b => b) x idx upd (ix2 k j)
      = if h : (r0 ≤ k.val ∧ k.val < r0 + p) ∧ (c0 ≤ j.val ∧ j.val < c0 + q)
        then upd (ix2 ⟨k.val - r0, by omega⟩ ⟨j.val - c0, by omega⟩) else x (ix2 k j) := by
  let e : (⟨2, ![p, q]⟩ : Shape).Idx → (⟨2, ![P, Q]⟩ : Shape).Idx := fun y =>
    ix2 (⟨r0 + (y 0).val, by have := idx2_lt0 y; omega⟩ : Fin P) (⟨c0 + (y 1).val, by have := idx2_lt1 y; omega⟩ : Fin Q)
  have he : ∀ y a, ((e y a).val : Int) = d.start y idx a + (d.window y a : Int) := by
    intro y a
    match a with
    | ⟨0, _⟩ =>
      show ((r0 + (y 0).val : ℕ) : Int) = d.start y idx 0 + (d.window y 0 : Int)
      rw [hs, hw0, hi0]; push_cast; rfl
    | ⟨1, _⟩ =>
      show ((c0 + (y 1).val : ℕ) : Int) = d.start y idx 1 + (d.window y 1 : Int)
      rw [hs, hw1, hi1]; push_cast; rfl
  by_cases h : (r0 ≤ k.val ∧ k.val < r0 + p) ∧ (c0 ≤ j.val ∧ j.val < c0 + q)
  · rw [dif_pos h]
    have hinj : Function.Injective e := by
      intro y y' hy
      have h0 : r0 + (y 0).val = r0 + (y' 0).val := congrArg Fin.val (congrFun hy 0)
      have h1 : c0 + (y 1).val = c0 + (y' 1).val := congrArg Fin.val (congrFun hy 1)
      rw [eq_ix2 y, eq_ix2 y', show y 0 = y' 0 from Fin.ext (by omega), show y 1 = y' 1 from Fin.ext (by omega)]
    have hE : e (ix2 ⟨k.val - r0, by omega⟩ ⟨j.val - c0, by omega⟩) = ix2 k j := by
      funext a
      match a with
      | ⟨0, _⟩ => exact Fin.ext (show r0 + (k.val - r0) = k.val by omega)
      | ⟨1, _⟩ => exact Fin.ext (show c0 + (j.val - c0) = j.val by omega)
    rw [← hE]
    exact Host.scatter_set_embed_hit d x idx upd e he hinj _
  · rw [dif_neg h]
    refine Host.scatter_set_embed_miss d x idx upd e he (ix2 k j) ?_
    intro y hy
    have h0 : r0 + (y 0).val = k.val := congrArg Fin.val (congrFun hy 0)
    have h1 : c0 + (y 1).val = j.val := congrArg Fin.val (congrFun hy 1)
    have := idx2_lt0 y; have := idx2_lt1 y
    omega

/-- A p x q update written at the corner of layer l of the 5 x 128 x 128 slab. -/
theorem scatter_slab_apply {p q : ℕ} (hp : p ≤ 128) (hq : q ≤ 128)
    (d : ScatterDims S5x128x128 S3 ⟨2, ![p, q]⟩)
    (hw0 : ∀ y, d.window y 0 = 0) (hw1 : ∀ y, d.window y 1 = (y 0).val) (hw2 : ∀ y, d.window y 2 = (y 1).val)
    (hs : ∀ y (idx : IVec S3 32) (a : Fin 3), d.start y idx a = (idx (ix1 a)).toInt)
    (x : S5x128x128.Idx → α) (idx : IVec S3 32) (upd : (⟨2, ![p, q]⟩ : Shape).Idx → α) (l : Fin 5)
    (hi0 : (idx (ix1 0)).toInt = l.val) (hi1 : (idx (ix1 1)).toInt = 0) (hi2 : (idx (ix1 2)).toInt = 0)
    (l' : Fin 5) (k j : Fin 128) :
    Host.scatter d (fun _ b => b) x idx upd (ix3 l' k j)
      = if h : l'.val = l.val ∧ k.val < p ∧ j.val < q then upd (ix2 ⟨k.val, h.2.1⟩ ⟨j.val, h.2.2⟩) else x (ix3 l' k j) := by
  let e : (⟨2, ![p, q]⟩ : Shape).Idx → S5x128x128.Idx := fun y =>
    ix3 l (⟨(y 0).val, by have := idx2_lt0 y; omega⟩ : Fin 128) (⟨(y 1).val, by have := idx2_lt1 y; omega⟩ : Fin 128)
  have he : ∀ y a, ((e y a).val : Int) = d.start y idx a + (d.window y a : Int) := by
    intro y a
    match a with
    | ⟨0, _⟩ =>
      show ((l.val : ℕ) : Int) = d.start y idx 0 + (d.window y 0 : Int)
      rw [hs, hw0, hi0]; push_cast; omega
    | ⟨1, _⟩ =>
      show (((y 0).val : ℕ) : Int) = d.start y idx 1 + (d.window y 1 : Int)
      rw [hs, hw1, hi1]; omega
    | ⟨2, _⟩ =>
      show (((y 1).val : ℕ) : Int) = d.start y idx 2 + (d.window y 2 : Int)
      rw [hs, hw2, hi2]; omega
  by_cases h : l'.val = l.val ∧ k.val < p ∧ j.val < q
  · rw [dif_pos h]
    have hinj : Function.Injective e := by
      intro y y' hy
      have h1 : (e y 1).val = (e y' 1).val := congrArg Fin.val (congrFun hy 1)
      have h2 : (e y 2).val = (e y' 2).val := congrArg Fin.val (congrFun hy 2)
      rw [eq_ix2 y, eq_ix2 y', show y 0 = y' 0 from Fin.ext h1, show y 1 = y' 1 from Fin.ext h2]
    have hE : e (ix2 ⟨k.val, h.2.1⟩ ⟨j.val, h.2.2⟩) = ix3 l' k j := by
      funext a
      match a with
      | ⟨0, _⟩ => exact Fin.ext h.1.symm
      | ⟨1, _⟩ => rfl
      | ⟨2, _⟩ => rfl
    rw [← hE]
    exact Host.scatter_set_embed_hit d x idx upd e he hinj _
  · rw [dif_neg h]
    refine Host.scatter_set_embed_miss d x idx upd e he (ix3 l' k j) ?_
    intro y hy
    have h0 : l.val = l'.val := congrArg Fin.val (congrFun hy 0)
    have h1 : (y 0).val = k.val := congrArg Fin.val (congrFun hy 1)
    have h2 : (y 1).val = j.val := congrArg Fin.val (congrFun hy 2)
    have := idx2_lt0 y; have := idx2_lt1 y
    omega

/-- A q-entry update written at the start of row l of the 5 x 1 x 128 slab. -/
theorem scatter_bias_apply {q : ℕ} (hq : q ≤ 128) (d : ScatterDims S5x1x128 S3 ⟨1, ![q]⟩)
    (hw0 : ∀ y, d.window y 0 = 0) (hw1 : ∀ y, d.window y 1 = 0) (hw2 : ∀ y, d.window y 2 = (y 0).val)
    (hs : ∀ y (idx : IVec S3 32) (a : Fin 3), d.start y idx a = (idx (ix1 a)).toInt)
    (x : S5x1x128.Idx → α) (idx : IVec S3 32) (upd : (⟨1, ![q]⟩ : Shape).Idx → α) (l : Fin 5)
    (hi0 : (idx (ix1 0)).toInt = l.val) (hi1 : (idx (ix1 1)).toInt = 0) (hi2 : (idx (ix1 2)).toInt = 0)
    (l' : Fin 5) (z : Fin 1) (j : Fin 128) :
    Host.scatter d (fun _ b => b) x idx upd (ix3 l' z j)
      = if h : l'.val = l.val ∧ j.val < q then upd (ix1 ⟨j.val, h.2⟩) else x (ix3 l' z j) := by
  have hlt : ∀ y : (⟨1, ![q]⟩ : Shape).Idx, (y 0).val < q := fun y => (y 0).isLt
  let e : (⟨1, ![q]⟩ : Shape).Idx → S5x1x128.Idx := fun y =>
    ix3 l (0 : Fin 1) (⟨(y 0).val, by have := hlt y; omega⟩ : Fin 128)
  have he : ∀ y a, ((e y a).val : Int) = d.start y idx a + (d.window y a : Int) := by
    intro y a
    match a with
    | ⟨0, _⟩ =>
      show ((l.val : ℕ) : Int) = d.start y idx 0 + (d.window y 0 : Int)
      rw [hs, hw0, hi0]; push_cast; omega
    | ⟨1, _⟩ =>
      show ((0 : ℕ) : Int) = d.start y idx 1 + (d.window y 1 : Int)
      rw [hs, hw1, hi1]; rfl
    | ⟨2, _⟩ =>
      show (((y 0).val : ℕ) : Int) = d.start y idx 2 + (d.window y 2 : Int)
      rw [hs, hw2, hi2]; omega
  by_cases h : l'.val = l.val ∧ j.val < q
  · rw [dif_pos h]
    have hinj : Function.Injective e := by
      intro y y' hy
      have h2 : (e y 2).val = (e y' 2).val := congrArg Fin.val (congrFun hy 2)
      rw [eq_ix1 y, eq_ix1 y', show y 0 = y' 0 from Fin.ext h2]
    have hE : e (ix1 ⟨j.val, h.2⟩) = ix3 l' z j := by
      funext a
      match a with
      | ⟨0, _⟩ => exact Fin.ext h.1.symm
      | ⟨1, _⟩ =>
        show (0 : Fin 1) = z
        exact Fin.ext (by have := z.isLt; omega)
      | ⟨2, _⟩ => rfl
    rw [← hE]
    exact Host.scatter_set_embed_hit d x idx upd e he hinj _
  · rw [dif_neg h]
    refine Host.scatter_set_embed_miss d x idx upd e he (ix3 l' z j) ?_
    intro y hy
    have h0 : l.val = l'.val := congrArg Fin.val (congrFun hy 0)
    have h2 : (y 0).val = j.val := congrArg Fin.val (congrFun hy 2)
    have := hlt y
    omega

/-- The padding scatter: a 1048576 x 8 update written at column 0 of a 1048576 x 128 operand. -/
theorem scatter_pad_apply (x : S1048576x128.Idx → α) (idx : IVec S1 32) (upd : S1048576x8.Idx → α)
    (hidx : ∀ i, (idx i).toInt = 0) (n : Fin 1048576) (k : Fin 128) :
    Host.scatter scatter_S1048576x128_S1_S1048576x8_01_n_1_0 (fun _ b => b) x idx upd (ix2 n k)
      = if h : k.val < 8 then upd (ix2 n ⟨k.val, h⟩) else x (ix2 n k) := by
  have he : ∀ (j : S1048576x8.Idx) (a : Fin 2),
      (((ix2 (j 0) ⟨(j 1).val, Nat.lt_of_lt_of_le (j 1).isLt (by decide)⟩ : S1048576x128.Idx) a).val : Int)
        = scatter_S1048576x128_S1_S1048576x8_01_n_1_0.start j idx a
          + (scatter_S1048576x128_S1_S1048576x8_01_n_1_0.window j a : Int) := by
    intro j a
    match a with
    | ⟨0, _⟩ =>
      show ((j 0).val : Int) = 0 + ((j 0).val : Int)
      omega
    | ⟨1, _⟩ =>
      show ((j 1).val : Int) = (idx _).toInt + ((j 1).val : Int)
      rw [hidx]; omega
  by_cases hk : k.val < 8
  · rw [dif_pos hk]
    exact Host.scatter_set_embed_hit scatter_S1048576x128_S1_S1048576x8_01_n_1_0 x idx upd
      (fun j => ix2 (j 0) ⟨(j 1).val, Nat.lt_of_lt_of_le (j 1).isLt (by decide)⟩) he
      (by
        intro j j' h
        have e0 : j 0 = j' 0 := congrFun h 0
        have h1v := congrArg Fin.val (congrFun h 1)
        have e1 : j 1 = j' 1 := Fin.ext h1v
        rw [eq_ix2 j, eq_ix2 j', e0, e1])
      (ix2 n ⟨k.val, hk⟩)
  · rw [dif_neg hk]
    refine Host.scatter_set_embed_miss scatter_S1048576x128_S1_S1048576x8_01_n_1_0 x idx upd
      (fun j => ix2 (j 0) ⟨(j 1).val, Nat.lt_of_lt_of_le (j 1).isLt (by decide)⟩) he (ix2 n k) ?_
    intro j h
    have h1 : (j 1).val = k.val := congrArg Fin.val (congrFun h 1)
    have : (j 1).val < 8 := (j 1).isLt
    omega

end Scatters

/-! ## The same, with the update read as a function of naturals -/

section Nat
open Cert.Mlp

theorem nat2_eq_of {a b : ℕ} (f : (⟨2, ![a, b]⟩ : Shape).Idx → EReal) (k j : ℕ) (hk : k < a) (hj : j < b) :
    nat2 f k j = f (ix2 ⟨k, hk⟩ ⟨j, hj⟩) := by
  unfold nat2; rw [dif_pos ⟨hk, hj⟩]

theorem nat2_eq_zero_of_not {a b : ℕ} (f : (⟨2, ![a, b]⟩ : Shape).Idx → EReal) (k j : ℕ) (h : ¬(k < a ∧ j < b)) :
    nat2 f k j = 0 := by
  unfold nat2; rw [dif_neg h]

theorem nat1_eq_of {a : ℕ} (f : (⟨1, ![a]⟩ : Shape).Idx → EReal) (j : ℕ) (hj : j < a) : nat1 f j = f (ix1 ⟨j, hj⟩) := by
  unfold nat1; rw [dif_pos hj]

theorem nat1_eq_zero_of_not {a : ℕ} (f : (⟨1, ![a]⟩ : Shape).Idx → EReal) (j : ℕ) (h : ¬j < a) : nat1 f j = 0 := by
  unfold nat1; rw [dif_neg h]

theorem scatter_block_nat {P Q p q : ℕ} (r0 c0 : ℕ) (hp : r0 + p ≤ P) (hq : c0 + q ≤ Q)
    (d : ScatterDims ⟨2, ![P, Q]⟩ S2 ⟨2, ![p, q]⟩)
    (hw0 : ∀ y, d.window y 0 = (y 0).val) (hw1 : ∀ y, d.window y 1 = (y 1).val)
    (hs : ∀ y (idx : IVec S2 32) (a : Fin 2), d.start y idx a = (idx (ix1 a)).toInt)
    (x : (⟨2, ![P, Q]⟩ : Shape).Idx → EReal) (idx : IVec S2 32) (upd : (⟨2, ![p, q]⟩ : Shape).Idx → EReal)
    (hi0 : (idx (ix1 0)).toInt = r0) (hi1 : (idx (ix1 1)).toInt = c0) (k : Fin P) (j : Fin Q) :
    Host.scatter d (fun _ b => b) x idx upd (ix2 k j)
      = if (r0 ≤ k.val ∧ k.val < r0 + p) ∧ (c0 ≤ j.val ∧ j.val < c0 + q)
        then nat2 upd (k.val - r0) (j.val - c0) else x (ix2 k j) := by
  rw [scatter_block_apply r0 c0 hp hq d hw0 hw1 hs x idx upd hi0 hi1 k j]
  by_cases h : (r0 ≤ k.val ∧ k.val < r0 + p) ∧ (c0 ≤ j.val ∧ j.val < c0 + q)
  · rw [dif_pos h, if_pos h]; exact (nat2_eq_of upd _ _ _ _).symm
  · rw [dif_neg h, if_neg h]

theorem scatter_slab_nat {p q : ℕ} (hp : p ≤ 128) (hq : q ≤ 128)
    (d : ScatterDims S5x128x128 S3 ⟨2, ![p, q]⟩)
    (hw0 : ∀ y, d.window y 0 = 0) (hw1 : ∀ y, d.window y 1 = (y 0).val) (hw2 : ∀ y, d.window y 2 = (y 1).val)
    (hs : ∀ y (idx : IVec S3 32) (a : Fin 3), d.start y idx a = (idx (ix1 a)).toInt)
    (x : S5x128x128.Idx → EReal) (idx : IVec S3 32) (upd : (⟨2, ![p, q]⟩ : Shape).Idx → EReal) (l : Fin 5)
    (hi0 : (idx (ix1 0)).toInt = l.val) (hi1 : (idx (ix1 1)).toInt = 0) (hi2 : (idx (ix1 2)).toInt = 0)
    (l' : Fin 5) (k j : Fin 128) :
    Host.scatter d (fun _ b => b) x idx upd (ix3 l' k j)
      = if l'.val = l.val ∧ k.val < p ∧ j.val < q then nat2 upd k.val j.val else x (ix3 l' k j) := by
  rw [scatter_slab_apply hp hq d hw0 hw1 hw2 hs x idx upd l hi0 hi1 hi2 l' k j]
  by_cases h : l'.val = l.val ∧ k.val < p ∧ j.val < q
  · rw [dif_pos h, if_pos h]; exact (nat2_eq_of upd _ _ _ _).symm
  · rw [dif_neg h, if_neg h]

theorem scatter_bias_nat {q : ℕ} (hq : q ≤ 128) (d : ScatterDims S5x1x128 S3 ⟨1, ![q]⟩)
    (hw0 : ∀ y, d.window y 0 = 0) (hw1 : ∀ y, d.window y 1 = 0) (hw2 : ∀ y, d.window y 2 = (y 0).val)
    (hs : ∀ y (idx : IVec S3 32) (a : Fin 3), d.start y idx a = (idx (ix1 a)).toInt)
    (x : S5x1x128.Idx → EReal) (idx : IVec S3 32) (upd : (⟨1, ![q]⟩ : Shape).Idx → EReal) (l : Fin 5)
    (hi0 : (idx (ix1 0)).toInt = l.val) (hi1 : (idx (ix1 1)).toInt = 0) (hi2 : (idx (ix1 2)).toInt = 0)
    (l' : Fin 5) (z : Fin 1) (j : Fin 128) :
    Host.scatter d (fun _ b => b) x idx upd (ix3 l' z j)
      = if l'.val = l.val ∧ j.val < q then nat1 upd j.val else x (ix3 l' z j) := by
  rw [scatter_bias_apply hq d hw0 hw1 hw2 hs x idx upd l hi0 hi1 hi2 l' z j]
  by_cases h : l'.val = l.val ∧ j.val < q
  · rw [dif_pos h, if_pos h]; exact (nat1_eq_of upd _ _).symm
  · rw [dif_neg h, if_neg h]

/-- Two scatters that put U at the corner and V diagonally below it, onto zeros: the block-diagonal matrix. -/
theorem bdiag_of_scatters {P Q p q : ℕ} (hP : p + p = P) (hQ : q + q = Q)
    (d : ScatterDims ⟨2, ![P, Q]⟩ S2 ⟨2, ![p, q]⟩)
    (hw0 : ∀ y, d.window y 0 = (y 0).val) (hw1 : ∀ y, d.window y 1 = (y 1).val)
    (hs : ∀ y (idx : IVec S2 32) (a : Fin 2), d.start y idx a = (idx (ix1 a)).toInt)
    (z : (⟨2, ![P, Q]⟩ : Shape).Idx → EReal) (hz : ∀ i, z i = 0) (U V : (⟨2, ![p, q]⟩ : Shape).Idx → EReal)
    (iA iB : IVec S2 32) (hA0 : (iA (ix1 0)).toInt = (0 : ℕ)) (hA1 : (iA (ix1 1)).toInt = (0 : ℕ))
    (hB0 : (iB (ix1 0)).toInt = p) (hB1 : (iB (ix1 1)).toInt = q) (k j : ℕ) :
    nat2 (Host.scatter d (fun _ b => b) (Host.scatter d (fun _ b => b) z iA U) iB V) k j
      = bdiag p q (nat2 U) (nat2 V) k j := by
  unfold bdiag
  by_cases hin : k < P ∧ j < Q
  · rw [nat2_eq_of _ k j hin.1 hin.2,
      scatter_block_nat p q (by omega) (by omega) d hw0 hw1 hs _ iB V hB0 hB1,
      scatter_block_nat 0 0 (by omega) (by omega) d hw0 hw1 hs z iA U hA0 hA1, hz]
    simp only [Nat.sub_zero, Nat.zero_add, Nat.zero_le, true_and]
    split_ifs <;> first | rfl | (exfalso; omega)
  · rw [nat2_eq_zero_of_not _ k j hin]
    split_ifs with h1 h2 h3
    · exact (nat2_eq_zero_of_not U k j (by omega)).symm
    · rfl
    · exact (nat2_eq_zero_of_not V _ _ (by omega)).symm
    · rfl

/-- Two 32-entry vectors end to end, as a function of a natural. -/
theorem cat_of_concatenate (u v : S32.Idx → EReal) (j : ℕ) :
    nat1 (concatenate S64 0 [⟨S32, u⟩, ⟨S32, v⟩] concatenates_S32_S32_S64_d0 : S64.Idx → EReal) j = cat 32 (nat1 u) (nat1 v) j := by
  unfold cat
  by_cases hj : j < 64
  · rw [nat1_eq_of _ j hj]
    by_cases h32 : j < 32
    · rw [if_pos h32, nat1_eq_of u j h32]
      exact concatenate_pair_apply_left (0 : Fin 1) u v concatenates_S32_S32_S64_d0 (ix1 ⟨j, hj⟩) rfl (ix1 ⟨j, h32⟩)
        (fun b => match b with | ⟨0, _⟩ => rfl)
    · rw [if_neg h32, nat1_eq_of v (j - 32) (by omega)]
      refine concatenate_pair_apply_right (0 : Fin 1) u v concatenates_S32_S32_S64_d0 (ix1 ⟨j, hj⟩) rfl rfl (ix1 ⟨j - 32, by omega⟩)
        (fun b hb => match b, hb with | ⟨0, _⟩, hb => absurd rfl hb) ?_
      show (j - 32) + 32 = j
      omega
  · rw [nat1_eq_zero_of_not _ j hj, if_neg (by omega), nat1_eq_zero_of_not v (j - 32) (by omega)]

end Nat

end Cert.ReferenceIdeal.Prefix

end
-- ==== Proof.RefPrefix.lean ====
/-
  What the padded program's host operations leave in the three input arrays of its grid region.

  Before its region the program packs its fifteen arguments.  The two branches of the first layer, 4 x 32 each, go on
  the diagonal of an 8 x 64 array of zeros, and the two 32 x 32 branches of the second layer on the diagonal of a
  64 x 64 array of zeros; the branches' biases are joined end to end.  The five fused matrices are then written, each
  at the corner of its own layer, into a 5 x 128 x 128 slab of zeros, the five fused biases each at the start of its own
  row of a 5 x 1 x 128 slab of zeros, and the 1048576 x 8 input at column 0 of a 1048576 x 128 array of zeros.

  Read at an index, each of these arrays is therefore one of the network's fused layers as a function of naturals
  that vanishes outside the layer's extents: a slab entry at layer l is decided by the one scatter that starts at
  layer l (the other four land on other layers), inside that matrix's extents it is the matrix entry, and outside
  them it is the zero the slab started from, which is also what the layer's function of naturals gives there.
-/
import proofs.«138684_g2000407009072039_pallasbulk_686_4_alg».proof.Proof.RefPrefix.Scatters
import Idealize.ShloMosaic.Lib.StableHlo.Run
import Idealize.ShloMosaic.PureOps.Ideal.Laws

noncomputable section

namespace Cert.ReferenceIdeal.Prefix

open Cert.ReferenceIdeal Cert.ReferenceIdeal.Gen
open Idealize.ShloMosaic Idealize.ShloMosaic.TcCoe Idealize.ShloMosaic.ValueIdx
open Idealize.SL.Sem

variable (m : (ℓ : Loc nD τ sig) → Buf (Elt Ideal) ℓ)

/-- Core c's buffers after the host operations that precede the region. -/
abbrev RV (c : Dev nD) (b : Ref sig .tc) : Buf (Elt Ideal) ((c : Thread nD τ).loc b) :=
  StableHlo.after (hostOps0 (F := Ideal)) (fun b => m (c, b)) (Proc.devRef .tc b)

section Results
open Idealize.ShloMosaic.StableHlo
variable {x a b y : Ref sig .tc}

/-- Three values, one per position. -/
def vec3 {α : Fin 3 → Type} (A : α 0) (B : α 1) (C : α 2) : (k : Fin 3) → α k :=
  fun k => match k with | ⟨0, _⟩ => A | ⟨1, _⟩ => B | ⟨2, _⟩ => C
theorem vec3_zero {α : Fin 3 → Type} (A : α 0) (B : α 1) (C : α 2) : vec3 A B C 0 = A := rfl
theorem vec3_one {α : Fin 3 → Type} (A : α 0) (B : α 1) (C : α 2) : vec3 A B C 1 = B := rfl
theorem vec3_two {α : Fin 3 → Type} (A : α 0) (B : α 1) (C : α 2) : vec3 A B C 2 = C := rfl

/-- The result of an operation over three references, each operand's contents read at its own reference. -/
theorem nary3_result' {Val : EltTy → Type}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (vec3 (α := fun k => ((![x, a, b] : Fin 3 → Ref sig .tc) k).ty.Contents Val)
            (F (Proc.devRef .tc x)) (F (Proc.devRef .tc a)) (F (Proc.devRef .tc b))) := by
  rw [nary_result]; congr 1; funext k; fin_cases k <;> rfl

macro "after_results_simp3" : tactic =>
  `(tactic| (simp (disch := decide) only [after_cons, after_nil,
      nullary_result', unary_result', binary_result', ternary_result', quaternary_result', reshape_result', nary3_result', vec3_zero, vec3_one, vec3_two,
      unaryIndexed_result', binaryIndexed_result',
      nullary_result_ne', unary_result_ne', binary_result_ne', ternary_result_ne', quaternary_result_ne', reshape_result_ne',
      nary_result_ne', unaryIndexed_result_ne', binaryIndexed_result_ne']))
end Results

/-- An all-zero array. -/
abbrev zeros (s : Shape) (h : S_.BroadcastsInDim s (![] : Fin 0 → Fin s.rank)) : s.Idx → EReal :=
  broadcastInDim s ![] h (constant (F := Ideal) S_ .f32 0x00000000#32)
/-- A one-entry integer vector. -/
abbrev iv1 (a : BitVec 32) : IVec S1 32 := broadcastInDim S1 ![] bcast_S_S1 (constantI S_ 32 a)
/-- A two-entry integer vector. -/
abbrev iv2 (a b : BitVec 32) : IVec S2 32 := concatenate S2 0 [⟨S1, iv1 a⟩, ⟨S1, iv1 b⟩] concatenates_S1_S1_S2_d0
/-- A three-entry integer vector. -/
abbrev iv3 (a b c : BitVec 32) : IVec S3 32 := concatenate S3 0 [⟨S1, iv1 a⟩, ⟨S1, iv1 b⟩, ⟨S1, iv1 c⟩] concatenates_S1_S1_S1_S3_d0

/-- The first fused weight matrix: the two 4 x 32 branches on the diagonal of an 8 x 64 array of zeros. -/
abbrev bd0 (w0 w2 : S4x32.Idx → EReal) : S8x64.Idx → EReal :=
  Host.scatter scatter_S8x64_S2_S4x32_01_n_01_0 (fun _ b => b)
    (Host.scatter scatter_S8x64_S2_S4x32_01_n_01_0 (fun _ b => b) (zeros S8x64 bcast_S_S8x64) (iv2 0#32 0#32) w0)
    (iv2 4#32 32#32) w2
/-- The second: the two 32 x 32 branches on the diagonal of a 64 x 64 array of zeros. -/
abbrev bd1 (w1 w3 : S32x32.Idx → EReal) : S64x64.Idx → EReal :=
  Host.scatter scatter_S64x64_S2_S32x32_01_n_01_0 (fun _ b => b)
    (Host.scatter scatter_S64x64_S2_S32x32_01_n_01_0 (fun _ b => b) (zeros S64x64 bcast_S_S64x64) (iv2 0#32 0#32) w1)
    (iv2 32#32 32#32) w3
/-- Two 32-entry bias vectors end to end. -/
abbrev cat2 (u v : S32.Idx → EReal) : S64.Idx → EReal :=
  concatenate S64 0 [⟨S32, u⟩, ⟨S32, v⟩] concatenates_S32_S32_S64_d0
/-- The weight slab: five matrices written, each at the corner of its own 128 x 128 layer, onto zeros. -/
abbrev slabW (w0 : S4x32.Idx → EReal) (w1 : S32x32.Idx → EReal) (w2 : S4x32.Idx → EReal) (w3 : S32x32.Idx → EReal)
    (w4 : S64x32.Idx → EReal) (w5 : S32x32.Idx → EReal) (w6 : S32x8.Idx → EReal) : S5x128x128.Idx → EReal :=
  Host.scatter scatter_S5x128x128_S3_S32x8_01_0_012_0 (fun _ b => b)
    (Host.scatter scatter_S5x128x128_S3_S32x32_01_0_012_0 (fun _ b => b)
      (Host.scatter scatter_S5x128x128_S3_S64x32_01_0_012_0 (fun _ b => b)
        (Host.scatter scatter_S5x128x128_S3_S64x64_01_0_012_0 (fun _ b => b)
          (Host.scatter scatter_S5x128x128_S3_S8x64_01_0_012_0 (fun _ b => b)
            (zeros S5x128x128 bcast_S_S5x128x128) (iv3 0#32 0#32 0#32) (bd0 w0 w2))
          (iv3 1#32 0#32 0#32) (bd1 w1 w3))
        (iv3 2#32 0#32 0#32) w4)
      (iv3 3#32 0#32 0#32) w5)
    (iv3 4#32 0#32 0#32) w6
/-- The bias slab: five vectors written, each at the start of its own 128-entry row, onto zeros. -/
abbrev slabB (b0 b1 b2 b3 b4 b5 : S32.Idx → EReal) (b6 : S8.Idx → EReal) : S5x1x128.Idx → EReal :=
  Host.scatter scatter_S5x1x128_S3_S8_0_01_012_0 (fun _ b => b)
    (Host.scatter scatter_S5x1x128_S3_S32_0_01_012_0 (fun _ b => b)
      (Host.scatter scatter_S5x1x128_S3_S32_0_01_012_0 (fun _ b => b)
        (Host.scatter scatter_S5x1x128_S3_S64_0_01_012_0 (fun _ b => b)
          (Host.scatter scatter_S5x1x128_S3_S64_0_01_012_0 (fun _ b => b)
            (zeros S5x1x128 bcast_S_S5x1x128) (iv3 0#32 0#32 0#32) (cat2 b0 b2))
          (iv3 1#32 0#32 0#32) (cat2 b1 b3))
        (iv3 2#32 0#32 0#32) b4)
      (iv3 3#32 0#32 0#32) b5)
    (iv3 4#32 0#32 0#32) b6

/-! ## The literal index vectors -/

theorem iv1_apply (a : BitVec 32) (i : S1.Idx) : iv1 a i = a := rfl
theorem iv2_0 (a b : BitVec 32) : iv2 a b (ix1 0) = a := rfl
theorem iv2_1 (a b : BitVec 32) : iv2 a b (ix1 1) = b := rfl
theorem iv3_0 (a b c : BitVec 32) : iv3 a b c (ix1 0) = a := rfl
theorem iv3_1 (a b c : BitVec 32) : iv3 a b c (ix1 1) = b := rfl
theorem iv3_2 (a b c : BitVec 32) : iv3 a b c (ix1 2) = c := rfl

theorem zeros_apply (s : Shape) (h : S_.BroadcastsInDim s (![] : Fin 0 → Fin s.rank)) (i : s.Idx) : zeros s h i = 0 :=
  Ideal.ofBits_zero_f32

/-! ## Where each scatter's window starts: the index vector names every operand axis, in order -/

/-- The start of the one window on axis a is entry a of the index vector (three axes). -/
macro "start_by_axes3" : tactic =>
  `(tactic| (intro y idx a
             match a with
             | ⟨0, _⟩ => exact congrArg (fun i => (idx i).toInt) (funext fun b => match b with | ⟨0, _⟩ => rfl)
             | ⟨1, _⟩ => exact congrArg (fun i => (idx i).toInt) (funext fun b => match b with | ⟨0, _⟩ => rfl)
             | ⟨2, _⟩ => exact congrArg (fun i => (idx i).toInt) (funext fun b => match b with | ⟨0, _⟩ => rfl)))
/-- The same for two axes. -/
macro "start_by_axes2" : tactic =>
  `(tactic| (intro y idx a
             match a with
             | ⟨0, _⟩ => exact congrArg (fun i => (idx i).toInt) (funext fun b => match b with | ⟨0, _⟩ => rfl)
             | ⟨1, _⟩ => exact congrArg (fun i => (idx i).toInt) (funext fun b => match b with | ⟨0, _⟩ => rfl)))

theorem start_bd0 : ∀ y (idx : IVec S2 32) (a : Fin 2),
    scatter_S8x64_S2_S4x32_01_n_01_0.start y idx a = (idx (ix1 a)).toInt := by start_by_axes2
theorem start_bd1 : ∀ y (idx : IVec S2 32) (a : Fin 2),
    scatter_S64x64_S2_S32x32_01_n_01_0.start y idx a = (idx (ix1 a)).toInt := by start_by_axes2
theorem start_W0 : ∀ y (idx : IVec S3 32) (a : Fin 3),
    scatter_S5x128x128_S3_S8x64_01_0_012_0.start y idx a = (idx (ix1 a)).toInt := by start_by_axes3
theorem start_W1 : ∀ y (idx : IVec S3 32) (a : Fin 3),
    scatter_S5x128x128_S3_S64x64_01_0_012_0.start y idx a = (idx (ix1 a)).toInt := by start_by_axes3
theorem start_W2 : ∀ y (idx : IVec S3 32) (a : Fin 3),
    scatter_S5x128x128_S3_S64x32_01_0_012_0.start y idx a = (idx (ix1 a)).toInt := by start_by_axes3
theorem start_W3 : ∀ y (idx : IVec S3 32) (a : Fin 3),
    scatter_S5x128x128_S3_S32x32_01_0_012_0.start y idx a = (idx (ix1 a)).toInt := by start_by_axes3
theorem start_W4 : ∀ y (idx : IVec S3 32) (a : Fin 3),
    scatter_S5x128x128_S3_S32x8_01_0_012_0.start y idx a = (idx (ix1 a)).toInt := by start_by_axes3
theorem start_B64 : ∀ y (idx : IVec S3 32) (a : Fin 3),
    scatter_S5x1x128_S3_S64_0_01_012_0.start y idx a = (idx (ix1 a)).toInt := by start_by_axes3
theorem start_B32 : ∀ y (idx : IVec S3 32) (a : Fin 3),
    scatter_S5x1x128_S3_S32_0_01_012_0.start y idx a = (idx (ix1 a)).toInt := by start_by_axes3
theorem start_B8 : ∀ y (idx : IVec S3 32) (a : Fin 3),
    scatter_S5x1x128_S3_S8_0_01_012_0.start y idx a = (idx (ix1 a)).toInt := by start_by_axes3

/-! ## The fused matrices and the slabs, read at an index -/

section Slabs
open Cert.Mlp

theorem bd0_nat (w0 w2 : S4x32.Idx → EReal) (k j : ℕ) :
    nat2 (bd0 w0 w2) k j = bdiag 4 32 (nat2 w0) (nat2 w2) k j :=
  bdiag_of_scatters (P := 8) (Q := 64) (p := 4) (q := 32) rfl rfl scatter_S8x64_S2_S4x32_01_n_01_0
    (fun _ => rfl) (fun _ => rfl) start_bd0 (zeros S8x64 bcast_S_S8x64) (zeros_apply _ _) w0 w2
    (iv2 0#32 0#32) (iv2 4#32 32#32) (by rw [iv2_0]; rfl) (by rw [iv2_1]; rfl) (by rw [iv2_0]; rfl) (by rw [iv2_1]; rfl) k j

theorem bd1_nat (w1 w3 : S32x32.Idx → EReal) (k j : ℕ) :
    nat2 (bd1 w1 w3) k j = bdiag 32 32 (nat2 w1) (nat2 w3) k j :=
  bdiag_of_scatters (P := 64) (Q := 64) (p := 32) (q := 32) rfl rfl scatter_S64x64_S2_S32x32_01_n_01_0
    (fun _ => rfl) (fun _ => rfl) start_bd1 (zeros S64x64 bcast_S_S64x64) (zeros_apply _ _) w1 w3
    (iv2 0#32 0#32) (iv2 32#32 32#32) (by rw [iv2_0]; rfl) (by rw [iv2_1]; rfl) (by rw [iv2_0]; rfl) (by rw [iv2_1]; rfl) k j

/-- The weight slab at layer l, row k, column j: the one matrix written at layer l, inside its extents; zero elsewhere. -/
theorem slabW_apply (w0 : S4x32.Idx → EReal) (w1 : S32x32.Idx → EReal) (w2 : S4x32.Idx → EReal) (w3 : S32x32.Idx → EReal)
    (w4 : S64x32.Idx → EReal) (w5 : S32x32.Idx → EReal) (w6 : S32x8.Idx → EReal) (l : Fin 5) (k j : Fin 128) :
    slabW w0 w1 w2 w3 w4 w5 w6 (ix3 l k j)
      = if l.val = 4 ∧ k.val < 32 ∧ j.val < 8 then nat2 w6 k.val j.val
        else if l.val = 3 ∧ k.val < 32 ∧ j.val < 32 then nat2 w5 k.val j.val
        else if l.val = 2 ∧ k.val < 64 ∧ j.val < 32 then nat2 w4 k.val j.val
        else if l.val = 1 ∧ k.val < 64 ∧ j.val < 64 then nat2 (bd1 w1 w3) k.val j.val
        else if l.val = 0 ∧ k.val < 8 ∧ j.val < 64 then nat2 (bd0 w0 w2) k.val j.val
        else 0 := by
  unfold slabW
  rw [scatter_slab_nat (by norm_num) (by norm_num) scatter_S5x128x128_S3_S32x8_01_0_012_0 (fun _ => rfl) (fun _ => rfl) (fun _ => rfl)
        start_W4 _ (iv3 4#32 0#32 0#32) w6 (4 : Fin 5) (by rw [iv3_0]; rfl) (by rw [iv3_1]; rfl) (by rw [iv3_2]; rfl) l k j,
    scatter_slab_nat (by norm_num) (by norm_num) scatter_S5x128x128_S3_S32x32_01_0_012_0 (fun _ => rfl) (fun _ => rfl) (fun _ => rfl)
        start_W3 _ (iv3 3#32 0#32 0#32) w5 (3 : Fin 5) (by rw [iv3_0]; rfl) (by rw [iv3_1]; rfl) (by rw [iv3_2]; rfl) l k j,
    scatter_slab_nat (by norm_num) (by norm_num) scatter_S5x128x128_S3_S64x32_01_0_012_0 (fun _ => rfl) (fun _ => rfl) (fun _ => rfl)
        start_W2 _ (iv3 2#32 0#32 0#32) w4 (2 : Fin 5) (by rw [iv3_0]; rfl) (by rw [iv3_1]; rfl) (by rw [iv3_2]; rfl) l k j,
    scatter_slab_nat (by norm_num) (by norm_num) scatter_S5x128x128_S3_S64x64_01_0_012_0 (fun _ => rfl) (fun _ => rfl) (fun _ => rfl)
        start_W1 _ (iv3 1#32 0#32 0#32) (bd1 w1 w3) (1 : Fin 5) (by rw [iv3_0]; rfl) (by rw [iv3_1]; rfl) (by rw [iv3_2]; rfl) l k j,
    scatter_slab_nat (by norm_num) (by norm_num) scatter_S5x128x128_S3_S8x64_01_0_012_0 (fun _ => rfl) (fun _ => rfl) (fun _ => rfl)
        start_W0 _ (iv3 0#32 0#32 0#32) (bd0 w0 w2) (0 : Fin 5) (by rw [iv3_0]; rfl) (by rw [iv3_1]; rfl) (by rw [iv3_2]; rfl) l k j,
    zeros_apply]
  rfl

/-- The bias slab at row l, entry j. -/
theorem slabB_apply (b0 b1 b2 b3 b4 b5 : S32.Idx → EReal) (b6 : S8.Idx → EReal) (l : Fin 5) (z : Fin 1) (j : Fin 128) :
    slabB b0 b1 b2 b3 b4 b5 b6 (ix3 l z j)
      = if l.val = 4 ∧ j.val < 8 then nat1 b6 j.val
        else if l.val = 3 ∧ j.val < 32 then nat1 b5 j.val
        else if l.val = 2 ∧ j.val < 32 then nat1 b4 j.val
        else if l.val = 1 ∧ j.val < 64 then nat1 (cat2 b1 b3) j.val
        else if l.val = 0 ∧ j.val < 64 then nat1 (cat2 b0 b2) j.val
        else 0 := by
  unfold slabB
  rw [scatter_bias_nat (by norm_num) scatter_S5x1x128_S3_S8_0_01_012_0 (fun _ => rfl) (fun _ => rfl) (fun _ => rfl)
        start_B8 _ (iv3 4#32 0#32 0#32) b6 (4 : Fin 5) (by rw [iv3_0]; rfl) (by rw [iv3_1]; rfl) (by rw [iv3_2]; rfl) l z j,
    scatter_bias_nat (by norm_num) scatter_S5x1x128_S3_S32_0_01_012_0 (fun _ => rfl) (fun _ => rfl) (fun _ => rfl)
        start_B32 _ (iv3 3#32 0#32 0#32) b5 (3 : Fin 5) (by rw [iv3_0]; rfl) (by rw [iv3_1]; rfl) (by rw [iv3_2]; rfl) l z j,
    scatter_bias_nat (by norm_num) scatter_S5x1x128_S3_S32_0_01_012_0 (fun _ => rfl) (fun _ => rfl) (fun _ => rfl)
        start_B32 _ (iv3 2#32 0#32 0#32) b4 (2 : Fin 5) (by rw [iv3_0]; rfl) (by rw [iv3_1]; rfl) (by rw [iv3_2]; rfl) l z j,
    scatter_bias_nat (by norm_num) scatter_S5x1x128_S3_S64_0_01_012_0 (fun _ => rfl) (fun _ => rfl) (fun _ => rfl)
        start_B64 _ (iv3 1#32 0#32 0#32) (cat2 b1 b3) (1 : Fin 5) (by rw [iv3_0]; rfl) (by rw [iv3_1]; rfl) (by rw [iv3_2]; rfl) l z j,
    scatter_bias_nat (by norm_num) scatter_S5x1x128_S3_S64_0_01_012_0 (fun _ => rfl) (fun _ => rfl) (fun _ => rfl)
        start_B64 _ (iv3 0#32 0#32 0#32) (cat2 b0 b2) (0 : Fin 5) (by rw [iv3_0]; rfl) (by rw [iv3_1]; rfl) (by rw [iv3_2]; rfl) l z j,
    zeros_apply]
  rfl

end Slabs

/-! ## The three input arrays of the region, as terms over the arguments -/

set_option maxHeartbeats 4000000 in
open Idealize.ShloMosaic.StableHlo in
/-- The padded input is the one scatter of the input onto zeros. -/
theorem v74_eq (c : Dev nD) : (RV m c main_v74 : S1048576x128.Idx → EReal)
    = Host.scatter scatter_S1048576x128_S1_S1048576x8_01_n_1_0 (fun _ b => b)
        (zeros S1048576x128 bcast_S_S1048576x128) (iv1 0#32) (m ((c : Thread nD τ).loc main_arg0)) := by
  show StableHlo.after (hostOps0 (F := Ideal)) (fun b => m (c, b)) (Proc.devRef .tc main_v74) = _
  dsimp only [hostOps0]
  after_results_simp3

set_option maxHeartbeats 4000000 in
open Idealize.ShloMosaic.StableHlo in
/-- The weight slab is the five scatters of the fused matrices onto zeros. -/
theorem v66_eq (c : Dev nD) : (RV m c main_v66 : S5x128x128.Idx → EReal)
    = slabW (m ((c : Thread nD τ).loc main_arg1)) (m ((c : Thread nD τ).loc main_arg3)) (m ((c : Thread nD τ).loc main_arg5))
        (m ((c : Thread nD τ).loc main_arg7)) (m ((c : Thread nD τ).loc main_arg9)) (m ((c : Thread nD τ).loc main_arg11))
        (m ((c : Thread nD τ).loc main_arg13)) := by
  show StableHlo.after (hostOps0 (F := Ideal)) (fun b => m (c, b)) (Proc.devRef .tc main_v66) = _
  dsimp only [hostOps0]
  after_results_simp3
  rfl

set_option maxHeartbeats 4000000 in
open Idealize.ShloMosaic.StableHlo in
/-- The bias slab is the five scatters of the fused biases onto zeros. -/
theorem v71_eq (c : Dev nD) : (RV m c main_v71 : S5x1x128.Idx → EReal)
    = slabB (m ((c : Thread nD τ).loc main_arg2)) (m ((c : Thread nD τ).loc main_arg4)) (m ((c : Thread nD τ).loc main_arg6))
        (m ((c : Thread nD τ).loc main_arg8)) (m ((c : Thread nD τ).loc main_arg10)) (m ((c : Thread nD τ).loc main_arg12))
        (m ((c : Thread nD τ).loc main_arg14)) := by
  show StableHlo.after (hostOps0 (F := Ideal)) (fun b => m (c, b)) (Proc.devRef .tc main_v71) = _
  dsimp only [hostOps0]
  after_results_simp3
  rfl

/-- The same contents, with the list of operations wrapped as a one-element list of stretches. -/
theorem RV_of_flatten (c : Dev nD) (b : Ref sig .tc) :
    StableHlo.after (List.flatten [hostOps0 (F := Ideal)]) (fun b => m (c, b)) (Proc.devRef .tc b) = RV m c b := by
  simp only [List.flatten_cons, List.flatten_nil, List.append_nil]

/-! ## The statements -/

section Statements
open Cert.Mlp

/-- The fused layers of the program's fourteen parameter arrays, as core c holds them at launch. -/
abbrev P (c : Dev nD) : Layers :=
  layersOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14))

/-- The padded input: the sample's eight entries, then zeros. -/
theorem xpad_eq (c : Dev nD) (n : Fin 1048576) (k : Fin 128) :
    (RV m c main_v74 : S1048576x128.Idx → EReal) (ix2 n k) = nat2 (m ((c : Thread nD τ).loc main_arg0)) n.val k.val := by
  rw [v74_eq, scatter_pad_apply _ _ _ (fun _ => rfl)]
  by_cases hk : k.val < 8
  · rw [dif_pos hk]
    exact (nat2_of_lt (m ((c : Thread nD τ).loc main_arg0)) n ⟨k.val, hk⟩).symm
  · rw [dif_neg hk, zeros_apply, nat2_col_ge _ _ _ (Nat.not_lt.1 hk)]

/-- At a layer of the slab exactly one of the five matrices is read; outside its extents it and the slab are both zero. -/
macro "pick_layer" : tactic =>
  `(tactic| (split_ifs <;> first
      | rfl | (exfalso; omega)
      | exact (nat2_eq_zero_of_not _ _ _ (by omega)).symm | exact (nat1_eq_zero_of_not _ _ (by omega)).symm))

variable (w0 : S4x32.Idx → EReal) (w1 : S32x32.Idx → EReal) (w2 : S4x32.Idx → EReal) (w3 : S32x32.Idx → EReal)
  (w4 : S64x32.Idx → EReal) (w5 : S32x32.Idx → EReal) (w6 : S32x8.Idx → EReal)
  (b0 b1 b2 b3 b4 b5 : S32.Idx → EReal) (b6 : S8.Idx → EReal)

theorem slabW_layer0 (l : Fin 5) (hl : l.val = 0) (k j : Fin 128) :
    slabW w0 w1 w2 w3 w4 w5 w6 (ix3 l k j) = bdiag 4 32 (nat2 w0) (nat2 w2) k.val j.val := by
  rw [slabW_apply, ← bd0_nat]; pick_layer
theorem slabW_layer1 (l : Fin 5) (hl : l.val = 1) (k j : Fin 128) :
    slabW w0 w1 w2 w3 w4 w5 w6 (ix3 l k j) = bdiag 32 32 (nat2 w1) (nat2 w3) k.val j.val := by
  rw [slabW_apply, ← bd1_nat]; pick_layer
theorem slabW_layer2 (l : Fin 5) (hl : l.val = 2) (k j : Fin 128) :
    slabW w0 w1 w2 w3 w4 w5 w6 (ix3 l k j) = nat2 w4 k.val j.val := by
  rw [slabW_apply]; pick_layer
theorem slabW_layer3 (l : Fin 5) (hl : l.val = 3) (k j : Fin 128) :
    slabW w0 w1 w2 w3 w4 w5 w6 (ix3 l k j) = nat2 w5 k.val j.val := by
  rw [slabW_apply]; pick_layer
theorem slabW_layer4 (l : Fin 5) (hl : l.val = 4) (k j : Fin 128) :
    slabW w0 w1 w2 w3 w4 w5 w6 (ix3 l k j) = nat2 w6 k.val j.val := by
  rw [slabW_apply]; pick_layer

theorem slabB_row0 (l : Fin 5) (hl : l.val = 0) (z : Fin 1) (j : Fin 128) :
    slabB b0 b1 b2 b3 b4 b5 b6 (ix3 l z j) = cat 32 (nat1 b0) (nat1 b2) j.val := by
  rw [slabB_apply, ← cat_of_concatenate]; pick_layer
theorem slabB_row1 (l : Fin 5) (hl : l.val = 1) (z : Fin 1) (j : Fin 128) :
    slabB b0 b1 b2 b3 b4 b5 b6 (ix3 l z j) = cat 32 (nat1 b1) (nat1 b3) j.val := by
  rw [slabB_apply, ← cat_of_concatenate]; pick_layer
theorem slabB_row2 (l : Fin 5) (hl : l.val = 2) (z : Fin 1) (j : Fin 128) :
    slabB b0 b1 b2 b3 b4 b5 b6 (ix3 l z j) = nat1 b4 j.val := by
  rw [slabB_apply]; pick_layer
theorem slabB_row3 (l : Fin 5) (hl : l.val = 3) (z : Fin 1) (j : Fin 128) :
    slabB b0 b1 b2 b3 b4 b5 b6 (ix3 l z j) = nat1 b5 j.val := by
  rw [slabB_apply]; pick_layer
theorem slabB_row4 (l : Fin 5) (hl : l.val = 4) (z : Fin 1) (j : Fin 128) :
    slabB b0 b1 b2 b3 b4 b5 b6 (ix3 l z j) = nat1 b6 j.val := by
  rw [slabB_apply]; pick_layer

/-- Layer 0 of the weight slab is the first fused matrix. -/
theorem W0_eq (c : Dev nD) (k j : Fin 128) :
    (RV m c main_v66 : S5x128x128.Idx → EReal) (ix3 (0 : Fin 5) k j) = (P m c).L0 k.val j.val := by
  rw [v66_eq]; exact slabW_layer0 _ _ _ _ _ _ _ (0 : Fin 5) rfl k j
/-- Layer 1 is the second. -/
theorem W1_eq (c : Dev nD) (k j : Fin 128) :
    (RV m c main_v66 : S5x128x128.Idx → EReal) (ix3 (1 : Fin 5) k j) = (P m c).L1 k.val j.val := by
  rw [v66_eq]; exact slabW_layer1 _ _ _ _ _ _ _ (1 : Fin 5) rfl k j
/-- Layer 2 is the third. -/
theorem W2_eq (c : Dev nD) (k j : Fin 128) :
    (RV m c main_v66 : S5x128x128.Idx → EReal) (ix3 (2 : Fin 5) k j) = (P m c).L2 k.val j.val := by
  rw [v66_eq]; exact slabW_layer2 _ _ _ _ _ _ _ (2 : Fin 5) rfl k j
/-- Layer 3 is the fourth. -/
theorem W3_eq (c : Dev nD) (k j : Fin 128) :
    (RV m c main_v66 : S5x128x128.Idx → EReal) (ix3 (3 : Fin 5) k j) = (P m c).L3 k.val j.val := by
  rw [v66_eq]; exact slabW_layer3 _ _ _ _ _ _ _ (3 : Fin 5) rfl k j
/-- Layer 4 is the output matrix. -/
theorem W4_eq (c : Dev nD) (k j : Fin 128) :
    (RV m c main_v66 : S5x128x128.Idx → EReal) (ix3 (4 : Fin 5) k j) = (P m c).L4 k.val j.val := by
  rw [v66_eq]; exact slabW_layer4 _ _ _ _ _ _ _ (4 : Fin 5) rfl k j

/-- Row 0 of the bias slab is the first fused bias. -/
theorem b0_eq (c : Dev nD) (j : Fin 128) :
    (RV m c main_v71 : S5x1x128.Idx → EReal) (ix3 (0 : Fin 5) 0 j) = (P m c).c0 j.val := by
  rw [v71_eq]; exact slabB_row0 _ _ _ _ _ _ _ (0 : Fin 5) rfl 0 j
/-- Row 1 is the second. -/
theorem b1_eq (c : Dev nD) (j : Fin 128) :
    (RV m c main_v71 : S5x1x128.Idx → EReal) (ix3 (1 : Fin 5) 0 j) = (P m c).c1 j.val := by
  rw [v71_eq]; exact slabB_row1 _ _ _ _ _ _ _ (1 : Fin 5) rfl 0 j
/-- Row 2 is the third. -/
theorem b2_eq (c : Dev nD) (j : Fin 128) :
    (RV m c main_v71 : S5x1x128.Idx → EReal) (ix3 (2 : Fin 5) 0 j) = (P m c).c2 j.val := by
  rw [v71_eq]; exact slabB_row2 _ _ _ _ _ _ _ (2 : Fin 5) rfl 0 j
/-- Row 3 is the fourth. -/
theorem b3_eq (c : Dev nD) (j : Fin 128) :
    (RV m c main_v71 : S5x1x128.Idx → EReal) (ix3 (3 : Fin 5) 0 j) = (P m c).c3 j.val := by
  rw [v71_eq]; exact slabB_row3 _ _ _ _ _ _ _ (3 : Fin 5) rfl 0 j
/-- Row 4 is the output bias. -/
theorem b4_eq (c : Dev nD) (j : Fin 128) :
    (RV m c main_v71 : S5x1x128.Idx → EReal) (ix3 (4 : Fin 5) 0 j) = (P m c).c4 j.val := by
  rw [v71_eq]; exact slabB_row4 _ _ _ _ _ _ _ (4 : Fin 5) rfl 0 j

end Statements

end Cert.ReferenceIdeal.Prefix

end
-- ==== Proof.RefResult.lean ====
/-
  The padded program's result array is the network's result on its argument arrays: the host operations before the
  region leave the input padded to 128 lanes and the two slabs of the fused layers' weights and biases (`Prefix`), and
  the region and the slice after it turn those into the network on every row (`result_of_arrays`).
-/
import proofs.«138684_g2000407009072039_pallasbulk_686_4_alg».proof.Proof.RefJoin
import proofs.«138684_g2000407009072039_pallasbulk_686_4_alg».proof.Proof.RefPrefix

noncomputable section

namespace Cert.ReferenceIdeal.RefValue

open Idealize.ShloMosaic Idealize.ShloMosaic.ValueIdx Idealize.ShloMosaic.TcCoe Idealize.SL.Sem
open Cert.ReferenceIdeal Cert.ReferenceIdeal.Gen

variable (m : (ℓ : Loc nD τ sig) → Buf (Elt Ideal) ℓ)

/-- The buffers at the region's entry, as the host prefix's lemmas name them. -/
theorem V_eq (c : Dev nD) (b : Ref sig .tc) : Cert.ReferenceIdeal.Hand.V m c b = Cert.ReferenceIdeal.Prefix.RV m c b :=
  Cert.ReferenceIdeal.Prefix.RV_of_flatten m c b

theorem result_eq (c : Dev nD) :
    result (Cert.ReferenceIdeal.Hand.V m c main_v74) (Cert.ReferenceIdeal.Hand.V m c main_v66) (Cert.ReferenceIdeal.Hand.V m c main_v71)
      = Cert.Mlp.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [V_eq m c main_v74, V_eq m c main_v66, V_eq m c main_v71]
  exact result_of_arrays (Cert.ReferenceIdeal.Prefix.P m c) (Cert.Mlp.layersOf_ok _ _ _ _ _ _ _ _ _ _ _ _ _ _) (m ((c.tc : Thread nD τ).loc main_arg0)) _ _ _
    (Cert.ReferenceIdeal.Prefix.xpad_eq m c)
    (Cert.ReferenceIdeal.Prefix.W0_eq m c) (Cert.ReferenceIdeal.Prefix.b0_eq m c)
    (Cert.ReferenceIdeal.Prefix.W1_eq m c) (Cert.ReferenceIdeal.Prefix.b1_eq m c)
    (Cert.ReferenceIdeal.Prefix.W2_eq m c) (Cert.ReferenceIdeal.Prefix.b2_eq m c)
    (Cert.ReferenceIdeal.Prefix.W3_eq m c) (Cert.ReferenceIdeal.Prefix.b3_eq m c)
    (Cert.ReferenceIdeal.Prefix.W4_eq m c) (Cert.ReferenceIdeal.Prefix.b4_eq m c)

end Cert.ReferenceIdeal.RefValue

end
-- ==== Proof.lean ====
/-
  The certificate of the claim: a five-layer network computed two ways.

  Both programs compute, for each of 1048576 samples of eight numbers, two parallel branches 4 → 32 → 32 (fused into
  block-diagonal layers 8 → 64 → 64), then 64 → 32 → 32 with a rectifier after each of these four layers, and a last
  affine layer 32 → 8.  The kernel keeps the samples on the columns and multiplies from the left by matrices that
  carry each bias as one more column, against a channel that is constantly one; the reference keeps the samples on the
  rows, pads every layer to 128 lanes with zero weights and adds the bias separately.  Over the extended reals the
  two are one function of the fifteen argument arrays (`Cert.Mlp.result`): a padded weight is zero and `x * 0 = 0`,
  the bias column meets the one and `b * 1 = b`, and the product commutes — no other law, so the finiteness of the
  inputs is never used.

  The frames: the kernel's two programs have their frame runs from the imported frame modules; the reference, which is
  itself a grid region between host operations, has its frame run in `RefFrame`.  The ideal pass rewrote nothing, so
  the idealization claim is `True`.  The algebraic claim: each program's run is re-posted with its result array named
  (`KerValue.value_run`, `RefValue.value_run`), each result array is the network's result on the program's own
  arguments (`result_eq`), and the two memories agree on the arguments.
-/
import proofs.«138684_g2000407009072039_pallasbulk_686_4_alg».proof.Defs
import proofs.«138684_g2000407009072039_pallasbulk_686_4_alg».proof.Proof.Gen.Kernel
import proofs.«138684_g2000407009072039_pallasbulk_686_4_alg».proof.Proof.Gen.Kernel.Frame
import proofs.«138684_g2000407009072039_pallasbulk_686_4_alg».proof.Proof.Gen.KernelIdeal
import proofs.«138684_g2000407009072039_pallasbulk_686_4_alg».proof.Proof.Gen.KernelIdeal.Frame
import proofs.«138684_g2000407009072039_pallasbulk_686_4_alg».proof.Proof.Gen.ReferenceIdeal
import proofs.«138684_g2000407009072039_pallasbulk_686_4_alg».proof.Proof.Gen.Pre_finite_inputs
import proofs.«138684_g2000407009072039_pallasbulk_686_4_alg».proof.Proof.RefFrame
import proofs.«138684_g2000407009072039_pallasbulk_686_4_alg».proof.Proof.KerResult
import proofs.«138684_g2000407009072039_pallasbulk_686_4_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Hand.frame m ρ

/-- The ideal pass rewrote no operation: nothing to state. -/
theorem preserves : Cert.preserves_Kernel_KernelIdeal := trivial

/-- Both programs end with the network's result on the kernel's arguments; the reference's own arguments are the same
    arrays, by the agreement of the two memories. -/
theorem algebraic : Cert.algebraic_KernelIdeal_ReferenceIdeal := by
  intro m ρ m' ρ' _ hagree
  refine ⟨fun c => Cert.Mlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KerValue.result_eq m c), (h c).2⟩)
      (Cert.KernelIdeal.KerValue.value_run m ρ)
  · refine (θ_run Cert.ReferenceIdeal.defs _ _).mono
      (fun r h c => ⟨(h c).1.trans ((Cert.ReferenceIdeal.RefValue.result_eq m' c).trans ?_), (h c).2⟩)
      (Cert.ReferenceIdeal.RefValue.value_run m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
